-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S100x1 : Shape := ⟨2, ![100, 1]⟩
abbrev S_ : Shape := ⟨0, ![]⟩

class Facts : Prop where
  bcast_S_S100x1 : S_.BroadcastsInDim S100x1 (![] : Fin 0 → Fin S100x1.rank)
  reducesTo_S100x1_S_d0_1 : S100x1.ReducesTo [0, 1] S_
  h_S_ : 0 < S_.numel
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S100x1 .f32) : IVec S_ 1 :=
  let main_v0 : FVec F S100x1 .f32 := Host.absf main_arg1
  let main_cst : FVec F S_ .f32 := constant S_ .f32 0x7F800000#32
  let main_v1 : FVec F S100x1 .f32 := broadcastInDim S100x1 ![] bcast_S_S100x1 main_cst
  let main_v2 : IVec S100x1 1 := cmpf .olt main_v0 main_v1
  let main_c : IVec S_ 1 := constantI S_ 1 1#1
  let main_v3 : IVec S_ 1 := (fun x v => Host.reduce IntOp.andi x v reducesTo_S100x1_S_d0_1 h_S_) main_v2 main_c
  let main_c_0 : IVec S_ 32 := constantI S_ 32 0#32
  let main_v4 : IVec S16384x200 32 := broadcastInDim S16384x200 ![] bcast_S_S16384x200 main_c_0
  let main_v5 : IVec S16384x200 1 := cmpi .sge main_arg0 main_v4
  let main_c_1 : IVec S_ 32 := constantI S_ 32 99#32
  let main_v6 : IVec S16384x200 32 := broadcastInDim S16384x200 ![] bcast_S_S16384x200 main_c_1
  let main_v7 : IVec S16384x200 1 := cmpi .sle main_arg0 main_v6
  let main_v8 : IVec S16384x200 1 := andi main_v5 main_v7
  let main_c_2 : IVec S_ 1 := constantI S_ 1 1#1
  let main_v9 : IVec S_ 1 := (fun x v => Host.reduce IntOp.andi x v reducesTo_S16384x200_S_d0_1 h_S_) main_v8 main_c_2
  let main_v10 : IVec S_ 1 := andi main_v3 main_v9
  main_v10
-- ==== Kernel.lean ====
abbrev S16384x200 : Shape := ⟨2, ![16384, 200]⟩
abbrev S100x1 : Shape := ⟨2, ![100, 1]⟩
abbrev S100 : Shape := ⟨1, ![100]⟩
abbrev S_ : Shape := ⟨0, ![]⟩
abbrev S128 : Shape := ⟨1, ![128]⟩
abbrev S1 : Shape := ⟨1, ![1]⟩
abbrev S1x128 : Shape := ⟨2, ![1, 128]⟩
abbrev S128x1 : Shape := ⟨2, ![128, 1]⟩
abbrev S128x128 : Shape := ⟨2, ![128, 128]⟩
abbrev S16384 : Shape := ⟨1, ![16384]⟩
abbrev S200x16384 : Shape := ⟨2, ![200, 16384]⟩
abbrev S200x128 : Shape := ⟨2, ![200, 128]⟩
abbrev S512 : Shape := ⟨1, ![512]⟩
abbrev S16 : Shape := ⟨1, ![16]⟩
abbrev S1x16 : Shape := ⟨2, ![1, 16]⟩

abbrev nBuf : Table → Nat
  | .hbm => 16
  | .local .scVector .vmem => 4
  | _ => 0

abbrev bufTy : (tb : Table) → Fin (nBuf tb) → BufTy
  | .hbm, ⟨0, _⟩ => ⟨S16384x200, .i32⟩
  | .hbm, ⟨1, _⟩ => ⟨S100x1, .f32⟩
  | .hbm, ⟨2, _⟩ => ⟨S100, .f32⟩
  | .hbm, ⟨3, _⟩ => ⟨S_, .f32⟩
  | .hbm, ⟨4, _⟩ => ⟨S128, .f32⟩
  | .hbm, ⟨5, _⟩ => ⟨S_, .i32⟩
  | .hbm, ⟨6, _⟩ => ⟨S1, .i32⟩
  | .hbm, ⟨7, _⟩ => ⟨S128, .f32⟩
  | .hbm, ⟨8, _⟩ => ⟨S1x128, .f32⟩
  | .hbm, ⟨9, _⟩ => ⟨S128x1, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S16384, .f32⟩
  | .hbm, ⟨14, _⟩ => ⟨S200x16384, .i32⟩
  | .hbm, ⟨15, _⟩ => ⟨S16384, .f32⟩
  | .local .scVector .vmem, ⟨0, _⟩ => ⟨S16384, .f32⟩
  | .local .scVector .vmem, ⟨1, _⟩ => ⟨S200x128, .i32⟩
  | .local .scVector .vmem, ⟨2, _⟩ => ⟨S200x128, .i32⟩
  | .local .scVector .vmem, ⟨3, _⟩ => ⟨S512, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v10_scv : Ref sig .scVector := ⟨.hbm, 14, rfl⟩
abbrev main_v9_scv : Ref sig .scVector := ⟨.hbm, 13, rfl⟩
abbrev main_v11_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k0_off2 (i : grid0.Coords) (c128_i32 : BitVec 32) : Fin 2 → Nat :=
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi v2 c128_i32
  ![0, v5.toNat]
@[reducible] def k0_t1_loop : Scf.Loop 32 :=
  let c0_i32_5 : BitVec 32 := 0#32
  let c100_i32 : BitVec 32 := 100#32
  let v11 : BitVec 32 := Scalar.addi c0_i32_5 c100_i32
  let c1_i32 : BitVec 32 := 1#32
  ⟨c0_i32_5, v11, c1_i32⟩
def k0_off3 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v69 : Index := Scalar.indexCast v68
  let c0_35 : Index := 0#32
  ![v69.toNat, 0]
def k0_off4 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_36 : BitVec 32 := 1#32
  let v71 : BitVec 32 := Scalar.addi v68 c1_i32_36
  let v72 : Index := Scalar.indexCast v71
  let c0_37 : Index := 0#32
  ![v72.toNat, 0]

def k0_chk1 (v76 : IVec S16 32) : Prop :=
  (∀ a x, ((![v76] : Fin 1 → IVec S16 32) a x).toNat < S16384.size a)
instance k0_chk1.dec : ∀ (v76 : IVec S16 32), Decidable (k0_chk1 v76) := fun v76 => decidable_of_iff' _ (Iff.of_eq (k0_chk1.eq_1 v76))
theorem k0_idx1_inb : ∀ (v76 : IVec S16 32) (k0_hw1 : k0_chk1 v76), ∀ a x, ((![v76] : Fin 1 → IVec S16 32) a x).toNat < S16384.size a := fun v76 k0_hw1 => k0_hw1
def k0_off5 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v79 : Index := Scalar.indexCast v68
  let c16_38 : Index := 16#32
  ![v79.toNat, 16]
def k0_off6 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_39 : BitVec 32 := 1#32
  let v81 : BitVec 32 := Scalar.addi v68 c1_i32_39
  let v82 : Index := Scalar.indexCast v81
  let c16_40 : Index := 16#32
  ![v82.toNat, 16]

def k0_chk2 (v86 : IVec S16 32) : Prop :=
  (∀ a x, ((![v86] : Fin 1 → IVec S16 32) a x).toNat < S16384.size a)
instance k0_chk2.dec : ∀ (v86 : IVec S16 32), Decidable (k0_chk2 v86) := fun v86 => decidable_of_iff' _ (Iff.of_eq (k0_chk2.eq_1 v86))
theorem k0_idx2_inb : ∀ (v86 : IVec S16 32) (k0_hw2 : k0_chk2 v86), ∀ a x, ((![v86] : Fin 1 → IVec S16 32) a x).toNat < S16384.size a := fun v86 k0_hw2 => k0_hw2
def k0_off7 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v89 : Index := Scalar.indexCast v68
  let c32_42 : Index := 32#32
  ![v89.toNat, 32]
def k0_off8 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_43 : BitVec 32 := 1#32
  let v91 : BitVec 32 := Scalar.addi v68 c1_i32_43
  let v92 : Index := Scalar.indexCast v91
  let c32_44 : Index := 32#32
  ![v92.toNat, 32]

def k0_chk3 (v96 : IVec S16 32) : Prop :=
  (∀ a x, ((![v96] : Fin 1 → IVec S16 32) a x).toNat < S16384.size a)
instance k0_chk3.dec : ∀ (v96 : IVec S16 32), Decidable (k0_chk3 v96) := fun v96 => decidable_of_iff' _ (Iff.of_eq (k0_chk3.eq_1 v96))
theorem k0_idx3_inb : ∀ (v96 : IVec S16 32) (k0_hw3 : k0_chk3 v96), ∀ a x, ((![v96] : Fin 1 → IVec S16 32) a x).toNat < S16384.size a := fun v96 k0_hw3 => k0_hw3
def k0_off9 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v99 : Index := Scalar.indexCast v68
  let c48_46 : Index := 48#32
  ![v99.toNat, 48]
def k0_off10 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_47 : BitVec 32 := 1#32
  let v101 : BitVec 32 := Scalar.addi v68 c1_i32_47
  let v102 : Index := Scalar.indexCast v101
  let c48_48 : Index := 48#32
  ![v102.toNat, 48]

def k0_chk4 (v106 : IVec S16 32) : Prop :=
  (∀ a x, ((![v106] : Fin 1 → IVec S16 32) a x).toNat < S16384.size a)
instance k0_chk4.dec : ∀ (v106 : IVec S16 32), Decidable (k0_chk4 v106) := fun v106 => decidable_of_iff' _ (Iff.of_eq (k0_chk4.eq_1 v106))
theorem k0_idx4_inb : ∀ (v106 : IVec S16 32) (k0_hw4 : k0_chk4 v106), ∀ a x, ((![v106] : Fin 1 → IVec S16 32) a x).toNat < S16384.size a := fun v106 k0_hw4 => k0_hw4
def k0_off11 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v109 : Index := Scalar.indexCast v68
  let c64_50 : Index := 64#32
  ![v109.toNat, 64]
def k0_off12 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_51 : BitVec 32 := 1#32
  let v111 : BitVec 32 := Scalar.addi v68 c1_i32_51
  let v112 : Index := Scalar.indexCast v111
  let c64_52 : Index := 64#32
  ![v112.toNat, 64]

def k0_chk5 (v116 : IVec S16 32) : Prop :=
  (∀ a x, ((![v116] : Fin 1 → IVec S16 32) a x).toNat < S16384.size a)
instance k0_chk5.dec : ∀ (v116 : IVec S16 32), Decidable (k0_chk5 v116) := fun v116 => decidable_of_iff' _ (Iff.of_eq (k0_chk5.eq_1 v116))
theorem k0_idx5_inb : ∀ (v116 : IVec S16 32) (k0_hw5 : k0_chk5 v116), ∀ a x, ((![v116] : Fin 1 → IVec S16 32) a x).toNat < S16384.size a := fun v116 k0_hw5 => k0_hw5
def k0_off13 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v119 : Index := Scalar.indexCast v68
  let c80_54 : Index := 80#32
  ![v119.toNat, 80]
def k0_off14 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_55 : BitVec 32 := 1#32
  let v121 : BitVec 32 := Scalar.addi v68 c1_i32_55
  let v122 : Index := Scalar.indexCast v121
  let c80_56 : Index := 80#32
  ![v122.toNat, 80]

def k0_chk6 (v126 : IVec S16 32) : Prop :=
  (∀ a x, ((![v126] : Fin 1 → IVec S16 32) a x).toNat < S16384.size a)
instance k0_chk6.dec : ∀ (v126 : IVec S16 32), Decidable (k0_chk6 v126) := fun v126 => decidable_of_iff' _ (Iff.of_eq (k0_chk6.eq_1 v126))
theorem k0_idx6_inb : ∀ (v126 : IVec S16 32) (k0_hw6 : k0_chk6 v126), ∀ a x, ((![v126] : Fin 1 → IVec S16 32) a x).toNat < S16384.size a := fun v126 k0_hw6 => k0_hw6
def k0_off15 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v129 : Index := Scalar.indexCast v68
  let c96_58 : Index := 96#32
  ![v129.toNat, 96]
def k0_off16 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_59 : BitVec 32 := 1#32
  let v131 : BitVec 32 := Scalar.addi v68 c1_i32_59
  let v132 : Index := Scalar.indexCast v131
  let c96_60 : Index := 96#32
  ![v132.toNat, 96]

def k0_chk7 (v136 : IVec S16 32) : Prop :=
  (∀ a x, ((![v136] : Fin 1 → IVec S16 32) a x).toNat < S16384.size a)
instance k0_chk7.dec : ∀ (v136 : IVec S16 32), Decidable (k0_chk7 v136) := fun v136 => decidable_of_iff' _ (Iff.of_eq (k0_chk7.eq_1 v136))
theorem k0_idx7_inb : ∀ (v136 : IVec S16 32) (k0_hw7 : k0_chk7 v136), ∀ a x, ((![v136] : Fin 1 → IVec S16 32) a x).toNat < S16384.size a := fun v136 k0_hw7 => k0_hw7
def k0_off17 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v139 : Index := Scalar.indexCast v68
  let c112_62 : Index := 112#32
  ![v139.toNat, 112]
def k0_off18 (k0_t1 : Fin k0_t1_loop.trips) : Fin 2 → Nat :=
  let c0_i32_33 : BitVec 32 := 0#32
  let c0_i32_5 : BitVec 32 := 0#32
  let c1_i32 : BitVec 32 := 1#32
  let arg11 : BitVec 32 := Scf.iv c0_i32_5 c1_i32 k0_t1
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_63 : BitVec 32 := 1#32
  let v141 : BitVec 32 := Scalar.addi v68 c1_i32_63
  let v142 : Index := Scalar.indexCast v141
  let c112_64 : Index := 112#32
  ![v142.toNat, 112]

def k0_chk8 (v146 : IVec S16 32) : Prop :=
  (∀ a x, ((![v146] : Fin 1 → IVec S16 32) a x).toNat < S16384.size a)
instance k0_chk8.dec : ∀ (v146 : IVec S16 32), Decidable (k0_chk8 v146) := fun v146 => decidable_of_iff' _ (Iff.of_eq (k0_chk8.eq_1 v146))
theorem k0_idx8_inb : ∀ (v146 : IVec S16 32) (k0_hw8 : k0_chk8 v146), ∀ a x, ((![v146] : Fin 1 → IVec S16 32) a x).toNat < S16384.size a := fun v146 k0_hw8 => k0_hw8
@[reducible] def k0_t2_loop : Scf.Loop 32 :=
  let c0_i32_12 : BitVec 32 := 0#32
  let c100_i32_13 : BitVec 32 := 100#32
  let v27 : BitVec 32 := Scalar.addi c0_i32_12 c100_i32_13
  let c1_i32_14 : BitVec 32 := 1#32
  ⟨c0_i32_12, v27, c1_i32_14⟩
def k0_off19 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v69 : Index := Scalar.indexCast v68
  let c0_35 : Index := 0#32
  ![v69.toNat, 0]
def k0_off20 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_36 : BitVec 32 := 1#32
  let v71 : BitVec 32 := Scalar.addi v68 c1_i32_36
  let v72 : Index := Scalar.indexCast v71
  let c0_37 : Index := 0#32
  ![v72.toNat, 0]

def k0_chk9 (v76 : IVec S16 32) : Prop :=
  (∀ a x, ((![v76] : Fin 1 → IVec S16 32) a x).toNat < S16384.size a)
instance k0_chk9.dec : ∀ (v76 : IVec S16 32), Decidable (k0_chk9 v76) := fun v76 => decidable_of_iff' _ (Iff.of_eq (k0_chk9.eq_1 v76))
theorem k0_idx9_inb : ∀ (v76 : IVec S16 32) (k0_hw9 : k0_chk9 v76), ∀ a x, ((![v76] : Fin 1 → IVec S16 32) a x).toNat < S16384.size a := fun v76 k0_hw9 => k0_hw9
def k0_off21 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v79 : Index := Scalar.indexCast v68
  let c16_38 : Index := 16#32
  ![v79.toNat, 16]
def k0_off22 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_39 : BitVec 32 := 1#32
  let v81 : BitVec 32 := Scalar.addi v68 c1_i32_39
  let v82 : Index := Scalar.indexCast v81
  let c16_40 : Index := 16#32
  ![v82.toNat, 16]

def k0_chk10 (v86 : IVec S16 32) : Prop :=
  (∀ a x, ((![v86] : Fin 1 → IVec S16 32) a x).toNat < S16384.size a)
instance k0_chk10.dec : ∀ (v86 : IVec S16 32), Decidable (k0_chk10 v86) := fun v86 => decidable_of_iff' _ (Iff.of_eq (k0_chk10.eq_1 v86))
theorem k0_idx10_inb : ∀ (v86 : IVec S16 32) (k0_hw10 : k0_chk10 v86), ∀ a x, ((![v86] : Fin 1 → IVec S16 32) a x).toNat < S16384.size a := fun v86 k0_hw10 => k0_hw10
def k0_off23 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v89 : Index := Scalar.indexCast v68
  let c32_42 : Index := 32#32
  ![v89.toNat, 32]
def k0_off24 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_43 : BitVec 32 := 1#32
  let v91 : BitVec 32 := Scalar.addi v68 c1_i32_43
  let v92 : Index := Scalar.indexCast v91
  let c32_44 : Index := 32#32
  ![v92.toNat, 32]

def k0_chk11 (v96 : IVec S16 32) : Prop :=
  (∀ a x, ((![v96] : Fin 1 → IVec S16 32) a x).toNat < S16384.size a)
instance k0_chk11.dec : ∀ (v96 : IVec S16 32), Decidable (k0_chk11 v96) := fun v96 => decidable_of_iff' _ (Iff.of_eq (k0_chk11.eq_1 v96))
theorem k0_idx11_inb : ∀ (v96 : IVec S16 32) (k0_hw11 : k0_chk11 v96), ∀ a x, ((![v96] : Fin 1 → IVec S16 32) a x).toNat < S16384.size a := fun v96 k0_hw11 => k0_hw11
def k0_off25 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v99 : Index := Scalar.indexCast v68
  let c48_46 : Index := 48#32
  ![v99.toNat, 48]
def k0_off26 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_47 : BitVec 32 := 1#32
  let v101 : BitVec 32 := Scalar.addi v68 c1_i32_47
  let v102 : Index := Scalar.indexCast v101
  let c48_48 : Index := 48#32
  ![v102.toNat, 48]

def k0_chk12 (v106 : IVec S16 32) : Prop :=
  (∀ a x, ((![v106] : Fin 1 → IVec S16 32) a x).toNat < S16384.size a)
instance k0_chk12.dec : ∀ (v106 : IVec S16 32), Decidable (k0_chk12 v106) := fun v106 => decidable_of_iff' _ (Iff.of_eq (k0_chk12.eq_1 v106))
theorem k0_idx12_inb : ∀ (v106 : IVec S16 32) (k0_hw12 : k0_chk12 v106), ∀ a x, ((![v106] : Fin 1 → IVec S16 32) a x).toNat < S16384.size a := fun v106 k0_hw12 => k0_hw12
def k0_off27 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v109 : Index := Scalar.indexCast v68
  let c64_50 : Index := 64#32
  ![v109.toNat, 64]
def k0_off28 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_51 : BitVec 32 := 1#32
  let v111 : BitVec 32 := Scalar.addi v68 c1_i32_51
  let v112 : Index := Scalar.indexCast v111
  let c64_52 : Index := 64#32
  ![v112.toNat, 64]

def k0_chk13 (v116 : IVec S16 32) : Prop :=
  (∀ a x, ((![v116] : Fin 1 → IVec S16 32) a x).toNat < S16384.size a)
instance k0_chk13.dec : ∀ (v116 : IVec S16 32), Decidable (k0_chk13 v116) := fun v116 => decidable_of_iff' _ (Iff.of_eq (k0_chk13.eq_1 v116))
theorem k0_idx13_inb : ∀ (v116 : IVec S16 32) (k0_hw13 : k0_chk13 v116), ∀ a x, ((![v116] : Fin 1 → IVec S16 32) a x).toNat < S16384.size a := fun v116 k0_hw13 => k0_hw13
def k0_off29 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v119 : Index := Scalar.indexCast v68
  let c80_54 : Index := 80#32
  ![v119.toNat, 80]
def k0_off30 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_55 : BitVec 32 := 1#32
  let v121 : BitVec 32 := Scalar.addi v68 c1_i32_55
  let v122 : Index := Scalar.indexCast v121
  let c80_56 : Index := 80#32
  ![v122.toNat, 80]

def k0_chk14 (v126 : IVec S16 32) : Prop :=
  (∀ a x, ((![v126] : Fin 1 → IVec S16 32) a x).toNat < S16384.size a)
instance k0_chk14.dec : ∀ (v126 : IVec S16 32), Decidable (k0_chk14 v126) := fun v126 => decidable_of_iff' _ (Iff.of_eq (k0_chk14.eq_1 v126))
theorem k0_idx14_inb : ∀ (v126 : IVec S16 32) (k0_hw14 : k0_chk14 v126), ∀ a x, ((![v126] : Fin 1 → IVec S16 32) a x).toNat < S16384.size a := fun v126 k0_hw14 => k0_hw14
def k0_off31 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v129 : Index := Scalar.indexCast v68
  let c96_58 : Index := 96#32
  ![v129.toNat, 96]
def k0_off32 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_59 : BitVec 32 := 1#32
  let v131 : BitVec 32 := Scalar.addi v68 c1_i32_59
  let v132 : Index := Scalar.indexCast v131
  let c96_60 : Index := 96#32
  ![v132.toNat, 96]

def k0_chk15 (v136 : IVec S16 32) : Prop :=
  (∀ a x, ((![v136] : Fin 1 → IVec S16 32) a x).toNat < S16384.size a)
instance k0_chk15.dec : ∀ (v136 : IVec S16 32), Decidable (k0_chk15 v136) := fun v136 => decidable_of_iff' _ (Iff.of_eq (k0_chk15.eq_1 v136))
theorem k0_idx15_inb : ∀ (v136 : IVec S16 32) (k0_hw15 : k0_chk15 v136), ∀ a x, ((![v136] : Fin 1 → IVec S16 32) a x).toNat < S16384.size a := fun v136 k0_hw15 => k0_hw15
def k0_off33 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v139 : Index := Scalar.indexCast v68
  let c112_62 : Index := 112#32
  ![v139.toNat, 112]
def k0_off34 (k0_t2 : Fin k0_t2_loop.trips) : Fin 2 → Nat :=
  let c0_i32_33 : BitVec 32 := 0#32
  let c0_i32_12 : BitVec 32 := 0#32
  let c1_i32_14 : BitVec 32 := 1#32
  let arg11 : BitVec 32 := Scf.iv c0_i32_12 c1_i32_14 k0_t2
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_63 : BitVec 32 := 1#32
  let v141 : BitVec 32 := Scalar.addi v68 c1_i32_63
  let v142 : Index := Scalar.indexCast v141
  let c112_64 : Index := 112#32
  ![v142.toNat, 112]

def k0_chk16 (v146 : IVec S16 32) : Prop :=
  (∀ a x, ((![v146] : Fin 1 → IVec S16 32) a x).toNat < S16384.size a)
instance k0_chk16.dec : ∀ (v146 : IVec S16 32), Decidable (k0_chk16 v146) := fun v146 => decidable_of_iff' _ (Iff.of_eq (k0_chk16.eq_1 v146))
theorem k0_idx16_inb : ∀ (v146 : IVec S16 32) (k0_hw16 : k0_chk16 v146), ∀ a x, ((![v146] : Fin 1 → IVec S16 32) a x).toNat < S16384.size a := fun v146 k0_hw16 => k0_hw16
@[reducible] def k0_t3_loop : Scf.Loop 32 :=
  let c0_i32_21 : BitVec 32 := 0#32
  let c100_i32_22 : BitVec 32 := 100#32
  let v43 : BitVec 32 := Scalar.addi c0_i32_21 c100_i32_22
  let c1_i32_23 : BitVec 32 := 1#32
  ⟨c0_i32_21, v43, c1_i32_23⟩
def k0_off35 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v69 : Index := Scalar.indexCast v68
  let c0_35 : Index := 0#32
  ![v69.toNat, 0]
def k0_off36 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_36 : BitVec 32 := 1#32
  let v71 : BitVec 32 := Scalar.addi v68 c1_i32_36
  let v72 : Index := Scalar.indexCast v71
  let c0_37 : Index := 0#32
  ![v72.toNat, 0]

def k0_chk17 (v76 : IVec S16 32) : Prop :=
  (∀ a x, ((![v76] : Fin 1 → IVec S16 32) a x).toNat < S16384.size a)
instance k0_chk17.dec : ∀ (v76 : IVec S16 32), Decidable (k0_chk17 v76) := fun v76 => decidable_of_iff' _ (Iff.of_eq (k0_chk17.eq_1 v76))
theorem k0_idx17_inb : ∀ (v76 : IVec S16 32) (k0_hw17 : k0_chk17 v76), ∀ a x, ((![v76] : Fin 1 → IVec S16 32) a x).toNat < S16384.size a := fun v76 k0_hw17 => k0_hw17
def k0_off37 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v79 : Index := Scalar.indexCast v68
  let c16_38 : Index := 16#32
  ![v79.toNat, 16]
def k0_off38 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_39 : BitVec 32 := 1#32
  let v81 : BitVec 32 := Scalar.addi v68 c1_i32_39
  let v82 : Index := Scalar.indexCast v81
  let c16_40 : Index := 16#32
  ![v82.toNat, 16]

def k0_chk18 (v86 : IVec S16 32) : Prop :=
  (∀ a x, ((![v86] : Fin 1 → IVec S16 32) a x).toNat < S16384.size a)
instance k0_chk18.dec : ∀ (v86 : IVec S16 32), Decidable (k0_chk18 v86) := fun v86 => decidable_of_iff' _ (Iff.of_eq (k0_chk18.eq_1 v86))
theorem k0_idx18_inb : ∀ (v86 : IVec S16 32) (k0_hw18 : k0_chk18 v86), ∀ a x, ((![v86] : Fin 1 → IVec S16 32) a x).toNat < S16384.size a := fun v86 k0_hw18 => k0_hw18
def k0_off39 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v89 : Index := Scalar.indexCast v68
  let c32_42 : Index := 32#32
  ![v89.toNat, 32]
def k0_off40 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_43 : BitVec 32 := 1#32
  let v91 : BitVec 32 := Scalar.addi v68 c1_i32_43
  let v92 : Index := Scalar.indexCast v91
  let c32_44 : Index := 32#32
  ![v92.toNat, 32]

def k0_chk19 (v96 : IVec S16 32) : Prop :=
  (∀ a x, ((![v96] : Fin 1 → IVec S16 32) a x).toNat < S16384.size a)
instance k0_chk19.dec : ∀ (v96 : IVec S16 32), Decidable (k0_chk19 v96) := fun v96 => decidable_of_iff' _ (Iff.of_eq (k0_chk19.eq_1 v96))
theorem k0_idx19_inb : ∀ (v96 : IVec S16 32) (k0_hw19 : k0_chk19 v96), ∀ a x, ((![v96] : Fin 1 → IVec S16 32) a x).toNat < S16384.size a := fun v96 k0_hw19 => k0_hw19
def k0_off41 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v99 : Index := Scalar.indexCast v68
  let c48_46 : Index := 48#32
  ![v99.toNat, 48]
def k0_off42 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_47 : BitVec 32 := 1#32
  let v101 : BitVec 32 := Scalar.addi v68 c1_i32_47
  let v102 : Index := Scalar.indexCast v101
  let c48_48 : Index := 48#32
  ![v102.toNat, 48]

def k0_chk20 (v106 : IVec S16 32) : Prop :=
  (∀ a x, ((![v106] : Fin 1 → IVec S16 32) a x).toNat < S16384.size a)
instance k0_chk20.dec : ∀ (v106 : IVec S16 32), Decidable (k0_chk20 v106) := fun v106 => decidable_of_iff' _ (Iff.of_eq (k0_chk20.eq_1 v106))
theorem k0_idx20_inb : ∀ (v106 : IVec S16 32) (k0_hw20 : k0_chk20 v106), ∀ a x, ((![v106] : Fin 1 → IVec S16 32) a x).toNat < S16384.size a := fun v106 k0_hw20 => k0_hw20
def k0_off43 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v109 : Index := Scalar.indexCast v68
  let c64_50 : Index := 64#32
  ![v109.toNat, 64]
def k0_off44 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_51 : BitVec 32 := 1#32
  let v111 : BitVec 32 := Scalar.addi v68 c1_i32_51
  let v112 : Index := Scalar.indexCast v111
  let c64_52 : Index := 64#32
  ![v112.toNat, 64]

def k0_chk21 (v116 : IVec S16 32) : Prop :=
  (∀ a x, ((![v116] : Fin 1 → IVec S16 32) a x).toNat < S16384.size a)
instance k0_chk21.dec : ∀ (v116 : IVec S16 32), Decidable (k0_chk21 v116) := fun v116 => decidable_of_iff' _ (Iff.of_eq (k0_chk21.eq_1 v116))
theorem k0_idx21_inb : ∀ (v116 : IVec S16 32) (k0_hw21 : k0_chk21 v116), ∀ a x, ((![v116] : Fin 1 → IVec S16 32) a x).toNat < S16384.size a := fun v116 k0_hw21 => k0_hw21
def k0_off45 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v119 : Index := Scalar.indexCast v68
  let c80_54 : Index := 80#32
  ![v119.toNat, 80]
def k0_off46 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_55 : BitVec 32 := 1#32
  let v121 : BitVec 32 := Scalar.addi v68 c1_i32_55
  let v122 : Index := Scalar.indexCast v121
  let c80_56 : Index := 80#32
  ![v122.toNat, 80]

def k0_chk22 (v126 : IVec S16 32) : Prop :=
  (∀ a x, ((![v126] : Fin 1 → IVec S16 32) a x).toNat < S16384.size a)
instance k0_chk22.dec : ∀ (v126 : IVec S16 32), Decidable (k0_chk22 v126) := fun v126 => decidable_of_iff' _ (Iff.of_eq (k0_chk22.eq_1 v126))
theorem k0_idx22_inb : ∀ (v126 : IVec S16 32) (k0_hw22 : k0_chk22 v126), ∀ a x, ((![v126] : Fin 1 → IVec S16 32) a x).toNat < S16384.size a := fun v126 k0_hw22 => k0_hw22
def k0_off47 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v129 : Index := Scalar.indexCast v68
  let c96_58 : Index := 96#32
  ![v129.toNat, 96]
def k0_off48 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_59 : BitVec 32 := 1#32
  let v131 : BitVec 32 := Scalar.addi v68 c1_i32_59
  let v132 : Index := Scalar.indexCast v131
  let c96_60 : Index := 96#32
  ![v132.toNat, 96]

def k0_chk23 (v136 : IVec S16 32) : Prop :=
  (∀ a x, ((![v136] : Fin 1 → IVec S16 32) a x).toNat < S16384.size a)
instance k0_chk23.dec : ∀ (v136 : IVec S16 32), Decidable (k0_chk23 v136) := fun v136 => decidable_of_iff' _ (Iff.of_eq (k0_chk23.eq_1 v136))
theorem k0_idx23_inb : ∀ (v136 : IVec S16 32) (k0_hw23 : k0_chk23 v136), ∀ a x, ((![v136] : Fin 1 → IVec S16 32) a x).toNat < S16384.size a := fun v136 k0_hw23 => k0_hw23
def k0_off49 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v139 : Index := Scalar.indexCast v68
  let c112_62 : Index := 112#32
  ![v139.toNat, 112]
def k0_off50 (k0_t3 : Fin k0_t3_loop.trips) : Fin 2 → Nat :=
  let c0_i32_33 : BitVec 32 := 0#32
  let c0_i32_21 : BitVec 32 := 0#32
  let c1_i32_23 : BitVec 32 := 1#32
  let arg11 : BitVec 32 := Scf.iv c0_i32_21 c1_i32_23 k0_t3
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_63 : BitVec 32 := 1#32
  let v141 : BitVec 32 := Scalar.addi v68 c1_i32_63
  let v142 : Index := Scalar.indexCast v141
  let c112_64 : Index := 112#32
  ![v142.toNat, 112]

def k0_chk24 (v146 : IVec S16 32) : Prop :=
  (∀ a x, ((![v146] : Fin 1 → IVec S16 32) a x).toNat < S16384.size a)
instance k0_chk24.dec : ∀ (v146 : IVec S16 32), Decidable (k0_chk24 v146) := fun v146 => decidable_of_iff' _ (Iff.of_eq (k0_chk24.eq_1 v146))
theorem k0_idx24_inb : ∀ (v146 : IVec S16 32) (k0_hw24 : k0_chk24 v146), ∀ a x, ((![v146] : Fin 1 → IVec S16 32) a x).toNat < S16384.size a := fun v146 k0_hw24 => k0_hw24
@[reducible] def k0_t4_loop : Scf.Loop 32 :=
  let c0_i32_28 : BitVec 32 := 0#32
  let c100_i32_29 : BitVec 32 := 100#32
  let v56 : BitVec 32 := Scalar.addi c0_i32_28 c100_i32_29
  let c1_i32_30 : BitVec 32 := 1#32
  ⟨c0_i32_28, v56, c1_i32_30⟩
def k0_off51 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v69 : Index := Scalar.indexCast v68
  let c0_35 : Index := 0#32
  ![v69.toNat, 0]
def k0_off52 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_36 : BitVec 32 := 1#32
  let v71 : BitVec 32 := Scalar.addi v68 c1_i32_36
  let v72 : Index := Scalar.indexCast v71
  let c0_37 : Index := 0#32
  ![v72.toNat, 0]

def k0_chk25 (v76 : IVec S16 32) : Prop :=
  (∀ a x, ((![v76] : Fin 1 → IVec S16 32) a x).toNat < S16384.size a)
instance k0_chk25.dec : ∀ (v76 : IVec S16 32), Decidable (k0_chk25 v76) := fun v76 => decidable_of_iff' _ (Iff.of_eq (k0_chk25.eq_1 v76))
theorem k0_idx25_inb : ∀ (v76 : IVec S16 32) (k0_hw25 : k0_chk25 v76), ∀ a x, ((![v76] : Fin 1 → IVec S16 32) a x).toNat < S16384.size a := fun v76 k0_hw25 => k0_hw25
def k0_off53 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v79 : Index := Scalar.indexCast v68
  let c16_38 : Index := 16#32
  ![v79.toNat, 16]
def k0_off54 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_39 : BitVec 32 := 1#32
  let v81 : BitVec 32 := Scalar.addi v68 c1_i32_39
  let v82 : Index := Scalar.indexCast v81
  let c16_40 : Index := 16#32
  ![v82.toNat, 16]

def k0_chk26 (v86 : IVec S16 32) : Prop :=
  (∀ a x, ((![v86] : Fin 1 → IVec S16 32) a x).toNat < S16384.size a)
instance k0_chk26.dec : ∀ (v86 : IVec S16 32), Decidable (k0_chk26 v86) := fun v86 => decidable_of_iff' _ (Iff.of_eq (k0_chk26.eq_1 v86))
theorem k0_idx26_inb : ∀ (v86 : IVec S16 32) (k0_hw26 : k0_chk26 v86), ∀ a x, ((![v86] : Fin 1 → IVec S16 32) a x).toNat < S16384.size a := fun v86 k0_hw26 => k0_hw26
def k0_off55 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v89 : Index := Scalar.indexCast v68
  let c32_42 : Index := 32#32
  ![v89.toNat, 32]
def k0_off56 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_43 : BitVec 32 := 1#32
  let v91 : BitVec 32 := Scalar.addi v68 c1_i32_43
  let v92 : Index := Scalar.indexCast v91
  let c32_44 : Index := 32#32
  ![v92.toNat, 32]

def k0_chk27 (v96 : IVec S16 32) : Prop :=
  (∀ a x, ((![v96] : Fin 1 → IVec S16 32) a x).toNat < S16384.size a)
instance k0_chk27.dec : ∀ (v96 : IVec S16 32), Decidable (k0_chk27 v96) := fun v96 => decidable_of_iff' _ (Iff.of_eq (k0_chk27.eq_1 v96))
theorem k0_idx27_inb : ∀ (v96 : IVec S16 32) (k0_hw27 : k0_chk27 v96), ∀ a x, ((![v96] : Fin 1 → IVec S16 32) a x).toNat < S16384.size a := fun v96 k0_hw27 => k0_hw27
def k0_off57 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v99 : Index := Scalar.indexCast v68
  let c48_46 : Index := 48#32
  ![v99.toNat, 48]
def k0_off58 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_47 : BitVec 32 := 1#32
  let v101 : BitVec 32 := Scalar.addi v68 c1_i32_47
  let v102 : Index := Scalar.indexCast v101
  let c48_48 : Index := 48#32
  ![v102.toNat, 48]

def k0_chk28 (v106 : IVec S16 32) : Prop :=
  (∀ a x, ((![v106] : Fin 1 → IVec S16 32) a x).toNat < S16384.size a)
instance k0_chk28.dec : ∀ (v106 : IVec S16 32), Decidable (k0_chk28 v106) := fun v106 => decidable_of_iff' _ (Iff.of_eq (k0_chk28.eq_1 v106))
theorem k0_idx28_inb : ∀ (v106 : IVec S16 32) (k0_hw28 : k0_chk28 v106), ∀ a x, ((![v106] : Fin 1 → IVec S16 32) a x).toNat < S16384.size a := fun v106 k0_hw28 => k0_hw28
def k0_off59 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v109 : Index := Scalar.indexCast v68
  let c64_50 : Index := 64#32
  ![v109.toNat, 64]
def k0_off60 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_51 : BitVec 32 := 1#32
  let v111 : BitVec 32 := Scalar.addi v68 c1_i32_51
  let v112 : Index := Scalar.indexCast v111
  let c64_52 : Index := 64#32
  ![v112.toNat, 64]

def k0_chk29 (v116 : IVec S16 32) : Prop :=
  (∀ a x, ((![v116] : Fin 1 → IVec S16 32) a x).toNat < S16384.size a)
instance k0_chk29.dec : ∀ (v116 : IVec S16 32), Decidable (k0_chk29 v116) := fun v116 => decidable_of_iff' _ (Iff.of_eq (k0_chk29.eq_1 v116))
theorem k0_idx29_inb : ∀ (v116 : IVec S16 32) (k0_hw29 : k0_chk29 v116), ∀ a x, ((![v116] : Fin 1 → IVec S16 32) a x).toNat < S16384.size a := fun v116 k0_hw29 => k0_hw29
def k0_off61 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v119 : Index := Scalar.indexCast v68
  let c80_54 : Index := 80#32
  ![v119.toNat, 80]
def k0_off62 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_55 : BitVec 32 := 1#32
  let v121 : BitVec 32 := Scalar.addi v68 c1_i32_55
  let v122 : Index := Scalar.indexCast v121
  let c80_56 : Index := 80#32
  ![v122.toNat, 80]

def k0_chk30 (v126 : IVec S16 32) : Prop :=
  (∀ a x, ((![v126] : Fin 1 → IVec S16 32) a x).toNat < S16384.size a)
instance k0_chk30.dec : ∀ (v126 : IVec S16 32), Decidable (k0_chk30 v126) := fun v126 => decidable_of_iff' _ (Iff.of_eq (k0_chk30.eq_1 v126))
theorem k0_idx30_inb : ∀ (v126 : IVec S16 32) (k0_hw30 : k0_chk30 v126), ∀ a x, ((![v126] : Fin 1 → IVec S16 32) a x).toNat < S16384.size a := fun v126 k0_hw30 => k0_hw30
def k0_off63 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v129 : Index := Scalar.indexCast v68
  let c96_58 : Index := 96#32
  ![v129.toNat, 96]
def k0_off64 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_59 : BitVec 32 := 1#32
  let v131 : BitVec 32 := Scalar.addi v68 c1_i32_59
  let v132 : Index := Scalar.indexCast v131
  let c96_60 : Index := 96#32
  ![v132.toNat, 96]

def k0_chk31 (v136 : IVec S16 32) : Prop :=
  (∀ a x, ((![v136] : Fin 1 → IVec S16 32) a x).toNat < S16384.size a)
instance k0_chk31.dec : ∀ (v136 : IVec S16 32), Decidable (k0_chk31 v136) := fun v136 => decidable_of_iff' _ (Iff.of_eq (k0_chk31.eq_1 v136))
theorem k0_idx31_inb : ∀ (v136 : IVec S16 32) (k0_hw31 : k0_chk31 v136), ∀ a x, ((![v136] : Fin 1 → IVec S16 32) a x).toNat < S16384.size a := fun v136 k0_hw31 => k0_hw31
def k0_off65 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let v139 : Index := Scalar.indexCast v68
  let c112_62 : Index := 112#32
  ![v139.toNat, 112]
def k0_off66 (k0_t4 : Fin k0_t4_loop.trips) : Fin 2 → Nat :=
  let c0_i32_33 : BitVec 32 := 0#32
  let c0_i32_28 : BitVec 32 := 0#32
  let c1_i32_30 : BitVec 32 := 1#32
  let arg11 : BitVec 32 := Scf.iv c0_i32_28 c1_i32_30 k0_t4
  let c1_i32_32 : BitVec 32 := 1#32
  let v66 : BitVec 32 := Scalar.muli arg11 c1_i32_32
  let v67 : BitVec 32 := Scalar.addi c0_i32_33 v66
  let c2_i32_34 : BitVec 32 := 2#32
  let v68 : BitVec 32 := Scalar.muli v67 c2_i32_34
  let c1_i32_63 : BitVec 32 := 1#32
  let v141 : BitVec 32 := Scalar.addi v68 c1_i32_63
  let v142 : Index := Scalar.indexCast v141
  let c112_64 : Index := 112#32
  ![v142.toNat, 112]

def k0_chk32 (v146 : IVec S16 32) : Prop :=
  (∀ a x, ((![v146] : Fin 1 → IVec S16 32) a x).toNat < S16384.size a)
instance k0_chk32.dec : ∀ (v146 : IVec S16 32), Decidable (k0_chk32 v146) := fun v146 => decidable_of_iff' _ (Iff.of_eq (k0_chk32.eq_1 v146))
theorem k0_idx32_inb : ∀ (v146 : IVec S16 32) (k0_hw32 : k0_chk32 v146), ∀ a x, ((![v146] : Fin 1 → IVec S16 32) a x).toNat < S16384.size a := fun v146 k0_hw32 => k0_hw32
def k0_off67 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S100x1_S100 : S100x1.ShapeCasts S100
  bcast_S_S128 : S_.BroadcastsInDim S128 (![] : Fin 0 → Fin S128.rank)
  bcast_S_S1 : S_.BroadcastsInDim S1 (![] : Fin 0 → Fin S1.rank)
  bcast_S128_S1x128_1 : S128.BroadcastsInDim S1x128 (![1] : Fin 1 → Fin S1x128.rank)
  bcast_S128_S128x1_0 : S128.BroadcastsInDim S128x1 (![0] : Fin 1 → Fin S128x1.rank)
  bcast_S1x128_S128x128_0_1 : S1x128.BroadcastsInDim S128x128 (![0, 1] : Fin 2 → Fin S128x128.rank)
  bcast_S128x1_S128x128_0_1 : S128x1.BroadcastsInDim S128x128 (![0, 1] : Fin 2 → Fin S128x128.rank)
  shapeCasts_S128x128_S16384 : S128x128.ShapeCasts S16384
  transposes_S16384x200_S200x16384_1_0 : S16384x200.Transposes [1, 0] S200x16384
  h_S1x16 : 0 < S1x16.numel
  shapeCasts_S1x16_S16 : S1x16.ShapeCasts S16
  h_S16384 : 0 < S16384.numel
  inb_S512_S16_0 : ∀ a, (![0] : Fin 1 → Nat) a + S16.size a ≤ S512.size a
  h_S16 : 0 < S16.numel
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  scatter_S128_S1_S100_0_n_0_0_wf : ScatterDims.WF S128 S1 S100 [0] [] [0] 0
  hcc0_scratch4 : 0 + S_.numel ≤ 4
  hcc0_scratch5 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S200x16384.size a
  k0_off2_inb : ∀ i : grid0.Coords, ∀ (r : Fin 3), ∀ a, (k0_off2 i (BitVec.ofNat 32 (128 + 128 * r.val))) a + S200x128.size a ≤ S200x16384.size a
  k0_t1_ok : k0_t1_loop.OK
  k0_off3_inb : ∀ k0_t1 : Fin k0_t1_loop.trips, ∀ a, (k0_off3 k0_t1) a + S1x16.size a ≤ S200x128.size a
  k0_off4_inb : ∀ k0_t1 : Fin k0_t1_loop.trips, ∀ a, (k0_off4 k0_t1) a + S1x16.size a ≤ S200x128.size a
  k0_off5_inb : ∀ k0_t1 : Fin k0_t1_loop.trips, ∀ a, (k0_off5 k0_t1) a + S1x16.size a ≤ S200x128.size a
  k0_off6_inb : ∀ k0_t1 : Fin k0_t1_loop.trips, ∀ a, (k0_off6 k0_t1) a + S1x16.size a ≤ S200x128.size a
  k0_off7_inb : ∀ k0_t1 : Fin k0_t1_loop.trips, ∀ a, (k0_off7 k0_t1) a + S1x16.size a ≤ S200x128.size a
  k0_off8_inb : ∀ k0_t1 : Fin k0_t1_loop.trips, ∀ a, (k0_off8 k0_t1) a + S1x16.size a ≤ S200x128.size a
  k0_off9_inb : ∀ k0_t1 : Fin k0_t1_loop.trips, ∀ a, (k0_off9 k0_t1) a + S1x16.size a ≤ S200x128.size a
  k0_off10_inb : ∀ k0_t1 : Fin k0_t1_loop.trips, ∀ a, (k0_off10 k0_t1) a + S1x16.size a ≤ S200x128.size a
  k0_off11_inb : ∀ k0_t1 : Fin k0_t1_loop.trips, ∀ a, (k0_off11 k0_t1) a + S1x16.size a ≤ S200x128.size a
  k0_off12_inb : ∀ k0_t1 : Fin k0_t1_loop.trips, ∀ a, (k0_off12 k0_t1) a + S1x16.size a ≤ S200x128.size a
  k0_off13_inb : ∀ k0_t1 : Fin k0_t1_loop.trips, ∀ a, (k0_off13 k0_t1) a + S1x16.size a ≤ S200x128.size a
  k0_off14_inb : ∀ k0_t1 : Fin k0_t1_loop.trips, ∀ a, (k0_off14 k0_t1) a + S1x16.size a ≤ S200x128.size a
  k0_off15_inb : ∀ k0_t1 : Fin k0_t1_loop.trips, ∀ a, (k0_off15 k0_t1) a + S1x16.size a ≤ S200x128.size a
  k0_off16_inb : ∀ k0_t1 : Fin k0_t1_loop.trips, ∀ a, (k0_off16 k0_t1) a + S1x16.size a ≤ S200x128.size a
  k0_off17_inb : ∀ k0_t1 : Fin k0_t1_loop.trips, ∀ a, (k0_off17 k0_t1) a + S1x16.size a ≤ S200x128.size a
  k0_off18_inb : ∀ k0_t1 : Fin k0_t1_loop.trips, ∀ a, (k0_off18 k0_t1) a + S1x16.size a ≤ S200x128.size a
  k0_t2_ok : k0_t2_loop.OK
  k0_off19_inb : ∀ k0_t2 : Fin k0_t2_loop.trips, ∀ a, (k0_off19 k0_t2) a + S1x16.size a ≤ S200x128.size a
  k0_off20_inb : ∀ k0_t2 : Fin k0_t2_loop.trips, ∀ a, (k0_off20 k0_t2) a + S1x16.size a ≤ S200x128.size a
  k0_off21_inb : ∀ k0_t2 : Fin k0_t2_loop.trips, ∀ a, (k0_off21 k0_t2) a + S1x16.size a ≤ S200x128.size a
  k0_off22_inb : ∀ k0_t2 : Fin k0_t2_loop.trips, ∀ a, (k0_off22 k0_t2) a + S1x16.size a ≤ S200x128.size a
  k0_off23_inb : ∀ k0_t2 : Fin k0_t2_loop.trips, ∀ a, (k0_off23 k0_t2) a + S1x16.size a ≤ S200x128.size a
  k0_off24_inb : ∀ k0_t2 : Fin k0_t2_loop.trips, ∀ a, (k0_off24 k0_t2) a + S1x16.size a ≤ S200x128.size a
  k0_off25_inb : ∀ k0_t2 : Fin k0_t2_loop.trips, ∀ a, (k0_off25 k0_t2) a + S1x16.size a ≤ S200x128.size a
  k0_off26_inb : ∀ k0_t2 : Fin k0_t2_loop.trips, ∀ a, (k0_off26 k0_t2) a + S1x16.size a ≤ S200x128.size a
  k0_off27_inb : ∀ k0_t2 : Fin k0_t2_loop.trips, ∀ a, (k0_off27 k0_t2) a + S1x16.size a ≤ S200x128.size a
  k0_off28_inb : ∀ k0_t2 : Fin k0_t2_loop.trips, ∀ a, (k0_off28 k0_t2) a + S1x16.size a ≤ S200x128.size a
  k0_off29_inb : ∀ k0_t2 : Fin k0_t2_loop.trips, ∀ a, (k0_off29 k0_t2) a + S1x16.size a ≤ S200x128.size a
  k0_off30_inb : ∀ k0_t2 : Fin k0_t2_loop.trips, ∀ a, (k0_off30 k0_t2) a + S1x16.size a ≤ S200x128.size a
  k0_off31_inb : ∀ k0_t2 : Fin k0_t2_loop.trips, ∀ a, (k0_off31 k0_t2) a + S1x16.size a ≤ S200x128.size a
  k0_off32_inb : ∀ k0_t2 : Fin k0_t2_loop.trips, ∀ a, (k0_off32 k0_t2) a + S1x16.size a ≤ S200x128.size a
  k0_off33_inb : ∀ k0_t2 : Fin k0_t2_loop.trips, ∀ a, (k0_off33 k0_t2) a + S1x16.size a ≤ S200x128.size a
  k0_off34_inb : ∀ k0_t2 : Fin k0_t2_loop.trips, ∀ a, (k0_off34 k0_t2) a + S1x16.size a ≤ S200x128.size a
  k0_t3_ok : k0_t3_loop.OK
  k0_off35_inb : ∀ k0_t3 : Fin k0_t3_loop.trips, ∀ a, (k0_off35 k0_t3) a + S1x16.size a ≤ S200x128.size a
  k0_off36_inb : ∀ k0_t3 : Fin k0_t3_loop.trips, ∀ a, (k0_off36 k0_t3) a + S1x16.size a ≤ S200x128.size a
  k0_off37_inb : ∀ k0_t3 : Fin k0_t3_loop.trips, ∀ a, (k0_off37 k0_t3) a + S1x16.size a ≤ S200x128.size a
  k0_off38_inb : ∀ k0_t3 : Fin k0_t3_loop.trips, ∀ a, (k0_off38 k0_t3) a + S1x16.size a ≤ S200x128.size a
  k0_off39_inb : ∀ k0_t3 : Fin k0_t3_loop.trips, ∀ a, (k0_off39 k0_t3) a + S1x16.size a ≤ S200x128.size a
  k0_off40_inb : ∀ k0_t3 : Fin k0_t3_loop.trips, ∀ a, (k0_off40 k0_t3) a + S1x16.size a ≤ S200x128.size a
  k0_off41_inb : ∀ k0_t3 : Fin k0_t3_loop.trips, ∀ a, (k0_off41 k0_t3) a + S1x16.size a ≤ S200x128.size a
  k0_off42_inb : ∀ k0_t3 : Fin k0_t3_loop.trips, ∀ a, (k0_off42 k0_t3) a + S1x16.size a ≤ S200x128.size a
  k0_off43_inb : ∀ k0_t3 : Fin k0_t3_loop.trips, ∀ a, (k0_off43 k0_t3) a + S1x16.size a ≤ S200x128.size a
  k0_off44_inb : ∀ k0_t3 : Fin k0_t3_loop.trips, ∀ a, (k0_off44 k0_t3) a + S1x16.size a ≤ S200x128.size a
  k0_off45_inb : ∀ k0_t3 : Fin k0_t3_loop.trips, ∀ a, (k0_off45 k0_t3) a + S1x16.size a ≤ S200x128.size a
  k0_off46_inb : ∀ k0_t3 : Fin k0_t3_loop.trips, ∀ a, (k0_off46 k0_t3) a + S1x16.size a ≤ S200x128.size a
  k0_off47_inb : ∀ k0_t3 : Fin k0_t3_loop.trips, ∀ a, (k0_off47 k0_t3) a + S1x16.size a ≤ S200x128.size a
  k0_off48_inb : ∀ k0_t3 : Fin k0_t3_loop.trips, ∀ a, (k0_off48 k0_t3) a + S1x16.size a ≤ S200x128.size a
  k0_off49_inb : ∀ k0_t3 : Fin k0_t3_loop.trips, ∀ a, (k0_off49 k0_t3) a + S1x16.size a ≤ S200x128.size a
  k0_off50_inb : ∀ k0_t3 : Fin k0_t3_loop.trips, ∀ a, (k0_off50 k0_t3) a + S1x16.size a ≤ S200x128.size a
  k0_t4_ok : k0_t4_loop.OK
  k0_off51_inb : ∀ k0_t4 : Fin k0_t4_loop.trips, ∀ a, (k0_off51 k0_t4) a + S1x16.size a ≤ S200x128.size a
  k0_off52_inb : ∀ k0_t4 : Fin k0_t4_loop.trips, ∀ a, (k0_off52 k0_t4) a + S1x16.size a ≤ S200x128.size a
  k0_off53_inb : ∀ k0_t4 : Fin k0_t4_loop.trips, ∀ a, (k0_off53 k0_t4) a + S1x16.size a ≤ S200x128.size a
  k0_off54_inb : ∀ k0_t4 : Fin k0_t4_loop.trips, ∀ a, (k0_off54 k0_t4) a + S1x16.size a ≤ S200x128.size a
  k0_off55_inb : ∀ k0_t4 : Fin k0_t4_loop.trips, ∀ a, (k0_off55 k0_t4) a + S1x16.size a ≤ S200x128.size a
  k0_off56_inb : ∀ k0_t4 : Fin k0_t4_loop.trips, ∀ a, (k0_off56 k0_t4) a + S1x16.size a ≤ S200x128.size a
  k0_off57_inb : ∀ k0_t4 : Fin k0_t4_loop.trips, ∀ a, (k0_off57 k0_t4) a + S1x16.size a ≤ S200x128.size a
  k0_off58_inb : ∀ k0_t4 : Fin k0_t4_loop.trips, ∀ a, (k0_off58 k0_t4) a + S1x16.size a ≤ S200x128.size a
  k0_off59_inb : ∀ k0_t4 : Fin k0_t4_loop.trips, ∀ a, (k0_off59 k0_t4) a + S1x16.size a ≤ S200x128.size a
  k0_off60_inb : ∀ k0_t4 : Fin k0_t4_loop.trips, ∀ a, (k0_off60 k0_t4) a + S1x16.size a ≤ S200x128.size a
  k0_off61_inb : ∀ k0_t4 : Fin k0_t4_loop.trips, ∀ a, (k0_off61 k0_t4) a + S1x16.size a ≤ S200x128.size a
  k0_off62_inb : ∀ k0_t4 : Fin k0_t4_loop.trips, ∀ a, (k0_off62 k0_t4) a + S1x16.size a ≤ S200x128.size a
  k0_off63_inb : ∀ k0_t4 : Fin k0_t4_loop.trips, ∀ a, (k0_off63 k0_t4) a + S1x16.size a ≤ S200x128.size a
  k0_off64_inb : ∀ k0_t4 : Fin k0_t4_loop.trips, ∀ a, (k0_off64 k0_t4) a + S1x16.size a ≤ S200x128.size a
  k0_off65_inb : ∀ k0_t4 : Fin k0_t4_loop.trips, ∀ a, (k0_off65 k0_t4) a + S1x16.size a ≤ S200x128.size a
  k0_off66_inb : ∀ k0_t4 : Fin k0_t4_loop.trips, ∀ a, (k0_off66 k0_t4) a + S1x16.size a ≤ S200x128.size a
  k0_off67_inb : ∀ i : grid0.Coords, ∀ a, (k0_off67 i) a + S512.size a ≤ S16384.size a

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
def scatter_S128_S1_S100_0_n_0_0 : ScatterDims S128 S1 S100 where
  updateWindowDims := [0]
  insertedWindowDims := []
  scatterDimsToOperandDims := [0]
  indexVectorDim := 0
  wf := scatter_S128_S1_S100_0_n_0_0_wf

class Facts : Prop extends Facts₀ where

variable [Facts]
-- ==== ReferenceIdeal.lean ====
abbrev S16384x200 : Shape := ⟨2, ![16384, 200]⟩
abbrev S100x1 : Shape := ⟨2, ![100, 1]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x1 : Shape := ⟨2, ![16384, 1]⟩
abbrev S16384 : Shape := ⟨1, ![16384]⟩

abbrev nBuf : Space → Nat
  | .hbm => 28
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S100x1, .f32⟩
  | .hbm, ⟨2, _⟩ => ⟨S_, .i32⟩
  | .hbm, ⟨3, _⟩ => ⟨S16384x200, .i32⟩
  | .hbm, ⟨4, _⟩ => ⟨S16384x200, .i1⟩
  | .hbm, ⟨5, _⟩ => ⟨S_, .i32⟩
  | .hbm, ⟨6, _⟩ => ⟨S16384x200, .i32⟩
  | .hbm, ⟨7, _⟩ => ⟨S16384x200, .i32⟩
  | .hbm, ⟨8, _⟩ => ⟨S16384x200, .i32⟩
  | .hbm, ⟨9, _⟩ => ⟨S16384x200x1, .i32⟩
  | .hbm, ⟨10, _⟩ => ⟨S1, .i32⟩
  | .hbm, ⟨11, _⟩ => ⟨S_, .i32⟩
  | .hbm, ⟨12, _⟩ => ⟨S16384x200x1, .i32⟩
  | .hbm, ⟨13, _⟩ => ⟨S16384x200x1, .i1⟩
  | .hbm, ⟨14, _⟩ => ⟨S1x1x1, .i32⟩
  | .hbm, ⟨15, _⟩ => ⟨S16384x200x1, .i32⟩
  | .hbm, ⟨16, _⟩ => ⟨S16384x200x1, .i1⟩
  | .hbm, ⟨17, _⟩ => ⟨S16384x200x1, .i1⟩
  | .hbm, ⟨18, _⟩ => ⟨S_, .i1⟩
  | .hbm, ⟨19, _⟩ => ⟨S16384x200, .i1⟩
  | .hbm, ⟨20, _⟩ => ⟨S16384x200x1, .f32⟩
  | .hbm, ⟨21, _⟩ => ⟨S16384x200x1, .i1⟩
  | .hbm, ⟨22, _⟩ => ⟨S_, .f32⟩
  | .hbm, ⟨23, _⟩ => ⟨S16384x200x1, .f32⟩
  | .hbm, ⟨24, _⟩ => ⟨S16384x200x1, .f32⟩
  | .hbm, ⟨25, _⟩ => ⟨S_, .f32⟩
  | .hbm, ⟨26, _⟩ => ⟨S16384x1, .f32⟩
  | .hbm, ⟨27, _⟩ => ⟨S16384, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  reducesTo_S16384x200x1_S16384x1_d1 : S16384x200x1.ReducesTo [1] S16384x1
  shapeCasts_S16384x1_S16384 : S16384x1.ShapeCasts S16384
  gather_S100x1_S16384x200x1_S16384x200x1_2_0_n_n_0_2_11_wf : GatherDims.WF S100x1 S16384x200x1 S16384x200x1 [2] [0] [] [0] [] 2 ![1, 1]

variable [Facts₀]

def gather_S100x1_S16384x200x1_S16384x200x1_2_0_n_n_0_2_11 : GatherDims S100x1 S16384x200x1 S16384x200x1 where
  offsetDims := [2]
  collapsedSliceDims := [0]
  operandBatchingDims := []
  startIndicesBatchingDims := []
  startIndexMap := [0]
  indexVectorDim := 2
  sliceSizes := ![1, 1]
  wf := gather_S100x1_S16384x200x1_S16384x200x1_2_0_n_n_0_2_11_wf

class Facts : Prop extends Facts₀ where

variable [Facts]
-- ==== Proof.PreRange.lean ====
/-
  From the precondition to the range of the atoms' indices. The precondition is one bit: the conjunction of
  "every weight is finite" and "every index is at least 0 and at most 99, read signed", each a conjunction over
  a whole array. Where it is 1 every index passes both tests, and a 32-bit word that is at least 0 and at most
  99 read signed is below 100 read unsigned.
-/
import proofs.«203047_g89000312307883_cont_sun_c4_202_23_alg».proof.Proof.Gen.Pre_input_domain
import Idealize.ShloMosaic.Lib.ReduceAll
import Idealize.ShloMosaic.Lib.ValueIdx

noncomputable section

namespace Cert.Proof.PreRange

open Idealize.ShloMosaic Cert.Pre_input_domain

/-- The rank-zero shape has one index. -/
instance : Subsingleton S_.Idx := ⟨fun _ _ => funext fun d => d.elim0⟩

/-- A 32-bit word that is at least 0 and at most 99, read signed, is below 100 read unsigned. -/
theorem lt_of_tests {v : BitVec 32} (h0 : IntOp.cmpi .sge v 0#32 = 1#1) (h1 : IntOp.cmpi .sle v 99#32 = 1#1) :
    v.toNat < 100 := by
  rw [IntOp.cmpi_sge, show (0#32 : BitVec 32).toInt = 0 from by decide] at h0
  rw [IntOp.cmpi_sle, show (99#32 : BitVec 32).toInt = 99 from by decide] at h1
  have e := BitVec.toInt_eq_toNat_cond v
  have hv := v.isLt
  by_cases hc : 2 * v.toNat < 2 ^ 32
  · rw [if_pos hc] at e; omega
  · rw [if_neg hc] at e; omega

/-- Where the precondition holds every atom's index word is below 100. -/
theorem atoms_lt {F : FTy → Type} [FloatOps F] (a : IVec S16384x200 32) (w : FVec F S100x1 .f32)
    (h : Cert.Pre_input_domain.fn (F := F) a w = (fun _ => 1#1)) : ∀ i, (a i).toNat < 100 := by
  intro i
  have e := congrFun h ValueIdx.ix0
  dsimp only [fn] at e
  change IntOp.andi _ _ = 1#1 at e
  obtain ⟨-, e2⟩ := IntOp.andi_eq_one.1 e
  have e3 := Host.reduce_andi_all _ _ _ _ _ e2 i
  change IntOp.andi (IntOp.cmpi .sge (a i) 0#32) (IntOp.cmpi .sle (a i) 99#32) = 1#1 at e3
  obtain ⟨h0, h1⟩ := IntOp.andi_eq_one.1 e3
  exact lt_of_tests h0 h1

end Cert.Proof.PreRange

end
-- ==== Proof.RefRun.lean ====
/-
  The reference program's run, read back. Its @main is a straight line of twenty-six host operations once the
  two outlined functions are unfolded at their calls: the look-up of the weights at the index array (the index
  wrapped where negative, broadcast to rank three, tested to lie in 0 … 99, gathered, and kept where the test
  holds), the sum over the atoms' axis from zero, and the reshape to a vector. Every weakly fair execution of
  it terminates with the result buffer at the operations' composed term of the two arguments' launch contents
  (`refOut`) and the arguments unchanged.
-/
import proofs.«203047_g89000312307883_cont_sun_c4_202_23_alg».proof.Defs
import proofs.«203047_g89000312307883_cont_sun_c4_202_23_alg».proof.Proof.Gen.ReferenceIdeal
import Idealize.ShloMosaic.Lib.StableHlo.Run
import Idealize.ShloMosaic.Lib.ValueIdx

noncomputable section

namespace Cert.Proof.RefSide

open Idealize.ShloMosaic Idealize.ShloMosaic.ValueIdx Idealize.SL.Sem Cert.ReferenceIdeal
open Cert.ReferenceIdeal.Gen Idealize.ShloMosaic.TcCoe Idealize.ShloMosaic.StableHlo

/-! ## The composed term -/

/-- The index array with its negative entries wrapped: `a + 100` where `a < 0` (signed), `a` elsewhere. -/
def wrapIdx (a : IVec S16384x200 32) : IVec S16384x200 32 :=
  select (cmpi .slt a (broadcastInDim S16384x200 ![] bcast_S_S16384x200 (constantI S_ 32 0#32)))
    (addi a (broadcastInDim S16384x200 ![] bcast_S_S16384x200 (constantI S_ 32 100#32))) a

/-- The wrapped index with a trailing axis of extent one: the gather's index vectors. -/
def idx3 (a : IVec S16384x200 32) : IVec S16384x200x1 32 :=
  broadcastInDim S16384x200x1 ![0, 1] bcast_S16384x200_S16384x200x1_0_1 (wrapIdx a)

/-- Where the wrapped index lies in `0 … 99` (signed): the conjunction over the trailing axis of the two tests. -/
def inBounds (a : IVec S16384x200 32) : IVec S16384x200 1 :=
  Host.reduce IntOp.andi
    (andi
      (cmpi .sge (idx3 a) (broadcastInDim S16384x200x1 ![] bcast_S_S16384x200x1 (constantI S_ 32 0#32)))
      (cmpi .sle (idx3 a)
        (broadcastInDim S16384x200x1 ![0, 1, 2] bcast_S1x1x1_S16384x200x1_0_1_2
          (broadcastInDim S1x1x1 ![2] bcast_S1_S1x1x1_2 (constantI S1 32 99#32)))))
    (constantI S_ 1 1#1) reducesTo_S16384x200x1_S16384x200_d2 h_S_

variable {F : FTy → Type} [FloatOps F]

/-- The looked-up weights: the gather of `w`'s rows at the wrapped index where it is in bounds, the fill elsewhere. -/
def taken (a : IVec S16384x200 32) (w : FVec F S100x1 .f32) : FVec F S16384x200x1 .f32 :=
  select (broadcastInDim S16384x200x1 ![0, 1] bcast_S16384x200_S16384x200x1_0_1 (inBounds a))
    (Host.gather gather_S100x1_S16384x200x1_S16384x200x1_2_0_n_n_0_2_11 w (idx3 a))
    (broadcastInDim S16384x200x1 ![] bcast_S_S16384x200x1 (constant S_ .f32 0x7FC00000#32))

/-- The same for any float values: the looked-up weights summed over the atoms' axis from zero, as a vector. -/
def refOutF (a : IVec S16384x200 32) (w : FVec F S100x1 .f32) : FVec F S16384 .f32 :=
  shapeCast S16384
    (Host.reduceAdd (taken a w) (constant S_ .f32 0x00000000#32) reducesTo_S16384x200x1_S16384x1_d1 h_S_)
    shapeCasts_S16384x1_S16384

/-- What the reference's operations compute, as one pure term of the two arguments (at the ideal instance). -/
def refOut (a : IVec S16384x200 32) (w : FVec Ideal S100x1 .f32) : FVec Ideal S16384 .f32 := refOutF a w

/-! ## The operations -/

/-- @main's twenty-six operations in order, the two calls unfolded: the look-up's twenty-three (the select of the
    wrap among them, seventh) into the call's buffers, then the zero, the sum and the reshape. -/
abbrev ops : List (HloOp τ sig (Elt F)) :=
  [ TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 100#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 99#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg1) main_call0.v5 main_call0.v13 (fun x i => Host.gather gather_S100x1_S16384x200x1_S16384x200x1_2_0_n_n_0_2_11 x i),
    TRef.unary main_call0.v12 main_call0.v14 (broadcastInDim S16384x200x1 ![0, 1] bcast_S16384x200_S16384x200x1_0_1),
    TRef.nullary main_call0.cst (constant S_ .f32 0x7FC00000#32),
    TRef.unary main_call0.cst main_call0.v15 (broadcastInDim S16384x200x1 ![] bcast_S_S16384x200x1),
    TRef.ternary main_call0.v14 main_call0.v13 main_call0.v15 main_call0.v16 select,
    nullary main_cst (constant S_ .f32 0x00000000#32),
    binary main_v0 main_cst main_v1 ((fun x v => Host.reduceAdd x v reducesTo_S16384x200x1_S16384x1_d1 h_S_) : (⟨S16384x200x1, .f32⟩ : BufTy).Contents (Elt F) → (⟨S_, .f32⟩ : BufTy).Contents (Elt F) → (⟨S16384x1, .f32⟩ : BufTy).Contents (Elt F)),
    reshape main_v1 main_v2 rfl shapeCasts_S16384x1_S16384 ]

set_option maxRecDepth 1024 in
/-- @main is that straight line: the two functions' bodies unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., reshape_bufs_sub ..⟩

/-! ## The fold at the result and at the arguments -/

/-- A typed reference's two transports of contents, to the buffer's own type and back, cancel. -/
theorem ofBuf_toBuf {T : BufTy} (x : TRef sig T) (v : T.Contents (Elt F)) : x.ofBuf (x.toBuf v) = v := by
  obtain ⟨r, h, _, _⟩ := x; subst h; rfl

attribute [local irreducible] Host.reduce Host.gather Host.reduceAdd broadcastInDim select cmpi addi andi in
set_option maxRecDepth 8192 in
/-- The fold at the result buffer is the composed term: each operation's result read at its own buffer is its
    function's value and at any other what was there; the typed references' transports cancel in pairs, and the
    three left over (at the two arguments and at the look-up's result) are the identity at these literal
    references. The operations themselves are kept folded: the equation never looks inside them. -/
theorem out_eq (V : Valuation τ sig (Elt F)) :
    after ops V (main_v2 : DevRef τ sig) = refOutF (V (main_arg0 : DevRef τ sig)) (V (main_arg1 : DevRef τ sig)) := by
  after_results
  simp only [ofBuf_toBuf]
  unfold refOutF taken inBounds idx3 wrapIdx
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-! ## The run -/

/-- On every device, from any memory with zero counters: every weakly fair execution of @main terminates with
    the result at `refOut` of the arguments' launch contents and the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc main_v2) = refOut (m ((c.tc : Thread _ _).loc main_arg0)) (m ((c.tc : Thread _ _).loc main_arg1))
        ∧ r.2.mem ((c.tc : Thread _ _).loc main_arg0) = m ((c.tc : Thread _ _).loc main_arg0)
        ∧ r.2.mem ((c.tc : Thread _ _).loc main_arg1) = m ((c.tc : Thread _ _).loc main_arg1)) :=
  (θ_run defs _ _).mono (fun _ h c => ⟨(h c main_v2).trans (out_eq _), (h c main_arg0).trans (arg0_eq _), (h c main_arg1).trans (arg1_eq _)⟩)
    (run_seq scopedRefs_eq scopedSems_eq defs main (fun _ => ops) main_eq (fun _ => ops_sub) m ρ)

end Cert.Proof.RefSide

end
-- ==== Proof.RefValue.lean ====
/-
  The reference's result, read at one molecule. Under the precondition — every index word, read unsigned, is
  below 100 — the wrap of negative indices keeps the index, the in-bounds test holds everywhere, so the select
  keeps the gathered weight and never the fill; the gather reads the weights' row at the index, column 0; the
  sum over the atoms' axis from zero is the finite sum; and the reshape reads entry b at (b, 0). So entry b of
  the result is the sum over the 200 atoms of molecule b of the weight at the atom's index.
-/
import proofs.«203047_g89000312307883_cont_sun_c4_202_23_alg».proof.Proof.RefRun
import proofs.«203047_g89000312307883_cont_sun_c4_202_23_alg».proof.Proof.Gen.Pre_input_domain
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.Proof.RefSide

open Idealize.ShloMosaic Idealize.ShloMosaic.ValueIdx Idealize.SL.Sem Cert.ReferenceIdeal
open Cert.ReferenceIdeal.Gen

/-! ## Words below one hundred -/

/-- A 32-bit word below 100, read signed, is the number it is read unsigned. -/
theorem toInt_of_lt {v : BitVec 32} (h : v.toNat < 100) : v.toInt = (v.toNat : ℤ) := by
  rw [BitVec.toInt_eq_toNat_cond]
  split
  · rfl
  · omega

/-- Such a word is not negative … -/
theorem cmpi_slt_zero {v : BitVec 32} (h : v.toNat < 100) : IntOp.cmpi .slt v 0#32 = 0#1 := by
  have hv := toInt_of_lt h
  have h0 : (0#32 : BitVec 32).toInt = 0 := by decide
  have : ¬ (v.toInt < (0#32 : BitVec 32).toInt) := by rw [hv, h0]; omega
  simp only [IntOp.cmpi, BitVec.slt, decide_eq_false this]
  rfl

/-- … it is at least zero … -/
theorem cmpi_sge_zero {v : BitVec 32} (h : v.toNat < 100) : IntOp.cmpi .sge v 0#32 = 1#1 := by
  have hv := toInt_of_lt h
  have h0 : (0#32 : BitVec 32).toInt = 0 := by decide
  have : (0#32 : BitVec 32).toInt ≤ v.toInt := by rw [hv, h0]; omega
  simp only [IntOp.cmpi, BitVec.sle, decide_eq_true this]
  rfl

/-- … and at most 99. -/
theorem cmpi_sle_99 {v : BitVec 32} (h : v.toNat < 100) : IntOp.cmpi .sle v 99#32 = 1#1 := by
  have hv := toInt_of_lt h
  have h0 : (99#32 : BitVec 32).toInt = 99 := by decide
  have : v.toInt ≤ (99#32 : BitVec 32).toInt := by rw [hv, h0]; omega
  simp only [IntOp.cmpi, BitVec.sle, decide_eq_true this]
  rfl

/-! ## The index -/

/-- Where the index is below 100 the wrap keeps it. -/
theorem wrapIdx_apply (a : IVec S16384x200 32) (i : S16384x200.Idx) (h : (a i).toNat < 100) : wrapIdx a i = a i := by
  show Scalar.select (IntOp.cmpi .slt (a i) 0#32) (IntOp.addi (a i) 100#32) (a i) = a i
  rw [cmpi_slt_zero h, select_zero]

/-- The rank-three index array at `(p, q, r)` is the wrapped index at `(p, q)`. -/
theorem idx3_apply (a : IVec S16384x200 32) (p : Fin 16384) (q : Fin 200) (r : Fin 1) :
    idx3 a (ix3 p q r) = wrapIdx a (ix2 p q) := by
  unfold idx3
  exact broadcastInDim_apply _ _ _ _ _ (fun c => match c with | ⟨0, _⟩ => rfl | ⟨1, _⟩ => rfl)

/-- A conjunction of ones from one is one. -/
theorem foldl_andi_one {ι : Type} (L : List ι) (g : ι → BitVec 1) (hg : ∀ n, g n = 1#1) :
    L.foldl (fun r n => IntOp.andi r (g n)) 1#1 = 1#1 := by
  induction L with
  | nil => rfl
  | cons n L ih => rw [List.foldl_cons, hg n]; exact ih

/-- The two tests hold everywhere when every index is below 100. -/
theorem tests_apply (a : IVec S16384x200 32) (hrng : ∀ i, (a i).toNat < 100) (i3 : S16384x200x1.Idx) :
    andi
      (cmpi .sge (idx3 a) (broadcastInDim S16384x200x1 ![] bcast_S_S16384x200x1 (constantI S_ 32 0#32)))
      (cmpi .sle (idx3 a)
        (broadcastInDim S16384x200x1 ![0, 1, 2] bcast_S1x1x1_S16384x200x1_0_1_2
          (broadcastInDim S1x1x1 ![2] bcast_S1_S1x1x1_2 (constantI S1 32 99#32)))) i3 = 1#1 := by
  obtain ⟨p, q, r, rfl⟩ : ∃ p q r, i3 = ix3 p q r := ⟨_, _, _, eq_ix3 i3⟩
  show IntOp.andi (IntOp.cmpi .sge (idx3 a (ix3 p q r)) 0#32) (IntOp.cmpi .sle (idx3 a (ix3 p q r)) 99#32) = 1#1
  rw [idx3_apply, wrapIdx_apply _ _ (hrng _), cmpi_sge_zero (hrng _), cmpi_sle_99 (hrng _)]
  rfl

/-- So the in-bounds mask is all ones. -/
theorem inBounds_apply (a : IVec S16384x200 32) (hrng : ∀ i, (a i).toNat < 100) (j : S16384x200.Idx) :
    inBounds a j = 1#1 := by
  unfold inBounds Host.reduce
  exact foldl_andi_one _ _ (fun n => tests_apply a hrng (S16384x200x1.rowMajor.symm n))

/-! ## The gather -/

/-- The gather of rows at `(p, q, r)`: the operand's row at the start index `idx[p, q, 0]`, read signed and clamped
    into `0 … 99`, column 0. -/
theorem gather_rows_apply {α : Type} (x : S100x1.Idx → α) (idx : IVec S16384x200x1 32) (p : Fin 16384) (q : Fin 200) (r : Fin 1) :
    Host.gather gather_S100x1_S16384x200x1_S16384x200x1_2_0_n_n_0_2_11 x idx (ix3 p q r)
      = x (ix2 (⟨min (idx (ix3 p q 0)).toInt.toNat 99, by omega⟩ : Fin 100) (0 : Fin 1)) := by
  unfold Host.gather
  congr 1
  funext c
  refine Fin.ext ?_
  match c with
  | ⟨1, _⟩ =>
    have h1 := (gather_S100x1_S16384x200x1_S16384x200x1_2_0_n_n_0_2_11.operandIdx (ix3 p q r) idx ⟨1, by decide⟩).isLt
    change _ < 1 at h1
    show _ = 0
    omega
  | ⟨0, _⟩ =>
    show gather_S100x1_S16384x200x1_S16384x200x1_2_0_n_n_0_2_11.start (ix3 p q r) idx 0
        + gather_S100x1_S16384x200x1_S16384x200x1_2_0_n_n_0_2_11.batchCoord (ix3 p q r) 0
        + gather_S100x1_S16384x200x1_S16384x200x1_2_0_n_n_0_2_11.offCoord (ix3 p q r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x1_S16384x200x1_S16384x200x1_2_0_n_n_0_2_11.startIndexMap from List.mem_singleton.mpr rfl)]
    have hsi : gather_S100x1_S16384x200x1_S16384x200x1_2_0_n_n_0_2_11.siIdx (ix3 p q r)
        ⟨List.idxOf (0 : Fin 2) gather_S100x1_S16384x200x1_S16384x200x1_2_0_n_n_0_2_11.startIndexMap,
          List.idxOf_lt_length_iff.2 (List.mem_singleton.mpr rfl)⟩ = ix3 p q 0 := by
      funext b; refine Fin.ext ?_
      match b with
      | ⟨0, _⟩ => rfl
      | ⟨1, _⟩ => rfl
      | ⟨2, _⟩ => rfl
    rw [hsi]
    rfl

/-! ## The looked-up weights, the sum, the result -/

variable {F : FTy → Type} [FloatOps F]

/-- Where every index is below 100 the look-up at `(p, q, r)` is the weight of row `a[p, q]`. -/
theorem taken_apply (a : IVec S16384x200 32) (w : FVec F S100x1 .f32) (hrng : ∀ i, (a i).toNat < 100)
    (p : Fin 16384) (q : Fin 200) (r : Fin 1) :
    taken a w (ix3 p q r) = w (ix2 (⟨(a (ix2 p q)).toNat % 100, Nat.mod_lt _ (by norm_num)⟩ : Fin 100) (0 : Fin 1)) := by
  have hb : broadcastInDim S16384x200x1 ![0, 1] bcast_S16384x200_S16384x200x1_0_1 (inBounds a) (ix3 p q r) = 1#1 :=
    inBounds_apply a hrng _
  unfold taken
  rw [select_apply, hb, select_one, gather_rows_apply]
  have hv := hrng (ix2 p q)
  have hi : idx3 a (ix3 p q 0) = a (ix2 p q) := by rw [idx3_apply, wrapIdx_apply _ _ hv]
  refine congrArg (fun z : Fin 100 => w (ix2 z (0 : Fin 1))) (Fin.ext ?_)
  show min (idx3 a (ix3 p q 0)).toInt.toNat 99 = (a (ix2 p q)).toNat % 100
  rw [hi, toInt_of_lt hv, Int.toNat_natCast, Nat.mod_eq_of_lt hv]
  omega

/-- THE RESULT AT MOLECULE `b`: the sum over its 200 atoms of the weight at the atom's index. -/
theorem refOut_apply (a : IVec S16384x200 32) (w : FVec Ideal S100x1 .f32) (hrng : ∀ i, (a i).toNat < 100) (b : Fin 16384) :
    refOut a w (ix1 b) = ∑ l : Fin 200, w (ix2 (⟨(a (ix2 b l)).toNat % 100, Nat.mod_lt _ (by norm_num)⟩ : Fin 100) (0 : Fin 1)) := by
  have hR : S16384x200x1.Reduces [1] S16384x1 := by decide
  unfold refOut refOutF
  rw [shapeCast_apply _ _ (ix1 b) (ix2 b (0 : Fin 1)) (by
    rw [Shape.rowMajor_val_two, Shape.rowMajor_val_one]
    show b.val * 1 + 0 = b.val
    omega)]
  rw [hostReduceAdd_apply, Ideal.hostReduceAdd_single _ hR]
  rw [show (constant (F := Ideal) S_ .f32 0x00000000#32) (Shape.Idx.first h_S_) = 0 from Ideal.ofBits_zero_f32, zero_add]
  show ∑ l : Fin 200, taken a w (hR.lift (ix2 b (0 : Fin 1)) l) = _
  refine Finset.sum_congr rfl fun l _ => ?_
  have hl : hR.lift (ix2 b (0 : Fin 1)) l = ix3 b l (0 : Fin 1) := by
    funext c; refine Fin.ext ?_
    match c with
    | ⟨0, _⟩ => rfl
    | ⟨1, _⟩ => rfl
    | ⟨2, _⟩ => rfl
  rw [hl]
  exact taken_apply a w hrng b l 0

/-! ## The frame -/

/-- The reference runs and leaves its two arguments unchanged: the run with its first conjunct dropped. -/
theorem ref_frame : Cert.frame_ReferenceIdeal (hReferenceIdeal := Cert.ReferenceIdeal.Gen.facts) (hPre_input_domain := Cert.Pre_input_domain.Gen.facts) :=
  fun m ρ _ => (θ_run Cert.ReferenceIdeal.defs _ _).mono (fun _ h c => (h c).2) (ref_run m ρ)

end Cert.Proof.RefSide

end
-- ==== Proof.Spec.lean ====
/-
  What the kernel computes, as one function of the transposed index array and the pair table, for any
  float instance: entry b of the result is the 100-term left fold, from zero, of the pair table read at
  the word  x[2k, b] + (x[2k+1, b] << 7),  k = 0 … 99.  The pair table holds at 128·i + j the sum of
  the padded weights w128[j] + w128[i], so each term is the sum of two looked-up weights, and the fold
  is the row sum of the looked-up weights, two atoms at a time.
-/
import Idealize.ShloMosaic.PureOps.Ideal
import Idealize.ShloMosaic.Lib.ValueIdx

noncomputable section

namespace Cert.Proof.Spec

open Idealize.ShloMosaic Idealize.ShloMosaic.ValueIdx

/-- The atoms' array, 16384 molecules by 200 atoms. -/
abbrev SA : Shape := ⟨2, ![16384, 200]⟩
/-- Its transpose. -/
abbrev SX : Shape := ⟨2, ![200, 16384]⟩
/-- The weights, a column of 100. -/
abbrev SW : Shape := ⟨2, ![100, 1]⟩
/-- A vector of 16384: the pair table, and the result. -/
abbrev SV : Shape := ⟨1, ![16384]⟩

variable {F : FTy → Type} [FloatOps F]

/-- The word that indexes the pair table at pair k of molecule b: the even atom plus 128 times the odd one. -/
def pairWord (xt : IVec SX 32) (b : Fin 16384) (k : ℕ) : BitVec 32 :=
  IntOp.addi (xt (ix2 (⟨(2 * k) % 200, Nat.mod_lt _ (by norm_num)⟩ : Fin 200) b))
    (IntOp.shli .vector (xt (ix2 (⟨(2 * k + 1) % 200, Nat.mod_lt _ (by norm_num)⟩ : Fin 200) b)) 7#32)

/-- The running sum after k pairs. -/
def pairSum (tab : FVec F SV .f32) (xt : IVec SX 32) (b : Fin 16384) : ℕ → F .f32
  | 0 => Scalar.ofBits .f32 0x00000000#32
  | k + 1 => FloatOps.addf (pairSum tab xt b k)
      (tab (ix1 (⟨(pairWord xt b k).toNat % 16384, Nat.mod_lt _ (by norm_num)⟩ : Fin 16384)))

/-- The kernel's result: all hundred pairs summed. -/
def kerOut (tab : FVec F SV .f32) (xt : IVec SX 32) : FVec F SV .f32 := fun o => pairSum tab xt (o 0) 100

end Cert.Proof.Spec

end
-- ==== Proof.Glue.lean ====
/-
  The two arrays the kernel's host operations hand to the SparseCore call, as pure functions of the
  arguments, for any float instance: the pair table  T[128·i + j] = w128[j] + w128[i]  with w128 the hundred
  weights followed by twenty-eight zeros, and the atoms' array transposed.
-/
import proofs.«203047_g89000312307883_cont_sun_c4_202_23_alg».proof.KernelIdeal
import proofs.«203047_g89000312307883_cont_sun_c4_202_23_alg».proof.Proof.Gen.KernelIdeal

noncomputable section

namespace Cert.Proof.KI

open Idealize.ShloMosaic Cert.KernelIdeal

variable {F : FTy → Type} [FloatOps F]

/-- The weights as a vector of 100. -/
def w100 (w : FVec F S100x1 .f32) : FVec F S100 .f32 := shapeCast S100 w Facts₀.shapeCasts_S100x1_S100

/-- The weights written over the head of 128 zeros. -/
def w128 (w : FVec F S100x1 .f32) : FVec F S128 .f32 :=
  Host.scatter scatter_S128_S1_S100_0_n_0_0 (fun _ b => b)
    (broadcastInDim S128 ![] Facts₀.bcast_S_S128 (constant S_ .f32 0x00000000#32))
    (broadcastInDim S1 ![] Facts₀.bcast_S_S1 (constantI S_ 32 0#32)) (w100 w)

/-- The table of pair sums, flattened row-major. -/
def tabOf (w : FVec F S100x1 .f32) : FVec F S16384 .f32 :=
  shapeCast S16384
    (addf (broadcastInDim S128x128 ![0, 1] Facts₀.bcast_S1x128_S128x128_0_1 (broadcastInDim S1x128 ![1] Facts₀.bcast_S128_S1x128_1 (w128 w)))
      (broadcastInDim S128x128 ![0, 1] Facts₀.bcast_S128x1_S128x128_0_1 (broadcastInDim S128x1 ![0] Facts₀.bcast_S128_S128x1_0 (w128 w))))
    Facts₀.shapeCasts_S128x128_S16384

/-- The atoms' array transposed. -/
def xtOf (a : IVec S16384x200 32) : IVec S200x16384 32 :=
  transpose S200x16384 [1, 0] a Facts₀.transposes_S16384x200_S200x16384_1_0

end Cert.Proof.KI

end
-- ==== Proof.Bridge.lean ====
/-
  The value bridge at the ideal instance: the kernel's hundred-term fold over the pair table is the row sum of the
  looked-up weights.

  The pair table holds at 128·i + j the sum w128[j] + w128[i], where w128 is the hundred weights written over the head
  of 128 zeros, so w128[n] = w[n] for n < 100. For atom words x, y below 100 the word x + (y << 7) is x + 128·y, below
  16384, and the table there is w[x] + w[y]. The fold over pairs k = 0 … 99 of molecule b therefore adds
  w[a[b, 2k]] + w[a[b, 2k+1]] at step k; by associativity of addition on the extended reals it is the sum of
  w[a[b, l]] over l = 0 … 199.
-/
import proofs.«203047_g89000312307883_cont_sun_c4_202_23_alg».proof.Proof.Spec
import proofs.«203047_g89000312307883_cont_sun_c4_202_23_alg».proof.Proof.Glue
import Idealize.ShloMosaic.Lib.ValueIdx
import Idealize.ShloMosaic.Lib.Pipeline.Value
import Idealize.ShloMosaic.PureOps.Ideal.Laws

noncomputable section

open scoped BigOperators

namespace Cert.Proof.KI.Bridge

open Idealize.ShloMosaic Idealize.ShloMosaic.ValueIdx Cert.KernelIdeal Cert.Proof.Spec Cert.Proof.KI

variable {F : FTy → Type} [FloatOps F]

/-! ## The host operations read at an index -/

/-- The transposed atoms at (r, b) are the atoms at (b, r). -/
theorem xtOf_apply (a : IVec S16384x200 32) (r : Fin 200) (b : Fin 16384) :
    xtOf a (ix2 r b) = a (ix2 b r) := by
  unfold xtOf
  refine transpose_apply _ a _ (ix2 r b) (ix2 b r) ?_
  intro c
  match c with
  | ⟨0, _⟩ => rfl
  | ⟨1, _⟩ => rfl

/-- The weights as a vector of 100: entry j is row j of the column. -/
theorem w100_apply (w : FVec F S100x1 .f32) (j : Fin 100) : w100 w (ix1 j) = w (ix2 j (0 : Fin 1)) := by
  unfold w100
  refine shapeCast_apply w _ (ix1 j) (ix2 j 0) ?_
  rw [Shape.rowMajor_val_two, Shape.rowMajor_val_one]
  show j.val * 1 + 0 = j.val
  omega

/-- The pair table at 128·i + j is w128[j] + w128[i]. -/
theorem tabOf_apply (w : FVec Ideal S100x1 .f32) (i j : Fin 128) (h : 128 * i.val + j.val < 16384) :
    tabOf w (ix1 (⟨128 * i.val + j.val, h⟩ : Fin 16384)) = w128 w (ix1 j) + w128 w (ix1 i) := by
  unfold tabOf
  refine (shapeCast_apply _ _ (ix1 (⟨128 * i.val + j.val, h⟩ : Fin 16384)) (ix2 i j) ?_).trans ?_
  · rw [Shape.rowMajor_val_two, Shape.rowMajor_val_one]
    show i.val * 128 + j.val = 128 * i.val + j.val
    omega
  rw [addf_apply]
  congr 1
  · refine (broadcastInDim_apply _ _ _ (ix2 i j) (ix2 (0 : Fin 1) j) ?_).trans ?_
    · intro c
      match c with
      | ⟨0, _⟩ => rfl
      | ⟨1, _⟩ => rfl
    refine broadcastInDim_apply _ _ _ (ix2 (0 : Fin 1) j) (ix1 j) ?_
    intro c
    match c with
    | ⟨0, _⟩ => rfl
  · refine (broadcastInDim_apply _ _ _ (ix2 i j) (ix2 i (0 : Fin 1)) ?_).trans ?_
    · intro c
      match c with
      | ⟨0, _⟩ => rfl
      | ⟨1, _⟩ => rfl
    refine broadcastInDim_apply _ _ _ (ix2 i (0 : Fin 1)) (ix1 i) ?_
    intro c
    match c with
    | ⟨0, _⟩ => rfl

/-! ## The pair word -/

/-- For words x, y below 100, x + (y << 7) read unsigned is x + 128·y: no bit is lost. -/
theorem pair_toNat (x y : BitVec 32) (hx : x.toNat < 100) (hy : y.toNat < 100) :
    (IntOp.addi x (IntOp.shli .vector y 7#32)).toNat = x.toNat + 128 * y.toNat := by
  have h7 : (7#32 : BitVec 32).toNat < 32 := by decide
  unfold IntOp.addi IntOp.shli
  rw [if_pos h7]
  rw [BitVec.toNat_add, BitVec.shiftLeft_eq', BitVec.toNat_shiftLeft]
  have e7 : (7#32 : BitVec 32).toNat = 7 := by decide
  rw [e7, Nat.shiftLeft_eq]
  have : y.toNat * 2 ^ 7 % 2 ^ 32 = 128 * y.toNat := by omega
  rw [this]
  omega

/-! ## The scatter that pads the weights -/

/-- A scatter whose body returns the update, read at an operand index that exactly one update index lands on:
    the update there. -/
theorem scatter_set_apply {s si u : Shape} {α : Type} {wd : Nat} (d : ScatterDims s si u) (x : s.Idx → α)
    (idx : IVec si wd) (upd : u.Idx → α) (i₀ : s.Idx) (j₀ : u.Idx) (h₀ : d.resultIdx? j₀ idx = some i₀)
    (huniq : ∀ j, d.resultIdx? j idx = some i₀ → j = j₀) :
    Host.scatter d (fun _ b => b) x idx upd i₀ = upd j₀ := by
  unfold Host.scatter
  have hstep : ∀ (r : s.Idx → α) (n : Fin u.numel),
      (match d.resultIdx? (u.rowMajor.symm n) idx with
        | some i => fun i' => if i' = i then (fun _ b => b) (r i) (upd (u.rowMajor.symm n)) else r i'
        | none => r) i₀ = if d.resultIdx? (u.rowMajor.symm n) idx = some i₀ then upd (u.rowMajor.symm n) else r i₀ := by
    intro r n
    cases d.resultIdx? (u.rowMajor.symm n) idx with
    | none => exact (if_neg (fun e => by cases e)).symm
    | some i =>
      show (if i₀ = i then upd (u.rowMajor.symm n) else r i₀) = _
      by_cases h : i₀ = i
      · subst h
        rw [if_pos rfl, if_pos rfl]
      · rw [if_neg h, if_neg (fun e => h (Option.some.inj e).symm)]
  have key : ∀ (l : List (Fin u.numel)) (r : s.Idx → α), (r i₀ = upd j₀ ∨ u.rowMajor j₀ ∈ l) →
      List.foldl (fun r n =>
        match d.resultIdx? (u.rowMajor.symm n) idx with
        | some i => fun i' => if i' = i then (fun _ b => b) (r i) (upd (u.rowMajor.symm n)) else r i'
        | none => r) r l i₀ = upd j₀ := by
    intro l
    induction l with
    | nil =>
      intro r h
      rcases h with h | h
      · exact h
      · exact absurd h List.not_mem_nil
    | cons n l ih =>
      intro r h
      rw [List.foldl_cons]
      apply ih
      rcases h with h | h
      · left
        rw [hstep]
        by_cases hn : d.resultIdx? (u.rowMajor.symm n) idx = some i₀
        · rw [if_pos hn, huniq _ hn]
        · rw [if_neg hn]; exact h
      · rcases List.mem_cons.1 h with h | h
        · left
          rw [hstep, ← h, Equiv.symm_apply_apply, if_pos h₀]
        · right; exact h
  exact key _ x (Or.inr (List.mem_finRange _))

/-- The scatter's one start index: the zero word. -/
abbrev idx0 : IVec S1 32 := broadcastInDim S1 ![] Facts₀.bcast_S_S1 (constantI S_ 32 0#32)

/-- Every window starts at 0 on the one operand axis. -/
theorem start_zero (j : S100.Idx) (a : Fin S128.rank) : scatter_S128_S1_S100_0_n_0_0.start j idx0 a = 0 := by
  unfold ScatterDims.start
  split
  · rfl
  · rfl

/-- The window coordinate is the update index's coordinate. -/
theorem window_eq (j : S100.Idx) (a : Fin S128.rank) : scatter_S128_S1_S100_0_n_0_0.window j a = (j 0).val := by
  obtain rfl : a = 0 := Subsingleton.elim _ _
  unfold ScatterDims.window
  rw [dif_pos (by decide)]
  rfl

/-- Update index j lands on operand index j (100 ≤ 128: always inside). -/
theorem resultIdx_eq (j : S100.Idx) :
    scatter_S128_S1_S100_0_n_0_0.resultIdx? j idx0 = some (ix1 (⟨(j 0).val, lt_trans (j 0).isLt (by norm_num)⟩ : Fin 128)) := by
  unfold ScatterDims.resultIdx?
  have hall : ∀ a, 0 ≤ scatter_S128_S1_S100_0_n_0_0.start j idx0 a + scatter_S128_S1_S100_0_n_0_0.window j a ∧
      scatter_S128_S1_S100_0_n_0_0.start j idx0 a + scatter_S128_S1_S100_0_n_0_0.window j a < S128.size a := by
    intro a
    rw [start_zero, window_eq]
    have h1 : (j 0).val < 100 := (j 0).isLt
    have h2 : S128.size a = 128 := by
      obtain rfl : a = 0 := Subsingleton.elim _ _
      rfl
    rw [h2]
    omega
  rw [dif_pos hall]
  congr 1
  funext a
  obtain rfl : a = 0 := Subsingleton.elim _ _
  apply Fin.ext
  show (scatter_S128_S1_S100_0_n_0_0.start j idx0 0 + scatter_S128_S1_S100_0_n_0_0.window j 0).toNat = (j 0).val
  rw [start_zero, window_eq]
  simp

/-- The padded weights below 100 are the weights. -/
theorem w128_apply (w : FVec F S100x1 .f32) (j : Fin 128) (h : j.val < 100) :
    w128 w (ix1 j) = w (ix2 (⟨j.val, h⟩ : Fin 100) (0 : Fin 1)) := by
  unfold w128
  rw [← w100_apply w (⟨j.val, h⟩ : Fin 100)]
  refine scatter_set_apply scatter_S128_S1_S100_0_n_0_0 _ idx0 (w100 w) (ix1 j) (ix1 (⟨j.val, h⟩ : Fin 100)) ?_ ?_
  · rw [resultIdx_eq]
  · intro j' e
    rw [resultIdx_eq] at e
    have e1 := Option.some.inj e
    have e2 : (j' 0).val = j.val := congrArg (fun f : S128.Idx => (f 0).val) e1
    rw [eq_ix1 j']
    exact congrArg ix1 (Fin.ext e2)

/-! ## The fold as a sum -/

/-- The weight an atom word looks up, for any natural (the word read unsigned, folded into the hundred rows). -/
def wAt (w : FVec Ideal S100x1 .f32) (n : ℕ) : Ideal .f32 :=
  w (ix2 (⟨n % 100, Nat.mod_lt _ (by norm_num)⟩ : Fin 100) (0 : Fin 1))

/-- Atom l of molecule b, for any natural l (folded into the two hundred atoms). -/
def aw (a : IVec S16384x200 32) (b : Fin 16384) (l : ℕ) : BitVec 32 :=
  a (ix2 b (⟨l % 200, Nat.mod_lt _ (by norm_num)⟩ : Fin 200))

/-- The padded weights at n < 100, in that form. -/
theorem w128_wAt (w : FVec Ideal S100x1 .f32) (n : ℕ) (h : n < 100) (h' : n < 128) :
    w128 w (ix1 (⟨n, h'⟩ : Fin 128)) = wAt w n := by
  rw [w128_apply w ⟨n, h'⟩ h]
  unfold wAt
  exact congrArg (fun i : Fin 100 => w (ix2 i (0 : Fin 1))) (Fin.ext (Nat.mod_eq_of_lt h).symm)

/-- The word of pair k: atom 2k plus atom 2k+1 shifted left by 7. -/
theorem pairWord_eq (a : IVec S16384x200 32) (b : Fin 16384) (k : ℕ) :
    pairWord (xtOf a) b k = IntOp.addi (aw a b (2 * k)) (IntOp.shli .vector (aw a b (2 * k + 1)) 7#32) := by
  unfold pairWord aw
  rw [xtOf_apply, xtOf_apply]

/-- Term k of the fold: the two looked-up weights of pair k. -/
theorem term_eq (a : IVec S16384x200 32) (w : FVec Ideal S100x1 .f32) (hrng : ∀ i, (a i).toNat < 100)
    (b : Fin 16384) (k : ℕ) (hlt : (pairWord (xtOf a) b k).toNat % 16384 < 16384) :
    tabOf w (ix1 (⟨(pairWord (xtOf a) b k).toNat % 16384, hlt⟩ : Fin 16384))
      = wAt w (aw a b (2 * k)).toNat + wAt w (aw a b (2 * k + 1)).toNat := by
  have hx : (aw a b (2 * k)).toNat < 100 := hrng _
  have hy : (aw a b (2 * k + 1)).toNat < 100 := hrng _
  have e : (pairWord (xtOf a) b k).toNat = (aw a b (2 * k)).toNat + 128 * (aw a b (2 * k + 1)).toNat := by
    rw [pairWord_eq]; exact pair_toNat _ _ hx hy
  have ht := tabOf_apply w (⟨(aw a b (2 * k + 1)).toNat, by omega⟩ : Fin 128) (⟨(aw a b (2 * k)).toNat, by omega⟩ : Fin 128)
    (by show 128 * (aw a b (2 * k + 1)).toNat + (aw a b (2 * k)).toNat < 16384; omega)
  rw [w128_wAt w _ hx, w128_wAt w _ hy] at ht
  rw [← ht]
  exact congrArg (fun i : Fin 16384 => tabOf w (ix1 i)) (Fin.ext (by
    show (pairWord (xtOf a) b k).toNat % 16384 = 128 * (aw a b (2 * k + 1)).toNat + (aw a b (2 * k)).toNat
    rw [e]; omega))

/-- The running sum after k pairs is the sum of the first 2k looked-up weights. -/
theorem pairSum_eq (a : IVec S16384x200 32) (w : FVec Ideal S100x1 .f32) (hrng : ∀ i, (a i).toNat < 100)
    (b : Fin 16384) (k : ℕ) :
    pairSum (F := Ideal) (tabOf w) (xtOf a) b k = ∑ l ∈ Finset.range (2 * k), wAt w (aw a b l).toNat := by
  induction k with
  | zero =>
    show (Ideal.ofBits .f32 0x00000000#32 : Ideal .f32) = _
    rw [Ideal.ofBits_zero_f32]
    simp
  | succ k ih =>
    show pairSum (F := Ideal) (tabOf w) (xtOf a) b k + tabOf w (ix1 _) = _
    rw [ih, term_eq a w hrng b k, show 2 * (k + 1) = 2 * k + 1 + 1 by ring, Finset.sum_range_succ, Finset.sum_range_succ,
      add_assoc]

/-- THE VALUE BRIDGE: entry b of the kernel's result is the sum over molecule b's 200 atoms of the looked-up weight. -/
theorem kerOut_apply (a : IVec S16384x200 32) (w : FVec Ideal S100x1 .f32) (hrng : ∀ i, (a i).toNat < 100) (b : Fin 16384) :
    kerOut (F := Ideal) (tabOf w) (xtOf a) (ix1 b)
      = ∑ l : Fin 200, w (ix2 (⟨(a (ix2 b l)).toNat % 100, Nat.mod_lt _ (by norm_num)⟩ : Fin 100) (0 : Fin 1)) := by
  show pairSum (F := Ideal) (tabOf w) (xtOf a) b 100 = _
  rw [pairSum_eq a w hrng b 100, ← Fin.sum_univ_eq_sum_range (fun l => wAt w (aw a b l).toNat) 200]
  refine Finset.sum_congr rfl fun l _ => ?_
  unfold wAt aw
  have hl : (⟨l.val % 200, Nat.mod_lt _ (by norm_num)⟩ : Fin 200) = l := Fin.ext (Nat.mod_eq_of_lt l.isLt)
  rw [hl]

end Cert.Proof.KI.Bridge

end
-- ==== Proof.Base.lean ====
/-
  The program as the launch of its one SparseCore call reads it: the call's configuration, the body table, and the ghost
  state. Every transfer of this kernel is local to the task that starts it and is waited for by that same task, so the
  tasks signal nobody: beside the launch's own handshakes the ghost state is only the transfers' counters.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

end Cert.Proof.KI

end
-- ==== Proof.Vals.lean ====
/-
  What a task computes, lane by lane. A block is 200 rows (atoms) by 128 columns (molecules) of atom indices. Trip k of the
  inner loop reads rows 2k and 2k+1 of sixteen columns, forms the word  even + (odd << 7)  and adds the table's entry at
  that word to the running sum of each of the sixteen columns. Atom indices below 100 make every such word less than
  128 · 128, the table's length.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import Idealize.ShloMosaic.Lib.ValueLayout
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type} [FloatOps F]

/-! ## What one trip of the inner loop adds -/

/-- Sixteen lanes of a block: row r, columns c0 … c0 + 15. -/
def laneRow (fb : IVec S200x128 32) (r c0 : ℕ) : IVec S16 32 :=
  fun x => fb (ix2 (⟨r % 200, Nat.mod_lt _ (by norm_num)⟩ : Fin 200) (⟨(c0 + (x 0).val) % 128, Nat.mod_lt _ (by norm_num)⟩ : Fin 128))

/-- The pair words of trip k for those lanes: the even row plus 128 times the odd row. -/
def combV (fb : IVec S200x128 32) (k c0 : ℕ) : IVec S16 32 :=
  addi (laneRow fb (2 * k) c0) (shli (laneRow fb (2 * k + 1) c0) (broadcast S16 7#32))

/-- The table read at the pair words. -/
def gatV (T0 : FVec F S16384 .f32) (fb : IVec S200x128 32) (k c0 : ℕ) : FVec F S16 .f32 :=
  fun x => T0 (ix1 (⟨(combV fb k c0 x).toNat % 16384, Nat.mod_lt _ (by norm_num)⟩ : Fin 16384))

/-- The sixteen running sums after k trips. -/
def accV (T0 : FVec F S16384 .f32) (fb : IVec S200x128 32) (c0 : ℕ) : ℕ → FVec F S16 .f32
  | 0 => k0_pay57
  | k + 1 => addf (accV T0 fb c0 k) (gatV T0 fb k c0)

/-- A pair word built from two atoms below 100 is below 128 · 128. -/
theorem word_lt (x y : BitVec 32) (hx : x.toNat < 100) (hy : y.toNat < 100) :
    (IntOp.addi x (IntOp.shli .vector y 7#32)).toNat < 16384 := by
  have e : IntOp.shli .vector y 7#32 = y <<< (7 : ℕ) := by
    unfold IntOp.shli; rw [if_pos (by decide)]; rfl
  rw [e]
  simp only [IntOp.addi, BitVec.toNat_add, BitVec.toNat_shiftLeft, Nat.shiftLeft_eq]
  norm_num
  omega

theorem chk_small (lo hi : IVec S16 32) (hlo : ∀ x, (lo x).toNat < 100) (hhi : ∀ x, (hi x).toNat < 100) :
    ∀ a x, ((![addi lo (shli hi (broadcast S16 7#32))] : Fin 1 → IVec S16 32) a x).toNat < S16384.size a := by
  intro a x
  obtain rfl : a = 0 := Subsingleton.elim _ _
  exact word_lt _ _ (hlo x) (hhi x)

end Cert.Proof.KI

end
-- ==== Proof.Pay.lean ====
/-
  What the launch hands each SparseCore and each task, and takes back. The pair table and the transposed atoms are only
  read: each SparseCore gets a read share of both, each of its sixteen tasks a share of that. The result is written:
  task (core c, subcore s) owns the 512 entries from 1024·s + 512·c, the sixteen tasks of a core own that core's half,
  and the two halves are the whole result. A task returns its 512 entries holding the sums.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

/-- The transposed atoms, the pair table and the result, as locations of device d. -/
abbrev xLoc (d : Dev nD) : Loc nD τ sig := (SparseCore.T d).loc main_v10
abbrev tLoc (d : Dev nD) : Loc nD τ sig := (SparseCore.T d).loc main_v9
abbrev oLoc (d : Dev nD) : Loc nD τ sig := (SparseCore.T d).loc main_v11
abbrev aLoc (d : Dev nD) : Loc nD τ sig := (SparseCore.T d).loc main_arg0
abbrev wLoc (d : Dev nD) : Loc nD τ sig := (SparseCore.T d).loc main_arg1

/-- A task's grid coordinates from its SparseCore and vector subcore. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The task's slice of the result: 512 entries from 1024·(subcore) + 512·(core). -/
abbrev oSlice (L : grid0.Coords) : Memref sig .scVector .hbm S512 .f32 :=
  (oW).slice (Rect.unit (s := S16384) (k0_off67 L) S512.size (k0_off67_inb L)) (fun _ => rfl)

/-- The entries of the result the task at L writes. -/
abbrev outSet (L : grid0.Coords) : Finset S16384.Idx := (oSlice L).view.set

/-- The entries the sixteen tasks of SparseCore c write. -/
def coreSet (c : Fin 2) : Finset S16384.Idx := (Finset.univ : Finset (Fin 16)).biUnion fun i => outSet (coordsV c i)

/-- The read share of the table and of the atoms that the task at L is lent: the SparseCore's share of the whole, then the task's share of that. -/
def tokT (L : grid0.Coords) : PosShare TreeShare := Transfers.shareTokN (Transfers.shareTokN fullShare (L 0).val) (L 1).val

abbrev sem0cell (d : Dev nD) (L : grid0.Coords) : GSem nD τ sig := (thrV d L, .dma cc0_scratch4.sem)
abbrev sem1cell (d : Dev nD) (L : grid0.Coords) : GSem nD τ sig := (thrV d L, .dma cc0_scratch5.sem)
abbrev sem2cell (d : Dev nD) (L : grid0.Coords) : GSem nD τ sig := (thrV d L, .dma cc0_scoped0.sem)
abbrev sem3cell (d : Dev nD) (L : grid0.Coords) : GSem nD τ sig := (thrV d L, .dma cc0_scoped1.sem)

variable [FloatOps F] (m : (ℓ : Loc nD τ sig) → Buf (Elt F) ℓ)

/-- What the host operations leave in the pair table and the transposed atoms, and what the call leaves in the result. -/
def TabOf (d : Dev nD) : Buf (Elt F) (tLoc d) := tabOf (m (wLoc d))
def XOf (d : Dev nD) : Buf (Elt F) (xLoc d) := xtOf (m (aLoc d))
def OutOf (d : Dev nD) : Buf (Elt F) (oLoc d) := Spec.kerOut (TabOf m d) (XOf m d)

/-- What a task is handed: read shares of the table and of the atoms, and its 512 entries of the result; and what it hands back: the same, its entries holding the sums. -/
def tileGo (d : Dev nD) (L : grid0.Coords) : sProp 𝕄 :=
  iprop((tLoc d ↦{tokT L} TabOf m d) ∗ (xLoc d ↦{tokT L} XOf m d) ∗ (oLoc d ↦[outSet L]{fullShare} m (oLoc d)))
def tileTd (d : Dev nD) (L : grid0.Coords) : sProp 𝕄 :=
  iprop((tLoc d ↦{tokT L} TabOf m d) ∗ (xLoc d ↦{tokT L} XOf m d) ∗ (oLoc d ↦[outSet L]{fullShare} OutOf m d))

/-- What a SparseCore is handed and hands back: its read shares, and its half of the result. -/
def coreSt (d : Dev nD) (c : Fin 2) : sProp 𝕄 :=
  iprop((tLoc d ↦{Transfers.shareTokN fullShare c.val} TabOf m d) ∗ (xLoc d ↦{Transfers.shareTokN fullShare c.val} XOf m d) ∗ (oLoc d ↦[coreSet c]{fullShare} m (oLoc d)))
def coreDn (d : Dev nD) (c : Fin 2) : sProp 𝕄 :=
  iprop((tLoc d ↦{Transfers.shareTokN fullShare c.val} TabOf m d) ∗ (xLoc d ↦{Transfers.shareTokN fullShare c.val} XOf m d) ∗ (oLoc d ↦[coreSet c]{fullShare} OutOf m d))

/-- The one call's payloads. -/
def P : (K (F := F)).Pay (nD := nD) (Val := Elt F) (Name := ℕ) (U := UU) where
  st := fun q d c => match q with | 0 => coreSt m d (Fin.cast nCore_zero c)
  dn := fun q d c => match q with | 0 => coreDn m d (Fin.cast nCore_zero c)
  go := fun q d c i => match q with | 0 => tileGo m d (coordsV (Fin.cast nCore_zero c) (Fin.cast nSub_zero i))
  td := fun q d c i => match q with | 0 => tileTd m d (coordsV (Fin.cast nCore_zero c) (Fin.cast nSub_zero i))
  x := fun _ _ => iprop(emp)

instance P_storable : (P (F := F) m).IsStorable where
  st q d c := match q with | 0 => by unfold P coreSt; infer_instance
  dn q d c := match q with | 0 => by unfold P coreDn; infer_instance
  go q d c i := match q with | 0 => by unfold P tileGo; infer_instance
  td q d c i := match q with | 0 => by unfold P tileTd; infer_instance

end Cert.Proof.KI

end
-- ==== Proof.TileStmt.lean ====
/-
  The statement of one task's run, by itself, so that the launch and the task's proof can be read separately.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals
import proofs.«203047_g89000312307883_cont_sun_c4_202_23_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

variable [FloatOps F] (m : (ℓ : Loc nD τ sig) → Buf (Elt F) ℓ)

/-- What one task's run is required to do: from its read shares, its entries of the result, its own scratch and semaphores
    (and what it owes the launch), the kernel function at the task's coordinates ends with the shares back, its entries of
    the result holding the sums, the scratch and semaphores back, and nothing more owed. Stated for atoms below 100. -/
def TileBody : Prop :=
  ∀ (d : Dev nD) (L : grid0.Coords), (K (F := F)).Facts → (∀ i, (XOf m d i).toNat < 100) →
    ∀ (O : CellTallies nD τ sig (HIx 1)) (W : Waits sig (HIx 1)), (∀ g, O g none = 0) →
    iprop(levAts (K (F := F)).L (K (F := F)).lev ∗ emp ∗ tileGo m d L ∗ scopedBufs (thrV d L) ∗ scopedSems0 (thrV d L) ∗ owes (thrV d L) O W)
      ⊢ wp frame (wpE (defs₀ (F := F)) 𝒱₀ (thrV d L) none) Set.univ
          (cc0_k L xW (Memref.isWhole_whole _) tW (Memref.isWhole_whole _) oW (Memref.isWhole_whole _)
            s0W (Memref.isWhole_whole _) s1W (Memref.isWhole_whole _) s2W (Memref.isWhole_whole _) s3W (Memref.isWhole_whole _)
            cc0_scratch4 cc0_scratch5 cc0_scoped0 cc0_scoped1)
          fun _ => iprop(tileTd m d L ∗ scopedBufs (thrV d L) ∗ scopedSems0 (thrV d L) ∗ ∃ W', ⌜∀ p ∈ W', p ∈ W ∨ p.2 = none⌝ ∗ owes (thrV d L) O W')

end Cert.Proof.KI

end
-- ==== Proof.LaunchSplit.lean ====
/-
  The launch of the SparseCore call, second part: how a SparseCore's operands split among its sixteen
  tasks and its results gather from theirs. The pair table and the transposed atoms are read-only: a
  SparseCore's read share of each is cut into a remainder, kept until the tasks return, and one share
  per task. The result is written: task (c, i) owns the 512 consecutive entries from 1024·i + 512·c,
  these are pairwise apart, a SparseCore's half is the union of its tasks' and the whole array the
  union of the two halves.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals
import proofs.«203047_g89000312307883_cont_sun_c4_202_23_alg».proof.Proof.Pay
import proofs.«203047_g89000312307883_cont_sun_c4_202_23_alg».proof.Proof.TileStmt

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

variable [FloatOps F] (m : (ℓ : Loc nD τ sig) → Buf (Elt F) ℓ)

/-! ## The tasks' entries of the result: 512 consecutive entries each, pairwise apart, covering all -/

omit [FloatOps F] in
theorem coordsV_zero (c : Fin 2) (i : Fin 16) : (coordsV c i) 0 = c := rfl
omit [FloatOps F] in
theorem coordsV_one (c : Fin 2) (i : Fin 16) : (coordsV c i) 1 = i := rfl

omit [FloatOps F] in
theorem outSet_eq (L : grid0.Coords) : outSet L = (Rect.unit (s := S16384) (k0_off67 L) S512.size (k0_off67_inb L)).set :=
  View.set_slice_whole _ _

omit [FloatOps F] in
/-- An entry is the task's iff it lies in the 512 from the task's offset. -/
theorem mem_outSet (c : Fin 2) (i : Fin 16) (o : S16384.Idx) :
    o ∈ outSet (coordsV c i) ↔ 1024 * i.val + 512 * c.val ≤ (o 0).val ∧ (o 0).val < 1024 * i.val + 512 * c.val + 512 := by
  rw [outSet_eq, Rect.mem_set_unit, k0_off67_eq, Fin.forall_fin_one]
  rfl

omit [FloatOps F] in
theorem outSet_disjoint (c c' : Fin 2) (i j : Fin 16) (h : c ≠ c' ∨ i ≠ j) : Disjoint (outSet (coordsV c i)) (outSet (coordsV c' j)) := by
  rw [Finset.disjoint_left]
  intro o h1 h2
  rw [mem_outSet] at h1 h2
  have hc : c.val ≠ c'.val ∨ i.val ≠ j.val := h.imp (fun h e => h (Fin.ext e)) (fun h e => h (Fin.ext e))
  have := c.isLt; have := c'.isLt
  omega

omit [FloatOps F] in
theorem tasks_disjoint (c : Fin 2) : ∀ i ∈ (Finset.univ : Finset (Fin 16)), ∀ j ∈ (Finset.univ : Finset (Fin 16)), i ≠ j →
    Disjoint (outSet (coordsV c i)) (outSet (coordsV c j)) :=
  fun i _ j _ h => outSet_disjoint c c i j (.inr h)

omit [FloatOps F] in
theorem cores_disjoint : ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]
  intro i _
  rw [Finset.disjoint_biUnion_right]
  intro j _
  exact outSet_disjoint c c' i j (.inl h)

omit [FloatOps F] in
theorem cores_cover : (Finset.univ : Finset (Fin 2)).biUnion coreSet = (Finset.univ : Finset S16384.Idx) := by
  refine Finset.eq_univ_of_forall fun o => ?_
  have ho : (o 0).val < 16384 := (o 0).isLt
  have hi : (o 0).val / 1024 < 16 := by omega
  have hc : (o 0).val % 1024 / 512 < 2 := by omega
  refine Finset.mem_biUnion.mpr ⟨⟨(o 0).val % 1024 / 512, hc⟩, Finset.mem_univ _, Finset.mem_biUnion.mpr ⟨⟨(o 0).val / 1024, hi⟩, Finset.mem_univ _, ?_⟩⟩
  rw [mem_outSet]
  show 1024 * ((o 0).val / 1024) + 512 * ((o 0).val % 1024 / 512) ≤ _ ∧ _ < 1024 * ((o 0).val / 1024) + 512 * ((o 0).val % 1024 / 512) + 512
  omega

/-! ## The split of a SparseCore's operands among its sixteen tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A SparseCore's read share of an array is a remainder and one share per task. -/
theorem toks_tasks {ℓ : Loc nD τ sig} (c : Fin 2) (f : Buf (Elt F) ℓ) :
    (ℓ ↦{Transfers.shareTokN fullShare c.val} f : sProp 𝕄)
      ⊣⊢ iprop((ℓ ↦{Transfers.shareDrop (Transfers.shareTokN fullShare c.val) 16} f) ∗ bigSep Finset.univ fun i : Fin 16 => ℓ ↦{tokT (coordsV c i)} f) :=
  Transfers.pointsTo_toks (Transfers.shareTokN fullShare c.val) 16

omit [FloatOps F] in
/-- A SparseCore's half of the result is its sixteen tasks' entries. -/
theorem oPts_tasks (d : Dev nD) (c : Fin 2) (f : Buf (Elt F) (oLoc d)) :
    (oLoc d ↦[coreSet c]{fullShare} f : sProp 𝕄) = bigSep Finset.univ fun i : Fin 16 => oLoc d ↦[outSet (coordsV c i)]{fullShare} f := by
  unfold coreSet; exact pointsTo_biUnion Finset.univ _ (tasks_disjoint c)

theorem vecSplit : (K (F := F)).VecSplit' (P m) 0 := by
  intro d c
  show coreSt m d (Fin.cast nCore_zero c : Fin 2) ⊢ |={Set.univ}=> iprop(
      (bigSep Finset.univ fun i : Fin ((K (F := F)).nSub 0) => tileGo m d (coordsV (Fin.cast nCore_zero c : Fin 2) (Fin.cast nSub_zero i : Fin 16)))
      ∗ ((bigSep Finset.univ fun i : Fin ((K (F := F)).nSub 0) => tileTd m d (coordsV (Fin.cast nCore_zero c : Fin 2) (Fin.cast nSub_zero i : Fin 16)))
          -∗ coreDn m d (Fin.cast nCore_zero c : Fin 2)))
  generalize Fin.cast nCore_zero c = c'
  rw [bigSep_tasks (F := F) (fun i => tileGo m d (coordsV c' i)), bigSep_tasks (F := F) (fun i => tileTd m d (coordsV c' i))]
  unfold coreSt coreDn tileGo tileTd
  rw [bigSep_sep', bigSep_sep', bigSep_sep', bigSep_sep', oPts_tasks, oPts_tasks]
  iintro ⟨Ht, Hx, Ho⟩
  ihave Ht' := (toks_tasks c' (TabOf m d)).1 $$ Ht
  ihave Hx' := (toks_tasks c' (XOf m d)).1 $$ Hx
  icases Ht' with ⟨Htr, Hts⟩
  icases Hx' with ⟨Hxr, Hxs⟩
  imodintro
  isplitl [Hts Hxs Ho]
  · isplitl [Hts]; · iexact Hts
    isplitl [Hxs]; · iexact Hxs
    iexact Ho
  iintro ⟨Hts, Hxs, Ho⟩
  isplitl [Htr Hts]
  · iapply (toks_tasks c' (TabOf m d)).2
    isplitl [Htr]; · iexact Htr
    iexact Hts
  isplitl [Hxr Hxs]
  · iapply (toks_tasks c' (XOf m d)).2
    isplitl [Hxr]; · iexact Hxr
    iexact Hxs
  iexact Ho

omit [FloatOps F] in
/-- The whole result is the two SparseCores' halves. -/
theorem oPts_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]; try rfl

end Cert.Proof.KI

end
-- ==== Proof.LaunchTile.lean ====
/-
  The launch of the SparseCore call, first part: the launch theorem's obligation for one task from the
  task's run; the launch element of the ghost state (the handshakes' rounds, the transfers' counters
  dropped); what @main leaves the claim (the arguments unchanged, the result at the sums) and how the
  final memory reads it.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals
import proofs.«203047_g89000312307883_cont_sun_c4_202_23_alg».proof.Proof.Pay
import proofs.«203047_g89000312307883_cont_sun_c4_202_23_alg».proof.Proof.TileStmt

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

variable [FloatOps F] (m : (ℓ : Loc nD τ sig) → Buf (Elt F) ℓ) (ρ : Dev nD → PrngReg)

/-! ## The task's obligation -/

theorem defs₀_vector (c : Fin τ.nSC) (s : Fin τ.nSub) :
    defs₀ (F := F) (.scVector c s) 0 ()
      = SparseCore.onTile hcore0 hsub0 (fun c s => cc0_k (coordsV c s)
          xW (Memref.isWhole_whole _) tW (Memref.isWhole_whole _) oW (Memref.isWhole_whole _)
          s0W (Memref.isWhole_whole _) s1W (Memref.isWhole_whole _) s2W (Memref.isWhole_whole _) s3W (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for a task, from the task's run. -/
theorem tileObl (h : TileBody m) (hX : ∀ d i, (XOf m d i).toNat < 100) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (h d (coordsV ⟨_, hc.1⟩ ⟨_, hc.2⟩) facts (hX d) O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim, and how the final memory reads it -/

/-- The arguments at their launch contents and the result at the sums. -/
abbrev FIN (d : Dev nD) : sProp 𝕄 :=
  iprop((aLoc d ↦{fullShare} m (aLoc d)) ∗ (wLoc d ↦{fullShare} m (wLoc d)) ∗ (oLoc d ↦{fullShare} OutOf m d))

def fq (d : Dev nD) (s' : Phys nD τ sig (Elt F)) : Prop :=
  s'.mem.mem (oLoc d) = OutOf m d ∧ s'.mem.mem (aLoc d) = m (aLoc d) ∧ s'.mem.mem (wLoc d) = m (wLoc d)

theorem hfin (d : Dev nD) (s' : Phys nD τ sig (Elt F)) : iprop(FIN m d ∗ SI s') ⊢ (⌜fq m d s'⌝ : sProp 𝕄) := by
  iintro ⟨⟨Ha, Hw, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := OutOf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop :=
  fun r => ∀ c : Dev nD, r.2.mem (oLoc c) = OutOf m c ∧ r.2.mem (aLoc c) = m (aLoc c) ∧ r.2.mem (wLoc c) = m (wLoc c)

end Cert.Proof.KI

end
-- ==== Proof.Launch.lean ====
/-
  The launch of the SparseCore call, last part: @main on the TensorCore and the program's run. The thirteen
  host operations run as one line over all sixteen of the TensorCore's arrays; what they leave in the pair
  table and in the transposed atoms is read off as the pure functions of the arguments the tasks are stated
  over. The call lends the two SparseCores read shares of those two arrays and the two halves of the result,
  and takes them back with the result at the sums. The launch theorem then gives the run of all threads from
  each task's run.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals
import proofs.«203047_g89000312307883_cont_sun_c4_202_23_alg».proof.Proof.Pay
import proofs.«203047_g89000312307883_cont_sun_c4_202_23_alg».proof.Proof.TileStmt
import proofs.«203047_g89000312307883_cont_sun_c4_202_23_alg».proof.Proof.LaunchSplit
import proofs.«203047_g89000312307883_cont_sun_c4_202_23_alg».proof.Proof.LaunchTile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

open Idealize.ShloMosaic.StableHlo

variable [FloatOps F] (m : (ℓ : Loc nD τ sig) → Buf (Elt F) ℓ) (ρ : Dev nD → PrngReg)

/-! ## @main's host operations as one line -/

/-- @main's thirteen host operations, in order. -/
abbrev ops : List (HloOp τ sig (Elt F)) :=
  [ StableHlo.reshape main_arg1 main_v0 rfl shapeCasts_S100x1_S100,
    StableHlo.nullary main_cst (constant S_ .f32 0x00000000#32),
    StableHlo.unary main_cst main_v1 (broadcastInDim S128 ![] bcast_S_S128 : (⟨S_, .f32⟩ : BufTy).Contents (Elt F) → (⟨S128, .f32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.ternary main_v1 main_v2 main_v0 main_v3 ((fun x i u => Host.scatter scatter_S128_S1_S100_0_n_0_0 (fun _ b => b) x i u) : (⟨S128, .f32⟩ : BufTy).Contents (Elt F) → (⟨S1, .i32⟩ : BufTy).Contents (Elt F) → (⟨S100, .f32⟩ : BufTy).Contents (Elt F) → (⟨S128, .f32⟩ : BufTy).Contents (Elt F)),
    StableHlo.unary main_v3 main_v4 (broadcastInDim S1x128 ![1] bcast_S128_S1x128_1 : (⟨S128, .f32⟩ : BufTy).Contents (Elt F) → (⟨S1x128, .f32⟩ : BufTy).Contents (Elt F)),
    StableHlo.unary main_v3 main_v5 (broadcastInDim S128x1 ![0] bcast_S128_S128x1_0 : (⟨S128, .f32⟩ : BufTy).Contents (Elt F) → (⟨S128x1, .f32⟩ : BufTy).Contents (Elt F)),
    StableHlo.unary main_v4 main_v6 (broadcastInDim S128x128 ![0, 1] bcast_S1x128_S128x128_0_1 : (⟨S1x128, .f32⟩ : BufTy).Contents (Elt F) → (⟨S128x128, .f32⟩ : BufTy).Contents (Elt F)),
    StableHlo.unary main_v5 main_v7 (broadcastInDim S128x128 ![0, 1] bcast_S128x1_S128x128_0_1 : (⟨S128x1, .f32⟩ : BufTy).Contents (Elt F) → (⟨S128x128, .f32⟩ : BufTy).Contents (Elt F)),
    StableHlo.binary main_v6 main_v7 main_v8 (addf : (⟨S128x128, .f32⟩ : BufTy).Contents (Elt F) → (⟨S128x128, .f32⟩ : BufTy).Contents (Elt F) → (⟨S128x128, .f32⟩ : BufTy).Contents (Elt F)),
    StableHlo.reshape main_v8 main_v9 rfl shapeCasts_S128x128_S16384,
    StableHlo.unary main_arg0 main_v10 ((transpose S200x16384 [1, 0] · transposes_S16384x200_S200x16384_1_0) : (⟨S16384x200, .i32⟩ : BufTy).Contents (Elt F) → (⟨S200x16384, .i32⟩ : BufTy).Contents (Elt F)) ]

theorem main_eq (d : Dev nD) :
    main (F := F) d = (StableHlo.seq ops >>= fun _ => ((K (F := F)).run d 0 >>= fun _ => pure ⟨⟩)) := rfl

theorem ops_sub : ∀ op ∈ (ops : List (HloOp τ sig (Elt F))), op.bufs ⊆ tcRefs τ sig :=
  List.forall_iff_forall_mem.1
    ⟨reshape_bufs_sub .., nullary_bufs_sub .., unary_bufs_sub .., nullary_bufs_sub .., unary_bufs_sub .., ternary_bufs_sub .., unary_bufs_sub ..,
      unary_bufs_sub .., unary_bufs_sub .., unary_bufs_sub .., binary_bufs_sub .., reshape_bufs_sub .., unary_bufs_sub ..⟩

theorem ops_fresh : ∀ op ∈ (ops : List (HloOp τ sig (Elt F))), op.fresh = ∅ := by
  intro _ h; (repeat (cases h with | head => rfl | tail _ h => ?_)); exact nomatch h

/-- The TensorCore's arrays at the launch, regrouped as one held set. -/
theorem unscoped_held (d : Dev nD) :
    (unscopedBufs d (fun b => m ((SparseCore.T d).loc b)) : sProp 𝕄) = held (T d) (tcRefs τ sig) (launchContents m d) := by
  unfold unscopedBufs held tcRefs
  rw [show (Finset.univ.filter fun b : Ref sig .tc => ¬ b.isScoped) = Finset.univ by decide, bigSep_map]; rfl

/-! ## What the host operations leave in the five arrays the proof goes on with -/

abbrev t' : DevRef τ sig := Proc.devRef .tc (main_v9 : Ref sig .tc)
abbrev x' : DevRef τ sig := Proc.devRef .tc (main_v10 : Ref sig .tc)
abbrev o' : DevRef τ sig := Proc.devRef .tc (main_v11 : Ref sig .tc)
abbrev a' : DevRef τ sig := Proc.devRef .tc (main_arg0 : Ref sig .tc)
abbrev w' : DevRef τ sig := Proc.devRef .tc (main_arg1 : Ref sig .tc)

theorem after_t (d : Dev nD) : after (ops (F := F)) (launchContents m d) t' = TabOf m d := by
  after_results; rfl
theorem after_x (d : Dev nD) : after (ops (F := F)) (launchContents m d) x' = XOf m d := by
  after_results; rfl
theorem after_o (d : Dev nD) : after (ops (F := F)) (launchContents m d) o' = m (oLoc d) := by
  after_results
theorem after_a (d : Dev nD) : after (ops (F := F)) (launchContents m d) a' = m (aLoc d) := by
  after_results
theorem after_w (d : Dev nD) : after (ops (F := F)) (launchContents m d) w' = m (wLoc d) := by
  after_results

/-- The five arrays the proof goes on with. -/
abbrev S5 : Finset (DevRef τ sig) := {t', x', o', a', w'}

omit [FloatOps F] in
theorem S5_sub : S5 ⊆ tcRefs τ sig := by
  intro b hb
  simp only [S5, Finset.mem_insert, Finset.mem_singleton] at hb
  rcases hb with rfl | rfl | rfl | rfl | rfl <;> exact devRef_mem_tcRefs _

omit [FloatOps F] in
theorem held_S5 (d : Dev nD) (W : Valuation τ sig (Elt F)) :
    (held (T d) S5 W : sProp 𝕄) = iprop((tLoc d ↦{fullShare} W t') ∗ (xLoc d ↦{fullShare} W x') ∗ (oLoc d ↦{fullShare} W o')
      ∗ (aLoc d ↦{fullShare} W a') ∗ (wLoc d ↦{fullShare} W w')) := by
  unfold held S5
  rw [SparseCore.bigSep_insert' (by decide), SparseCore.bigSep_insert' (by decide), SparseCore.bigSep_insert' (by decide),
    SparseCore.bigSep_insert' (by decide), bigSep_singleton]

/-- After the host operations: the pair table, the transposed atoms, and the result and the arguments as launched. -/
theorem held_after (d : Dev nD) :
    (held (T d) (tcRefs τ sig) (after (ops (F := F)) (launchContents m d)) : sProp 𝕄)
      ⊢ iprop((tLoc d ↦{fullShare} TabOf m d) ∗ (xLoc d ↦{fullShare} XOf m d) ∗ (oLoc d ↦{fullShare} m (oLoc d))
        ∗ (aLoc d ↦{fullShare} m (aLoc d)) ∗ (wLoc d ↦{fullShare} m (wLoc d))) := by
  rw [held_sub_split (T d) S5_sub, held_S5, after_t, after_x, after_o, after_a, after_w]
  exact sep_elim_left

/-! ## What the call takes for the two SparseCores, and what it hands back -/

theorem st0_eq (d : Dev nD) :
    (bigSep Finset.univ fun c : Fin ((K (F := F)).nCore 0) => (P m).st 0 d c)
      = iprop((bigSep Finset.univ fun c : Fin 2 => tLoc d ↦{Transfers.shareTok fullShare 2 c} TabOf m d)
          ∗ (bigSep Finset.univ fun c : Fin 2 => xLoc d ↦{Transfers.shareTok fullShare 2 c} XOf m d)
          ∗ (oLoc d ↦{fullShare} m (oLoc d))) := by
  show (bigSep (Finset.univ : Finset (Fin 2)) fun c => coreSt m d c) = _
  unfold coreSt
  rw [bigSep_sep', bigSep_sep', ← oPts_cores]

theorem dn0_eq (d : Dev nD) :
    (bigSep Finset.univ fun c : Fin ((K (F := F)).nCore 0) => (P m).dn 0 d c)
      = iprop((bigSep Finset.univ fun c : Fin 2 => tLoc d ↦{Transfers.shareTok fullShare 2 c} TabOf m d)
          ∗ (bigSep Finset.univ fun c : Fin 2 => xLoc d ↦{Transfers.shareTok fullShare 2 c} XOf m d)
          ∗ (oLoc d ↦{fullShare} OutOf m d)) := by
  show (bigSep (Finset.univ : Finset (Fin 2)) fun c => coreDn m d c) = _
  unfold coreDn
  rw [bigSep_sep', bigSep_sep', ← oPts_cores]

/-! ## @main on the TensorCore -/

set_option backward.isDefEq.respectTransparency.types false in
/-- @main on device d's TensorCore: the thirteen host operations as one line, then the call — the pair table and the
    transposed atoms lent to the two SparseCores as read shares, the result as its two halves —; the arguments kept,
    the result at the sums. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d (tcRefs τ sig) (fun _ => ((K (F := F)).run d 0 >>= fun _ => pure ⟨⟩)) ops ops_sub ops_fresh (launchContents m d)) $$ [Hb Hheld]
  · isplitl [Hb]; · iexact Hb
    iexact Hheld
  iintro ⟨Hb, Hheld⟩
  ihave Hh := (held_after m d) $$ Hheld
  icases Hh with ⟨Ht, Hx, Ho, Ha, Hw⟩
  ihave Ht' := (Transfers.pointsTo_toks_split fullShare 2) $$ Ht
  ihave Hx' := (Transfers.pointsTo_toks_split fullShare 2) $$ Hx
  icases Ht' with ⟨Htr, Hts⟩
  icases Hx' with ⟨Hxr, Hxs⟩
  simp only [wp_bind, wp_pure]
  iapply ((K (F := F)).wp_run (D (F := F)) 𝒱 (EH := EH) (P := P m) κ d 0) $$ [Hst Hts Hxs Ho Ha Hw]
  isplitr; · iexact Hctx
  isplitl [Hst]; · iexact Hst
  isplitl [Hts Hxs Ho]
  · rw [st0_eq]
    isplitl [Hts]; · iexact Hts
    isplitl [Hxs]; · iexact Hxs
    iexact Ho
  iintro ⟨Hst, Hdn⟩
  ihave Hdn' := (Entails.of_eq (dn0_eq m d)) $$ Hdn
  icases Hdn' with ⟨-, -, Ho⟩
  imodintro
  isplitl [Hst]; · iexact Hst
  isplitl [Ha]; · iexact Ha
  isplitl [Hw]; · iexact Hw
  iexact Ho

/-! ## The program's run -/

/-- Every weakly fair execution of the device's threads ends, the result holding the sums and the arguments unchanged;
    from each task's run and the atoms' range. -/
theorem run_main [∀ e, Nonempty (Elt F e)] (h : TileBody m) (hX : ∀ d i, (XOf m d i).toNat < 100) :
    θ_run (Cert.KernelIdeal.defs (F := F)) (Cert.KernelIdeal.threads (F := F)) ⟨m, fun _ => 0, ρ⟩
      (fun r => ∀ c : Dev nD, r.2.mem (oLoc c) = OutOf m c ∧ r.2.mem (aLoc c) = m (aLoc c) ∧ r.2.mem (wLoc c) = m (wLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m h hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.XRange.lean ====
/-
  The transposed atoms stay in the atoms' range: the transpose of the atoms' array holds at (l, b) the atom at
  (b, l), so a bound on every atom is a bound on every entry of the transpose.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals
import proofs.«203047_g89000312307883_cont_sun_c4_202_23_alg».proof.Proof.Pay
import proofs.«203047_g89000312307883_cont_sun_c4_202_23_alg».proof.Proof.TileStmt

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

variable [FloatOps F] (m : (ℓ : Loc nD τ sig) → Buf (Elt F) ℓ)

/-! ## The range of the transposed atoms -/

/-- The transposed atoms read at (l, b): the atoms at (b, l). -/
theorem xt_at (a : IVec S16384x200 32) (i : S200x16384.Idx) : xtOf a i = a (ValueIdx.ix2 (i 1) (i 0)) := by
  unfold xtOf
  exact transpose_apply _ a _ i _ fun c => match c with | ⟨0, _⟩ => rfl | ⟨1, _⟩ => rfl

/-- Every entry of the transpose is an entry of the atoms' array: a bound on all the atoms bounds all of the transpose. -/
theorem XOf_lt (h : ∀ d i, (m (aLoc d) i).toNat < 100) : ∀ d i, (XOf m d i).toNat < 100 := by
  intro d i
  show (xtOf (m (aLoc d)) i).toNat < 100
  rw [xt_at]
  exact h d _

end Cert.Proof.KI

end
-- ==== Proof.TileLemmas.lean ====
/-
  One table read of one trip. The sixteen lanes loaded from row r of a block at column c0 are that row's entries; when
  every entry of the block is below 100 the pair word is in range of the table; and the table read at the pair words,
  added to a running sum, is the next running sum.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals
import proofs.«203047_g89000312307883_cont_sun_c4_202_23_alg».proof.Proof.Pay
import Idealize.ShloMosaic.Lib.ValueLayout
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

variable [FloatOps F]

section Tile

variable (d : Dev nD) (L : grid0.Coords)

open Idealize.ShloMosaic.ValueIdx

omit [FloatOps F] in
/-- Sixteen lanes loaded from row r of the block at column c0 are that row's lanes. -/
theorem lane_rd1 (fb : Buf (Elt F) ((thrV d L).loc cc0_scratch1)) (r c0 : ℕ) (h : ∀ a, (![r, c0] : Fin 2 → ℕ) a + S1x16.size a ≤ S200x128.size a)
    (hc : S1x16.ShapeCasts S16) (hr : r < 200) (hc0 : c0 + 16 ≤ 128) :
    shapeCast S16 ((s1W).view.readAt (Elt F) (Rect.unit (s := S200x128) ![r, c0] S1x16.size h).toLoadRect fb) hc = laneRow fb r c0 := by
  funext x
  obtain ⟨i, rfl⟩ : ∃ i : Fin 16, x = ix1 i := ⟨x 0, eq_ix1 x⟩
  refine (shapeCast_1a_a_apply (a := 16) _ hc i).trans ?_
  unfold laneRow
  simp only [View.readAt_apply, Memref.view_whole, View.read_whole]
  congr 1
  funext a; apply Fin.ext
  match a with
  | ⟨0, _⟩ =>
    show r + 1 * 0 = r % 200
    rw [Nat.mod_eq_of_lt hr]; omega
  | ⟨1, _⟩ =>
    show c0 + 1 * i.val = (c0 + i.val) % 128
    have := i.isLt
    rw [Nat.mod_eq_of_lt (by omega)]; omega

omit [FloatOps F] in
/-- The check before a table read passes when every atom of the block is below 100. -/
theorem chk_rd1 (fb : Buf (Elt F) ((thrV d L).loc cc0_scratch1)) (hfb : ∀ y, (fb y).toNat < 100) (o1 o2 : Fin 2 → ℕ)
    (h1 : ∀ a, o1 a + S1x16.size a ≤ S200x128.size a) (h2 : ∀ a, o2 a + S1x16.size a ≤ S200x128.size a) (hc1 hc2 : S1x16.ShapeCasts S16) :
    ∀ a x, ((![addi (shapeCast S16 ((s1W).view.readAt (Elt F) (Rect.unit (s := S200x128) o1 S1x16.size h1).toLoadRect fb) hc1)
      (shli (shapeCast S16 ((s1W).view.readAt (Elt F) (Rect.unit (s := S200x128) o2 S1x16.size h2).toLoadRect fb) hc2) (broadcast S16 7#32))] : Fin 1 → IVec S16 32) a x).toNat < S16384.size a := by
  refine chk_small _ _ (fun x => ?_) (fun x => ?_)
  · unfold shapeCast; simp only [View.readAt_apply, Memref.view_whole, View.read_whole]; exact hfb _
  · unfold shapeCast; simp only [View.readAt_apply, Memref.view_whole, View.read_whole]; exact hfb _

/-- One table read of a trip adds that trip's looked-up pair sums. -/
theorem step_rd1 (T0 : Buf (Elt F) ((thrV d L).loc cc0_scratch0)) (fb : Buf (Elt F) ((thrV d L).loc cc0_scratch1)) (k c0 : ℕ) (o1 o2 : Fin 2 → ℕ)
    (h1 : ∀ a, o1 a + S1x16.size a ≤ S200x128.size a) (h2 : ∀ a, o2 a + S1x16.size a ≤ S200x128.size a) (hc1 hc2 : S1x16.ShapeCasts S16)
    (e1 : o1 = ![2 * k, c0]) (e2 : o2 = ![2 * k + 1, c0]) (hk : k < 100) (hc0 : c0 + 16 ≤ 128)
    (hh : ∀ a x, ((![addi (shapeCast S16 ((s1W).view.readAt (Elt F) (Rect.unit (s := S200x128) o1 S1x16.size h1).toLoadRect fb) hc1)
      (shli (shapeCast S16 ((s1W).view.readAt (Elt F) (Rect.unit (s := S200x128) o2 S1x16.size h2).toLoadRect fb) hc2) (broadcast S16 7#32))] : Fin 1 → IVec S16 32) a x).toNat < S16384.size a)
    (acc : FVec F S16 .f32) :
    addf acc (loadIdx ((s0W).view.readAt (Elt F) (LoadRect.whole S16384) T0)
        ![addi (shapeCast S16 ((s1W).view.readAt (Elt F) (Rect.unit (s := S200x128) o1 S1x16.size h1).toLoadRect fb) hc1)
          (shli (shapeCast S16 ((s1W).view.readAt (Elt F) (Rect.unit (s := S200x128) o2 S1x16.size h2).toLoadRect fb) hc2) (broadcast S16 7#32))] hh)
      = addf acc (gatV T0 fb k c0) := by
  subst e1 e2
  congr 1
  funext x
  have hx := hh 0 x
  revert hx hh
  rw [lane_rd1 d L fb (2 * k) c0 h1 hc1 (by omega) hc0, lane_rd1 d L fb (2 * k + 1) c0 h2 hc2 (by omega) hc0]
  intro hh hx
  unfold loadIdx idxAt gatV
  simp only [View.readAt_apply, Memref.view_whole, View.read_whole]
  congr 1
  funext a
  apply Fin.ext
  match a with
  | ⟨0, _⟩ =>
    show 0 + 1 * (combV fb k c0 x).toNat = (combV fb k c0 x).toNat % 16384
    have : (combV fb k c0 x).toNat < 16384 := hx
    omega

omit [FloatOps F] in
/-- Sixteen lanes loaded from row r of the block at column c0 are that row's lanes. -/
theorem lane_rd2 (fb : Buf (Elt F) ((thrV d L).loc cc0_scratch2)) (r c0 : ℕ) (h : ∀ a, (![r, c0] : Fin 2 → ℕ) a + S1x16.size a ≤ S200x128.size a)
    (hc : S1x16.ShapeCasts S16) (hr : r < 200) (hc0 : c0 + 16 ≤ 128) :
    shapeCast S16 ((s2W).view.readAt (Elt F) (Rect.unit (s := S200x128) ![r, c0] S1x16.size h).toLoadRect fb) hc = laneRow fb r c0 := by
  funext x
  obtain ⟨i, rfl⟩ : ∃ i : Fin 16, x = ix1 i := ⟨x 0, eq_ix1 x⟩
  refine (shapeCast_1a_a_apply (a := 16) _ hc i).trans ?_
  unfold laneRow
  simp only [View.readAt_apply, Memref.view_whole, View.read_whole]
  congr 1
  funext a; apply Fin.ext
  match a with
  | ⟨0, _⟩ =>
    show r + 1 * 0 = r % 200
    rw [Nat.mod_eq_of_lt hr]; omega
  | ⟨1, _⟩ =>
    show c0 + 1 * i.val = (c0 + i.val) % 128
    have := i.isLt
    rw [Nat.mod_eq_of_lt (by omega)]; omega

omit [FloatOps F] in
/-- The check before a table read passes when every atom of the block is below 100. -/
theorem chk_rd2 (fb : Buf (Elt F) ((thrV d L).loc cc0_scratch2)) (hfb : ∀ y, (fb y).toNat < 100) (o1 o2 : Fin 2 → ℕ)
    (h1 : ∀ a, o1 a + S1x16.size a ≤ S200x128.size a) (h2 : ∀ a, o2 a + S1x16.size a ≤ S200x128.size a) (hc1 hc2 : S1x16.ShapeCasts S16) :
    ∀ a x, ((![addi (shapeCast S16 ((s2W).view.readAt (Elt F) (Rect.unit (s := S200x128) o1 S1x16.size h1).toLoadRect fb) hc1)
      (shli (shapeCast S16 ((s2W).view.readAt (Elt F) (Rect.unit (s := S200x128) o2 S1x16.size h2).toLoadRect fb) hc2) (broadcast S16 7#32))] : Fin 1 → IVec S16 32) a x).toNat < S16384.size a := by
  refine chk_small _ _ (fun x => ?_) (fun x => ?_)
  · unfold shapeCast; simp only [View.readAt_apply, Memref.view_whole, View.read_whole]; exact hfb _
  · unfold shapeCast; simp only [View.readAt_apply, Memref.view_whole, View.read_whole]; exact hfb _

/-- One table read of a trip adds that trip's looked-up pair sums. -/
theorem step_rd2 (T0 : Buf (Elt F) ((thrV d L).loc cc0_scratch0)) (fb : Buf (Elt F) ((thrV d L).loc cc0_scratch2)) (k c0 : ℕ) (o1 o2 : Fin 2 → ℕ)
    (h1 : ∀ a, o1 a + S1x16.size a ≤ S200x128.size a) (h2 : ∀ a, o2 a + S1x16.size a ≤ S200x128.size a) (hc1 hc2 : S1x16.ShapeCasts S16)
    (e1 : o1 = ![2 * k, c0]) (e2 : o2 = ![2 * k + 1, c0]) (hk : k < 100) (hc0 : c0 + 16 ≤ 128)
    (hh : ∀ a x, ((![addi (shapeCast S16 ((s2W).view.readAt (Elt F) (Rect.unit (s := S200x128) o1 S1x16.size h1).toLoadRect fb) hc1)
      (shli (shapeCast S16 ((s2W).view.readAt (Elt F) (Rect.unit (s := S200x128) o2 S1x16.size h2).toLoadRect fb) hc2) (broadcast S16 7#32))] : Fin 1 → IVec S16 32) a x).toNat < S16384.size a)
    (acc : FVec F S16 .f32) :
    addf acc (loadIdx ((s0W).view.readAt (Elt F) (LoadRect.whole S16384) T0)
        ![addi (shapeCast S16 ((s2W).view.readAt (Elt F) (Rect.unit (s := S200x128) o1 S1x16.size h1).toLoadRect fb) hc1)
          (shli (shapeCast S16 ((s2W).view.readAt (Elt F) (Rect.unit (s := S200x128) o2 S1x16.size h2).toLoadRect fb) hc2) (broadcast S16 7#32))] hh)
      = addf acc (gatV T0 fb k c0) := by
  subst e1 e2
  congr 1
  funext x
  have hx := hh 0 x
  revert hx hh
  rw [lane_rd2 d L fb (2 * k) c0 h1 hc1 (by omega) hc0, lane_rd2 d L fb (2 * k + 1) c0 h2 hc2 (by omega) hc0]
  intro hh hx
  unfold loadIdx idxAt gatV
  simp only [View.readAt_apply, Memref.view_whole, View.read_whole]
  congr 1
  funext a
  apply Fin.ext
  match a with
  | ⟨0, _⟩ =>
    show 0 + 1 * (combV fb k c0 x).toNat = (combV fb k c0 x).toNat % 16384
    have : (combV fb k c0 x).toNat < 16384 := hx
    omega

end Tile

end Cert.Proof.KI

end
-- ==== Proof.ValEq.lean ====
/-
  The kernel's sixteen running sums against the specification's. A block of the transposed index array holds
  128 consecutive columns of it, starting at column cb. Lane x of the sixteen lanes starting at the block's column c0 is then
  molecule cb + c0 + x: its pair word at trip k is the specification's pair word of that molecule, and its
  running sum after k trips is the specification's sum of the first k pairs.
-/
import proofs.«203047_g89000312307883_cont_sun_c4_202_23_alg».proof.Proof.Spec
import proofs.«203047_g89000312307883_cont_sun_c4_202_23_alg».proof.Proof.Vals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx Cert.Proof.Spec

variable {F : FTy → Type} [FloatOps F]

/-- A lane's entry of a block's row is the transposed index array's entry at the lane's molecule. -/
theorem laneRow_eq (X : IVec S200x16384 32) (fb : IVec S200x128 32) (cb : ℕ) (hcb : cb + 128 ≤ 16384)
    (hfb : ∀ (r : Fin 200) (q : Fin 128), fb (ix2 r q) = X (ix2 r (⟨cb + q.val, by omega⟩ : Fin 16384)))
    (c0 : ℕ) (hc0 : c0 + 16 ≤ 128) (x : S16.Idx) (r : ℕ) :
    laneRow fb r c0 x
      = X (ix2 (⟨r % 200, Nat.mod_lt _ (by norm_num)⟩ : Fin 200)
          (⟨cb + c0 + (x 0).val, by have := (x 0).isLt; simp at this; omega⟩ : Fin 16384)) := by
  have hx : (x 0).val < 16 := (x 0).isLt
  unfold laneRow
  rw [hfb]
  refine congrArg (fun z : Fin 16384 => X (ix2 (⟨r % 200, Nat.mod_lt _ (by norm_num)⟩ : Fin 200) z)) (Fin.ext ?_)
  show cb + (c0 + (x 0).val) % 128 = cb + c0 + (x 0).val
  rw [Nat.mod_eq_of_lt (by omega)]
  omega

/-- A lane's pair word at trip k is the specification's pair word of the lane's molecule. -/
theorem combV_eq (X : IVec S200x16384 32) (fb : IVec S200x128 32) (cb : ℕ) (hcb : cb + 128 ≤ 16384)
    (hfb : ∀ (r : Fin 200) (q : Fin 128), fb (ix2 r q) = X (ix2 r (⟨cb + q.val, by omega⟩ : Fin 16384)))
    (c0 : ℕ) (hc0 : c0 + 16 ≤ 128) (x : S16.Idx) (k : ℕ) :
    combV fb k c0 x
      = pairWord X (⟨cb + c0 + (x 0).val, by have := (x 0).isLt; simp at this; omega⟩ : Fin 16384) k := by
  show IntOp.addi (laneRow fb (2 * k) c0 x) (IntOp.shli .vector (laneRow fb (2 * k + 1) c0 x) 7#32) = _
  rw [laneRow_eq X fb cb hcb hfb c0 hc0 x, laneRow_eq X fb cb hcb hfb c0 hc0 x]
  rfl

/-- A lane's running sum after k trips is the specification's sum of the first k pairs of the lane's molecule. -/
theorem accV_eq {F : FTy → Type} [FloatOps F] (Tab : FVec F S16384 .f32) (X : IVec S200x16384 32) (fb : IVec S200x128 32) (cb : ℕ) (hcb : cb + 128 ≤ 16384)
    (hfb : ∀ (r : Fin 200) (q : Fin 128), fb (ix2 r q) = X (ix2 r (⟨cb + q.val, by omega⟩ : Fin 16384)))
    (c0 : ℕ) (hc0 : c0 + 16 ≤ 128) (x : S16.Idx) (k : ℕ) :
    accV Tab fb c0 k x = pairSum Tab X (⟨cb + c0 + (x 0).val, by have := (x 0).isLt; simp at this; omega⟩ : Fin 16384) k := by
  induction k with
  | zero => rfl
  | succ k ih =>
    show FloatOps.addf (accV Tab fb c0 k x) (gatV Tab fb k c0 x) = _
    rw [ih]
    show FloatOps.addf _ (gatV Tab fb k c0 x) = FloatOps.addf _ (Tab (ix1 (⟨(pairWord X _ k).toNat % 16384, _⟩ : Fin 16384)))
    refine congrArg (FloatOps.addf _) ?_
    unfold gatV
    refine congrArg (fun z : Fin 16384 => Tab (ix1 z)) (Fin.ext ?_)
    show (combV fb k c0 x).toNat % 16384 = (pairWord X _ k).toNat % 16384
    rw [combV_eq X fb cb hcb hfb c0 hc0 x k]

end Cert.Proof.KI

end
-- ==== Proof.TileVals.lean ====
/-
  From blocks to the result. A block scratch filled from 128 columns of the transposed atoms holds exactly those
  columns; sixteen running sums after the hundredth trip are sixteen entries of the kernel's function (the fold of
  Spec.lean), placed where the task stores them; and the task's 512 entries, written from the out scratch, are the
  kernel's function on the task's slice of the result.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals
import proofs.«203047_g89000312307883_cont_sun_c4_202_23_alg».proof.Proof.Pay
import proofs.«203047_g89000312307883_cont_sun_c4_202_23_alg».proof.Proof.TileLemmas
import proofs.«203047_g89000312307883_cont_sun_c4_202_23_alg».proof.Proof.ValEq
import Idealize.ShloMosaic.Lib.ValueLayout
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

variable [FloatOps F] (m : (ℓ : Loc nD τ sig) → Buf (Elt F) ℓ)

section Tile

variable (d : Dev nD) (L : grid0.Coords)

open Idealize.ShloMosaic.ValueIdx Cert.Proof.Spec

omit [FloatOps F] in
/-- A block scratch filled from the 128 columns of the atoms starting at cb holds those columns. -/
theorem blk_val1 (X : Buf (Elt F) (xLoc d)) (off : Fin 2 → ℕ) (h : ∀ a, off a + S200x128.size a ≤ S200x16384.size a)
    (f1 : Buf (Elt F) ((thrV d L).loc cc0_scratch1)) (cb : ℕ) (hcb : cb + 128 ≤ 16384) (e : off = ![0, cb]) (r : Fin 200) (q : Fin 128) :
    View.write (Elt F) (s1W).view f1
        (ReadAs.same.apply (View.read (Elt F) ((xW).slice (Rect.unit (s := S200x16384) off S200x128.size h) (fun _ => rfl)).view X)) Finset.univ (ix2 r q)
      = X (ix2 r (⟨cb + q.val, by omega⟩ : Fin 16384)) := by
  subst e
  refine (congrFun (View.write_whole_univ (Val := Elt F) (cc0_scratch1 : Ref sig .scVector) f1 _) _).trans ?_
  show View.read (Elt F) ((xW).slice (Rect.unit (s := S200x16384) ![0, cb] S200x128.size h) (fun _ => rfl)).view X (ix2 r q) = _
  refine ((View.read_apply _ _).trans (cast_eq _ _)).trans ?_
  congr 1
  funext a; apply Fin.ext
  match a with
  | ⟨0, _⟩ => show 0 + 1 * r.val = r.val; omega
  | ⟨1, _⟩ => show cb + 1 * q.val = cb + q.val; omega

omit [FloatOps F] in
/-- A block scratch filled from the 128 columns of the atoms starting at cb holds those columns. -/
theorem blk_val2 (X : Buf (Elt F) (xLoc d)) (off : Fin 2 → ℕ) (h : ∀ a, off a + S200x128.size a ≤ S200x16384.size a)
    (f1 : Buf (Elt F) ((thrV d L).loc cc0_scratch2)) (cb : ℕ) (hcb : cb + 128 ≤ 16384) (e : off = ![0, cb]) (r : Fin 200) (q : Fin 128) :
    View.write (Elt F) (s2W).view f1
        (ReadAs.same.apply (View.read (Elt F) ((xW).slice (Rect.unit (s := S200x16384) off S200x128.size h) (fun _ => rfl)).view X)) Finset.univ (ix2 r q)
      = X (ix2 r (⟨cb + q.val, by omega⟩ : Fin 16384)) := by
  subst e
  refine (congrFun (View.write_whole_univ (Val := Elt F) (cc0_scratch2 : Ref sig .scVector) f1 _) _).trans ?_
  show View.read (Elt F) ((xW).slice (Rect.unit (s := S200x16384) ![0, cb] S200x128.size h) (fun _ => rfl)).view X (ix2 r q) = _
  refine ((View.read_apply _ _).trans (cast_eq _ _)).trans ?_
  congr 1
  funext a; apply Fin.ext
  match a with
  | ⟨0, _⟩ => show 0 + 1 * r.val = r.val; omega
  | ⟨1, _⟩ => show cb + 1 * q.val = cb + q.val; omega

/-- The target of a task's 512 entries, as a function of the entry's position in the slice starting at col0. -/
def G3 (Tab : FVec F S16384 .f32) (X : IVec S200x16384 32) (col0 : ℕ) : S512.Idx → F .f32 :=
  fun y => pairSum Tab X (⟨(col0 + (y 0).val) % 16384, Nat.mod_lt _ (by norm_num)⟩ : Fin 16384) 100

/-- Sixteen running sums stored at offset off of the out scratch are the target's entries there. -/
theorem piece_eq (Tab : FVec F S16384 .f32) (X : IVec S200x16384 32) (fb : IVec S200x128 32) (cb : ℕ) (hcb : cb + 128 ≤ 16384)
    (hfb : ∀ (r : Fin 200) (q : Fin 128), fb (ix2 r q) = X (ix2 r (⟨cb + q.val, by omega⟩ : Fin 16384)))
    (c0 : ℕ) (hc0 : c0 + 16 ≤ 128) (off : ℕ) (h : ∀ a, (![off] : Fin 1 → ℕ) a + S16.size a ≤ S512.size a) (col0 : ℕ)
    (e : col0 + off = cb + c0) (k : ℕ) (hk : k = 100) (x : S16.Idx) :
    accV Tab fb c0 k x = G3 Tab X col0 ((Rect.unit (s := S512) ![off] S16.size h).emb x) := by
  subst hk
  rw [accV_eq Tab X fb cb hcb hfb c0 hc0 x 100]
  unfold G3
  congr 1
  apply Fin.ext
  show cb + c0 + (x 0).val = (col0 + (off + 1 * (x 0).val)) % 16384
  have := (x 0).isLt
  simp at this
  rw [Nat.mod_eq_of_lt (by omega)]; omega

/-- The task's entries of the result, written whole from a vector that is the target, hold the kernel's function. -/
theorem out_congr (Tab : Buf (Elt F) (tLoc d)) (X : Buf (Elt F) (xLoc d)) (O₀ : Buf (Elt F) (oLoc d)) (w : S512.Idx → F .f32)
    (hw : ∀ y, w y = G3 Tab X (1024 * (L 1).val + 512 * (L 0).val) y) :
    ((oSlice L).view.loc (thrV d L) ↦[(oSlice L).view.set]{fullShare} (oSlice L).view.writes (Elt F) O₀ [⟨Rect.whole S512, w⟩] : sProp 𝕄)
      = ((oSlice L).view.loc (thrV d L) ↦[(oSlice L).view.set]{fullShare} (Spec.kerOut Tab X : Buf (Elt F) (oLoc d))) := by
  have h1 : (L 1).val < 16 := (L 1).isLt
  have h0 : (L 0).val < 2 := (L 0).isLt
  refine pointsTo_congr fun i hi => ?_
  obtain ⟨y, -, rfl⟩ := Finset.mem_map.mp hi
  rw [View.writes_singleton]
  have ey : (oSlice L).view.emb y = ((oSlice L).view.slice (Rect.whole S512)).emb y := by
    rw [View.emb_slice]; show _ = (oSlice L).view.emb ((Rect.whole S512).emb y); rw [Rect.emb_whole_apply]
  rw [ey, View.write_emb_of_mem _ _ (Finset.mem_univ _)]
  refine (cast_eq _ _).trans ?_
  rw [hw y]
  unfold G3 Spec.kerOut
  congr 1
  apply Fin.ext
  rw [← ey]
  show (1024 * (L 1).val + 512 * (L 0).val + (y 0).val) % 16384 = (k0_off67 L) 0 + 1 * (y 0).val
  rw [k0_off67_eq L]
  have := (y 0).isLt
  simp at this
  show _ = 1024 * (L 1).val + 512 * (L 0).val + 1 * (y 0).val
  rw [Nat.mod_eq_of_lt (by omega)]; omega

end Tile

end Cert.Proof.KI

end
-- ==== Proof.TileCore.lean ====
/-
  One task's run. The pair table is copied whole into the task's scratch and the copy waited for. The task's 512
  molecules are four blocks of 128; two block scratches alternate, each with its own semaphore: block n+1's copy is
  started before block n's is waited for, a block scratch is read only after the wait on its semaphore, and it is
  overwritten (by block n+2's copy) only after the loop that read it has ended, so no copy and no load meet. Each block
  is summed by a loop of a hundred trips carrying eight vectors of sixteen running sums (the invariant: after k trips
  they are the k-pair partial sums); the eight vectors are stored into the out scratch at the block's offset; after the
  fourth block the out scratch is copied to the task's slice of the result and the copy waited for. Every check before
  a table read passes because the atoms are below 100.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals
import proofs.«203047_g89000312307883_cont_sun_c4_202_23_alg».proof.Proof.Pay
import proofs.«203047_g89000312307883_cont_sun_c4_202_23_alg».proof.Proof.TileLemmas
import proofs.«203047_g89000312307883_cont_sun_c4_202_23_alg».proof.Proof.TileVals
import proofs.«203047_g89000312307883_cont_sun_c4_202_23_alg».proof.Proof.TileStmt
import Idealize.ShloMosaic.Lib.ValueLayout
import Idealize.ShloMosaic.Lib.Ring
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

variable [FloatOps F] (m : (ℓ : Loc nD τ sig) → Buf (Elt F) ℓ)

section Tile

variable (d : Dev nD) (L : grid0.Coords)

open Idealize.ShloMosaic.ValueIdx Cert.Proof.Spec
set_option maxHeartbeats 4000000

/-- Between trips of a loop over the first block scratch: the table copy and the block in place, the eight running sums at trip k. -/
def inv1 (T0 : Buf (Elt F) ((thrV d L).loc cc0_scratch0)) (fb : Buf (Elt F) ((thrV d L).loc cc0_scratch1)) (k : Nat) (st : FVec F S16 .f32 × FVec F S16 .f32 × FVec F S16 .f32 × FVec F S16 .f32 × FVec F S16 .f32 × FVec F S16 .f32 × FVec F S16 .f32 × FVec F S16 .f32) : sProp 𝕄 :=
  iprop(((s0W).view.loc (thrV d L) ↦{fullShare} T0) ∗ ((s1W).view.loc (thrV d L) ↦{fullShare} fb)
    ∗ ⌜st = (accV T0 fb 0 k, accV T0 fb 16 k, accV T0 fb 32 k, accV T0 fb 48 k, accV T0 fb 64 k, accV T0 fb 80 k, accV T0 fb 96 k, accV T0 fb 112 k)⌝)

/-- The same over the second block scratch. -/
def inv2 (T0 : Buf (Elt F) ((thrV d L).loc cc0_scratch0)) (fb : Buf (Elt F) ((thrV d L).loc cc0_scratch2)) (k : Nat) (st : FVec F S16 .f32 × FVec F S16 .f32 × FVec F S16 .f32 × FVec F S16 .f32 × FVec F S16 .f32 × FVec F S16 .f32 × FVec F S16 .f32 × FVec F S16 .f32) : sProp 𝕄 :=
  iprop(((s0W).view.loc (thrV d L) ↦{fullShare} T0) ∗ ((s2W).view.loc (thrV d L) ↦{fullShare} fb)
    ∗ ⌜st = (accV T0 fb 0 k, accV T0 fb 16 k, accV T0 fb 32 k, accV T0 fb 48 k, accV T0 fb 64 k, accV T0 fb 80 k, accV T0 fb 96 k, accV T0 fb 112 k)⌝)

omit [FloatOps F] in
theorem trips1 : k0_t1_loop.trips = 100 := by decide
omit [FloatOps F] in
theorem trips2 : k0_t2_loop.trips = 100 := by decide
omit [FloatOps F] in
theorem trips3 : k0_t3_loop.trips = 100 := by decide
omit [FloatOps F] in
theorem trips4 : k0_t4_loop.trips = 100 := by decide

/-- The task's run from its read shares, its slice of the result, its four scratches and four semaphores at zero (and a
    frame R it does not touch): it ends with the shares back, its slice holding the kernel's function, the scratches and
    semaphores back, and only waits of its own recorded. -/
theorem tile_core (O : CellTallies nD τ sig (HIx 1)) (W : Waits sig (HIx 1)) (hO : ∀ g, O g none = 0)
    (Tab : Buf (Elt F) (tLoc d)) (X : Buf (Elt F) (xLoc d)) (hX : ∀ i, (X i).toNat < 100) (O₀ : Buf (Elt F) (oLoc d)) (qt qx : PosShare TreeShare)
    (f0 : Buf (Elt F) ((thrV d L).loc cc0_scratch0)) (f1 : Buf (Elt F) ((thrV d L).loc cc0_scratch1))
    (f2 : Buf (Elt F) ((thrV d L).loc cc0_scratch2)) (f3 : Buf (Elt F) ((thrV d L).loc cc0_scratch3)) (R : sProp 𝕄) :
    iprop(levAts (K (F := F)).L (K (F := F)).lev
        ∗ ((tW).view.loc (thrV d L) ↦{qt} Tab)
        ∗ ((xW).view.loc (thrV d L) ↦{qx} X)
        ∗ ((oSlice L).view.loc (thrV d L) ↦[(oSlice L).view.set]{fullShare} O₀)
        ∗ ((s0W).view.loc (thrV d L) ↦{fullShare} f0)
        ∗ ((s1W).view.loc (thrV d L) ↦{fullShare} f1)
        ∗ ((s2W).view.loc (thrV d L) ↦{fullShare} f2)
        ∗ ((s3W).view.loc (thrV d L) ↦{fullShare} f3)
        ∗ semVal (sem0cell d L) 0 ∗ semVal (sem1cell d L) 0 ∗ semVal (sem2cell d L) 0 ∗ semVal (sem3cell d L) 0
        ∗ R ∗ owes (thrV d L) O W)
      ⊢ wp frame (wpE (defs₀ (F := F)) 𝒱₀ (thrV d L) none) Set.univ
          (cc0_k L xW (Memref.isWhole_whole _) tW (Memref.isWhole_whole _) oW (Memref.isWhole_whole _)
            s0W (Memref.isWhole_whole _) s1W (Memref.isWhole_whole _) s2W (Memref.isWhole_whole _) s3W (Memref.isWhole_whole _)
            cc0_scratch4 cc0_scratch5 cc0_scoped0 cc0_scoped1)
          fun _ => (iprop(((tW).view.loc (thrV d L) ↦{qt} Tab)
            ∗ ((xW).view.loc (thrV d L) ↦{qx} X)
            ∗ ((oSlice L).view.loc (thrV d L) ↦[(oSlice L).view.set]{fullShare} (Spec.kerOut Tab X : Buf (Elt F) (oLoc d)))
            ∗ (∃ f, (s0W).view.loc (thrV d L) ↦{fullShare} f)
            ∗ (∃ f, (s1W).view.loc (thrV d L) ↦{fullShare} f)
            ∗ (∃ f, (s2W).view.loc (thrV d L) ↦{fullShare} f)
            ∗ (∃ f, (s3W).view.loc (thrV d L) ↦{fullShare} f)
            ∗ semVal (sem0cell d L) 0 ∗ semVal (sem1cell d L) 0 ∗ semVal (sem2cell d L) 0 ∗ semVal (sem3cell d L) 0
            ∗ R ∗ ∃ W', ⌜∀ p ∈ W', p ∈ W ∨ p.2 = none⌝ ∗ owes (thrV d L) O W') : sProp 𝕄) := by
  have h1 : (L 1).val < 16 := (L 1).isLt
  have h0 : (L 0).val < 2 := (L 0).isLt
  sl_unfold [cc0_k]
  iintro ⟨#Hlv, Ht, Hx, Ho, H0, H1, H2, H3, Hs0, Hs1, Hs2, Hs3, HR, HO⟩
  ihave Hmw := ((K (F := F)).mayWaits_none (thr := thrV d L) hO) $$ Hlv
  sl_exec
  generalize hT0 : View.write (Elt F) (s0W).view f0 _ Finset.univ = T0
  generalize hb1 : View.write (Elt F) (s1W).view f1 _ Finset.univ = fb1
  generalize hb2 : View.write (Elt F) (s2W).view f2 _ Finset.univ = fb2
  have hv1 : ∀ (r : Fin 200) (q : Fin 128), fb1 (ix2 r q) = X (ix2 r (⟨(1024 * (L 1).val + 512 * (L 0).val) + q.val, by omega⟩ : Fin 16384)) := by
    intro r q; rw [← hb1]; exact blk_val1 d L X _ _ f1 (1024 * (L 1).val + 512 * (L 0).val) (by omega) (k0_off1_eq L) r q
  have hfb1 : ∀ y, (fb1 y).toNat < 100 := by
    intro y
    have e : y = ix2 (⟨(y 0).val, (y 0).isLt⟩ : Fin 200) (⟨(y 1).val, (y 1).isLt⟩ : Fin 128) := by
      funext a; match a with | ⟨0, _⟩ => rfl | ⟨1, _⟩ => rfl
    have hy := hv1 ⟨(y 0).val, (y 0).isLt⟩ ⟨(y 1).val, (y 1).isLt⟩
    rw [← e] at hy
    rw [hy]; exact hX _
  have hv2 : ∀ (r : Fin 200) (q : Fin 128), fb2 (ix2 r q) = X (ix2 r (⟨(1024 * (L 1).val + 512 * (L 0).val + 128 * 0 + 128) + q.val, by omega⟩ : Fin 16384)) := by
    intro r q; rw [← hb2]; exact blk_val2 d L X _ _ f2 (1024 * (L 1).val + 512 * (L 0).val + 128 * 0 + 128) (by omega) (k0_off2_eq L ⟨0, by decide⟩) r q
  have hfb2 : ∀ y, (fb2 y).toNat < 100 := by
    intro y
    have e : y = ix2 (⟨(y 0).val, (y 0).isLt⟩ : Fin 200) (⟨(y 1).val, (y 1).isLt⟩ : Fin 128) := by
      funext a; match a with | ⟨0, _⟩ => rfl | ⟨1, _⟩ => rfl
    have hy := hv2 ⟨(y 0).val, (y 0).isLt⟩ ⟨(y 1).val, (y 1).isLt⟩
    rw [← e] at hy
    rw [hy]; exact hX _
  sl_for (inv1 d L T0 fb1) $$ [H0 H1]
  case region =>
    intro k st
    have hk : k.val < 100 := lt_of_lt_of_le k.isLt k0_t1_abs.2.1
    unfold inv1
    iintro ⟨H0, H1, %hst⟩
    subst hst
    sl_exec (disch := exact chk_rd1 d L _ hfb1 _ _ _ _ _ _)
    repeat (rw [SparseCore.vectorLoadIdx_bind (thrV d L)]; sl_exec (disch := exact chk_rd1 d L _ hfb1 _ _ _ _ _ _))
    sl_step
    isplitl [H0]; · iexact H0
    isplitl [H1]; · iexact H1
    ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_))))))
    · exact step_rd1 d L _ _ k.val 0 _ _ _ _ _ _ ClosedOff.eq ClosedOff.eq hk (by norm_num) _ _
    · exact step_rd1 d L _ _ k.val 16 _ _ _ _ _ _ ClosedOff.eq ClosedOff.eq hk (by norm_num) _ _
    · exact step_rd1 d L _ _ k.val 32 _ _ _ _ _ _ ClosedOff.eq ClosedOff.eq hk (by norm_num) _ _
    · exact step_rd1 d L _ _ k.val 48 _ _ _ _ _ _ ClosedOff.eq ClosedOff.eq hk (by norm_num) _ _
    · exact step_rd1 d L _ _ k.val 64 _ _ _ _ _ _ ClosedOff.eq ClosedOff.eq hk (by norm_num) _ _
    · exact step_rd1 d L _ _ k.val 80 _ _ _ _ _ _ ClosedOff.eq ClosedOff.eq hk (by norm_num) _ _
    · exact step_rd1 d L _ _ k.val 96 _ _ _ _ _ _ ClosedOff.eq ClosedOff.eq hk (by norm_num) _ _
    · exact step_rd1 d L _ _ k.val 112 _ _ _ _ _ _ ClosedOff.eq ClosedOff.eq hk (by norm_num) _ _
  · unfold inv1
    isplitl [H0]; · iexact H0
    isplitl [H1]; · iexact H1
    ipureintro; rfl
  iintro %st HI
  unfold inv1
  icases HI with ⟨H0, H1, %hst⟩
  subst hst
  sl_exec
  generalize hb3 : View.write (Elt F) (s1W).view fb1 _ Finset.univ = fb3
  have hv3 : ∀ (r : Fin 200) (q : Fin 128), fb3 (ix2 r q) = X (ix2 r (⟨(1024 * (L 1).val + 512 * (L 0).val + 128 * 1 + 128) + q.val, by omega⟩ : Fin 16384)) := by
    intro r q; rw [← hb3]; exact blk_val1 d L X _ _ fb1 (1024 * (L 1).val + 512 * (L 0).val + 128 * 1 + 128) (by omega) (k0_off2_eq L ⟨1, by decide⟩) r q
  have hfb3 : ∀ y, (fb3 y).toNat < 100 := by
    intro y
    have e : y = ix2 (⟨(y 0).val, (y 0).isLt⟩ : Fin 200) (⟨(y 1).val, (y 1).isLt⟩ : Fin 128) := by
      funext a; match a with | ⟨0, _⟩ => rfl | ⟨1, _⟩ => rfl
    have hy := hv3 ⟨(y 0).val, (y 0).isLt⟩ ⟨(y 1).val, (y 1).isLt⟩
    rw [← e] at hy
    rw [hy]; exact hX _
  sl_for (inv2 d L T0 fb2) $$ [H0 H2]
  case region =>
    intro k st
    have hk : k.val < 100 := lt_of_lt_of_le k.isLt k0_t2_abs.2.1
    unfold inv2
    iintro ⟨H0, H2, %hst⟩
    subst hst
    sl_exec (disch := exact chk_rd2 d L _ hfb2 _ _ _ _ _ _)
    repeat (rw [SparseCore.vectorLoadIdx_bind (thrV d L)]; sl_exec (disch := exact chk_rd2 d L _ hfb2 _ _ _ _ _ _))
    sl_step
    isplitl [H0]; · iexact H0
    isplitl [H2]; · iexact H2
    ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_))))))
    · exact step_rd2 d L _ _ k.val 0 _ _ _ _ _ _ ClosedOff.eq ClosedOff.eq hk (by norm_num) _ _
    · exact step_rd2 d L _ _ k.val 16 _ _ _ _ _ _ ClosedOff.eq ClosedOff.eq hk (by norm_num) _ _
    · exact step_rd2 d L _ _ k.val 32 _ _ _ _ _ _ ClosedOff.eq ClosedOff.eq hk (by norm_num) _ _
    · exact step_rd2 d L _ _ k.val 48 _ _ _ _ _ _ ClosedOff.eq ClosedOff.eq hk (by norm_num) _ _
    · exact step_rd2 d L _ _ k.val 64 _ _ _ _ _ _ ClosedOff.eq ClosedOff.eq hk (by norm_num) _ _
    · exact step_rd2 d L _ _ k.val 80 _ _ _ _ _ _ ClosedOff.eq ClosedOff.eq hk (by norm_num) _ _
    · exact step_rd2 d L _ _ k.val 96 _ _ _ _ _ _ ClosedOff.eq ClosedOff.eq hk (by norm_num) _ _
    · exact step_rd2 d L _ _ k.val 112 _ _ _ _ _ _ ClosedOff.eq ClosedOff.eq hk (by norm_num) _ _
  · unfold inv2
    isplitl [H0]; · iexact H0
    isplitl [H2]; · iexact H2
    ipureintro; rfl
  iintro %st HI
  unfold inv2
  icases HI with ⟨H0, H2, %hst⟩
  subst hst
  sl_exec
  generalize hb4 : View.write (Elt F) (s2W).view fb2 _ Finset.univ = fb4
  have hv4 : ∀ (r : Fin 200) (q : Fin 128), fb4 (ix2 r q) = X (ix2 r (⟨(1024 * (L 1).val + 512 * (L 0).val + 128 * 2 + 128) + q.val, by omega⟩ : Fin 16384)) := by
    intro r q; rw [← hb4]; exact blk_val2 d L X _ _ fb2 (1024 * (L 1).val + 512 * (L 0).val + 128 * 2 + 128) (by omega) (k0_off2_eq L ⟨2, by decide⟩) r q
  have hfb4 : ∀ y, (fb4 y).toNat < 100 := by
    intro y
    have e : y = ix2 (⟨(y 0).val, (y 0).isLt⟩ : Fin 200) (⟨(y 1).val, (y 1).isLt⟩ : Fin 128) := by
      funext a; match a with | ⟨0, _⟩ => rfl | ⟨1, _⟩ => rfl
    have hy := hv4 ⟨(y 0).val, (y 0).isLt⟩ ⟨(y 1).val, (y 1).isLt⟩
    rw [← e] at hy
    rw [hy]; exact hX _
  sl_for (inv1 d L T0 fb3) $$ [H0 H1]
  case region =>
    intro k st
    have hk : k.val < 100 := lt_of_lt_of_le k.isLt k0_t3_abs.2.1
    unfold inv1
    iintro ⟨H0, H1, %hst⟩
    subst hst
    sl_exec (disch := exact chk_rd1 d L _ hfb3 _ _ _ _ _ _)
    repeat (rw [SparseCore.vectorLoadIdx_bind (thrV d L)]; sl_exec (disch := exact chk_rd1 d L _ hfb3 _ _ _ _ _ _))
    sl_step
    isplitl [H0]; · iexact H0
    isplitl [H1]; · iexact H1
    ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_))))))
    · exact step_rd1 d L _ _ k.val 0 _ _ _ _ _ _ ClosedOff.eq ClosedOff.eq hk (by norm_num) _ _
    · exact step_rd1 d L _ _ k.val 16 _ _ _ _ _ _ ClosedOff.eq ClosedOff.eq hk (by norm_num) _ _
    · exact step_rd1 d L _ _ k.val 32 _ _ _ _ _ _ ClosedOff.eq ClosedOff.eq hk (by norm_num) _ _
    · exact step_rd1 d L _ _ k.val 48 _ _ _ _ _ _ ClosedOff.eq ClosedOff.eq hk (by norm_num) _ _
    · exact step_rd1 d L _ _ k.val 64 _ _ _ _ _ _ ClosedOff.eq ClosedOff.eq hk (by norm_num) _ _
    · exact step_rd1 d L _ _ k.val 80 _ _ _ _ _ _ ClosedOff.eq ClosedOff.eq hk (by norm_num) _ _
    · exact step_rd1 d L _ _ k.val 96 _ _ _ _ _ _ ClosedOff.eq ClosedOff.eq hk (by norm_num) _ _
    · exact step_rd1 d L _ _ k.val 112 _ _ _ _ _ _ ClosedOff.eq ClosedOff.eq hk (by norm_num) _ _
  · unfold inv1
    isplitl [H0]; · iexact H0
    isplitl [H1]; · iexact H1
    ipureintro; rfl
  iintro %st HI
  unfold inv1
  icases HI with ⟨H0, H1, %hst⟩
  subst hst
  sl_exec
  sl_for (inv2 d L T0 fb4) $$ [H0 H2]
  case region =>
    intro k st
    have hk : k.val < 100 := lt_of_lt_of_le k.isLt k0_t4_abs.2.1
    unfold inv2
    iintro ⟨H0, H2, %hst⟩
    subst hst
    sl_exec (disch := exact chk_rd2 d L _ hfb4 _ _ _ _ _ _)
    repeat (rw [SparseCore.vectorLoadIdx_bind (thrV d L)]; sl_exec (disch := exact chk_rd2 d L _ hfb4 _ _ _ _ _ _))
    sl_step
    isplitl [H0]; · iexact H0
    isplitl [H2]; · iexact H2
    ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_))))))
    · exact step_rd2 d L _ _ k.val 0 _ _ _ _ _ _ ClosedOff.eq ClosedOff.eq hk (by norm_num) _ _
    · exact step_rd2 d L _ _ k.val 16 _ _ _ _ _ _ ClosedOff.eq ClosedOff.eq hk (by norm_num) _ _
    · exact step_rd2 d L _ _ k.val 32 _ _ _ _ _ _ ClosedOff.eq ClosedOff.eq hk (by norm_num) _ _
    · exact step_rd2 d L _ _ k.val 48 _ _ _ _ _ _ ClosedOff.eq ClosedOff.eq hk (by norm_num) _ _
    · exact step_rd2 d L _ _ k.val 64 _ _ _ _ _ _ ClosedOff.eq ClosedOff.eq hk (by norm_num) _ _
    · exact step_rd2 d L _ _ k.val 80 _ _ _ _ _ _ ClosedOff.eq ClosedOff.eq hk (by norm_num) _ _
    · exact step_rd2 d L _ _ k.val 96 _ _ _ _ _ _ ClosedOff.eq ClosedOff.eq hk (by norm_num) _ _
    · exact step_rd2 d L _ _ k.val 112 _ _ _ _ _ _ ClosedOff.eq ClosedOff.eq hk (by norm_num) _ _
  · unfold inv2
    isplitl [H0]; · iexact H0
    isplitl [H2]; · iexact H2
    ipureintro; rfl
  iintro %st HI
  unfold inv2
  icases HI with ⟨H0, H2, %hst⟩
  subst hst
  sl_exec
  have hw : ∀ y, tile_core.sl.dma16_2 d L f3 T0 fb1 fb2 fb3 fb4 y = G3 Tab X (1024 * (L 1).val + 512 * (L 0).val) y := by
    intro y
    have hT : T0 = Tab := by
      rw [← hT0]
      exact (View.write_whole_univ (Val := Elt F) (cc0_scratch0 : Ref sig .scVector) f0 _)
    subst hT
    refine View.read_writes_apply_of_pieces (v := (s3W).view) (f := f3) (G3 T0 X (1024 * (L 1).val + 512 * (L 0).val)) _ ?_ y ?_
    · unfold tile_core.sl.H3_32
      simp only [List.forall_mem_cons, List.forall_mem_nil, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      · exact piece_eq T0 X fb4 (1024 * (L 1).val + 512 * (L 0).val + 128 * 2 + 128) (by omega) hv4 112 (by norm_num) 496 _ (1024 * (L 1).val + 512 * (L 0).val) (by omega) _ trips4
      · exact piece_eq T0 X fb4 (1024 * (L 1).val + 512 * (L 0).val + 128 * 2 + 128) (by omega) hv4 96 (by norm_num) 480 _ (1024 * (L 1).val + 512 * (L 0).val) (by omega) _ trips4
      · exact piece_eq T0 X fb4 (1024 * (L 1).val + 512 * (L 0).val + 128 * 2 + 128) (by omega) hv4 80 (by norm_num) 464 _ (1024 * (L 1).val + 512 * (L 0).val) (by omega) _ trips4
      · exact piece_eq T0 X fb4 (1024 * (L 1).val + 512 * (L 0).val + 128 * 2 + 128) (by omega) hv4 64 (by norm_num) 448 _ (1024 * (L 1).val + 512 * (L 0).val) (by omega) _ trips4
      · exact piece_eq T0 X fb4 (1024 * (L 1).val + 512 * (L 0).val + 128 * 2 + 128) (by omega) hv4 48 (by norm_num) 432 _ (1024 * (L 1).val + 512 * (L 0).val) (by omega) _ trips4
      · exact piece_eq T0 X fb4 (1024 * (L 1).val + 512 * (L 0).val + 128 * 2 + 128) (by omega) hv4 32 (by norm_num) 416 _ (1024 * (L 1).val + 512 * (L 0).val) (by omega) _ trips4
      · exact piece_eq T0 X fb4 (1024 * (L 1).val + 512 * (L 0).val + 128 * 2 + 128) (by omega) hv4 16 (by norm_num) 400 _ (1024 * (L 1).val + 512 * (L 0).val) (by omega) _ trips4
      · exact piece_eq T0 X fb4 (1024 * (L 1).val + 512 * (L 0).val + 128 * 2 + 128) (by omega) hv4 0 (by norm_num) 384 _ (1024 * (L 1).val + 512 * (L 0).val) (by omega) _ trips4
      · exact piece_eq T0 X fb3 (1024 * (L 1).val + 512 * (L 0).val + 128 * 1 + 128) (by omega) hv3 112 (by norm_num) 368 _ (1024 * (L 1).val + 512 * (L 0).val) (by omega) _ trips3
      · exact piece_eq T0 X fb3 (1024 * (L 1).val + 512 * (L 0).val + 128 * 1 + 128) (by omega) hv3 96 (by norm_num) 352 _ (1024 * (L 1).val + 512 * (L 0).val) (by omega) _ trips3
      · exact piece_eq T0 X fb3 (1024 * (L 1).val + 512 * (L 0).val + 128 * 1 + 128) (by omega) hv3 80 (by norm_num) 336 _ (1024 * (L 1).val + 512 * (L 0).val) (by omega) _ trips3
      · exact piece_eq T0 X fb3 (1024 * (L 1).val + 512 * (L 0).val + 128 * 1 + 128) (by omega) hv3 64 (by norm_num) 320 _ (1024 * (L 1).val + 512 * (L 0).val) (by omega) _ trips3
      · exact piece_eq T0 X fb3 (1024 * (L 1).val + 512 * (L 0).val + 128 * 1 + 128) (by omega) hv3 48 (by norm_num) 304 _ (1024 * (L 1).val + 512 * (L 0).val) (by omega) _ trips3
      · exact piece_eq T0 X fb3 (1024 * (L 1).val + 512 * (L 0).val + 128 * 1 + 128) (by omega) hv3 32 (by norm_num) 288 _ (1024 * (L 1).val + 512 * (L 0).val) (by omega) _ trips3
      · exact piece_eq T0 X fb3 (1024 * (L 1).val + 512 * (L 0).val + 128 * 1 + 128) (by omega) hv3 16 (by norm_num) 272 _ (1024 * (L 1).val + 512 * (L 0).val) (by omega) _ trips3
      · exact piece_eq T0 X fb3 (1024 * (L 1).val + 512 * (L 0).val + 128 * 1 + 128) (by omega) hv3 0 (by norm_num) 256 _ (1024 * (L 1).val + 512 * (L 0).val) (by omega) _ trips3
      · exact piece_eq T0 X fb2 (1024 * (L 1).val + 512 * (L 0).val + 128 * 0 + 128) (by omega) hv2 112 (by norm_num) 240 _ (1024 * (L 1).val + 512 * (L 0).val) (by omega) _ trips2
      · exact piece_eq T0 X fb2 (1024 * (L 1).val + 512 * (L 0).val + 128 * 0 + 128) (by omega) hv2 96 (by norm_num) 224 _ (1024 * (L 1).val + 512 * (L 0).val) (by omega) _ trips2
      · exact piece_eq T0 X fb2 (1024 * (L 1).val + 512 * (L 0).val + 128 * 0 + 128) (by omega) hv2 80 (by norm_num) 208 _ (1024 * (L 1).val + 512 * (L 0).val) (by omega) _ trips2
      · exact piece_eq T0 X fb2 (1024 * (L 1).val + 512 * (L 0).val + 128 * 0 + 128) (by omega) hv2 64 (by norm_num) 192 _ (1024 * (L 1).val + 512 * (L 0).val) (by omega) _ trips2
      · exact piece_eq T0 X fb2 (1024 * (L 1).val + 512 * (L 0).val + 128 * 0 + 128) (by omega) hv2 48 (by norm_num) 176 _ (1024 * (L 1).val + 512 * (L 0).val) (by omega) _ trips2
      · exact piece_eq T0 X fb2 (1024 * (L 1).val + 512 * (L 0).val + 128 * 0 + 128) (by omega) hv2 32 (by norm_num) 160 _ (1024 * (L 1).val + 512 * (L 0).val) (by omega) _ trips2
      · exact piece_eq T0 X fb2 (1024 * (L 1).val + 512 * (L 0).val + 128 * 0 + 128) (by omega) hv2 16 (by norm_num) 144 _ (1024 * (L 1).val + 512 * (L 0).val) (by omega) _ trips2
      · exact piece_eq T0 X fb2 (1024 * (L 1).val + 512 * (L 0).val + 128 * 0 + 128) (by omega) hv2 0 (by norm_num) 128 _ (1024 * (L 1).val + 512 * (L 0).val) (by omega) _ trips2
      · exact piece_eq T0 X fb1 (1024 * (L 1).val + 512 * (L 0).val) (by omega) hv1 112 (by norm_num) 112 _ (1024 * (L 1).val + 512 * (L 0).val) (by omega) _ trips1
      · exact piece_eq T0 X fb1 (1024 * (L 1).val + 512 * (L 0).val) (by omega) hv1 96 (by norm_num) 96 _ (1024 * (L 1).val + 512 * (L 0).val) (by omega) _ trips1
      · exact piece_eq T0 X fb1 (1024 * (L 1).val + 512 * (L 0).val) (by omega) hv1 80 (by norm_num) 80 _ (1024 * (L 1).val + 512 * (L 0).val) (by omega) _ trips1
      · exact piece_eq T0 X fb1 (1024 * (L 1).val + 512 * (L 0).val) (by omega) hv1 64 (by norm_num) 64 _ (1024 * (L 1).val + 512 * (L 0).val) (by omega) _ trips1
      · exact piece_eq T0 X fb1 (1024 * (L 1).val + 512 * (L 0).val) (by omega) hv1 48 (by norm_num) 48 _ (1024 * (L 1).val + 512 * (L 0).val) (by omega) _ trips1
      · exact piece_eq T0 X fb1 (1024 * (L 1).val + 512 * (L 0).val) (by omega) hv1 32 (by norm_num) 32 _ (1024 * (L 1).val + 512 * (L 0).val) (by omega) _ trips1
      · exact piece_eq T0 X fb1 (1024 * (L 1).val + 512 * (L 0).val) (by omega) hv1 16 (by norm_num) 16 _ (1024 * (L 1).val + 512 * (L 0).val) (by omega) _ trips1
      · exact piece_eq T0 X fb1 (1024 * (L 1).val + 512 * (L 0).val) (by omega) hv1 0 (by norm_num) 0 _ (1024 * (L 1).val + 512 * (L 0).val) (by omega) _ trips1
      · intro x hx; cases hx
    · exact View.cover_of_tiledL _ ![16] (by sl_kernel_rfl) y
  sl_step
  isplitl [Ht]; · iexact Ht
  isplitl [Hx]; · iexact Hx
  isplitl [Ho]
  · iapply (Entails.of_eq (out_congr d L Tab X O₀ _ hw)); iexact Ho
  isplitl [H0]; · iexists _; iexact H0
  isplitl [H1]; · iexists _; iexact H1
  isplitl [H2]; · iexists _; iexact H2
  isplitl [H3]; · iexists _; iexact H3
  isplitl [Hs0]; · iexact Hs0
  isplitl [Hs1]; · iexact Hs1
  isplitl [Hs2]; · iexact Hs2
  isplitl [Hs3]; · iexact Hs3
  isplitl [HR]; · iexact HR
  iexists _; isplitr
  rotate_left
  · iexact HO
  · ipureintro; intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact .inl hp

end Tile

end Cert.Proof.KI

end
-- ==== Proof.Tile.lean ====
/-
  The task's run stated as the launch asks it: the task's own four scratches and four semaphores are taken out of the
  subcore's scoped storage, the run of TileCore.lean is applied, and everything is handed back.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.KernelIdeal
import proofs.«203047_g89000312307883_cont_sun_c4_202_23_alg».proof.Proof.Gen.KernelIdeal.Skeleton
import proofs.«203047_g89000312307883_cont_sun_c4_202_23_alg».proof.Proof.Spec
import proofs.«203047_g89000312307883_cont_sun_c4_202_23_alg».proof.Proof.Glue
import proofs.«203047_g89000312307883_cont_sun_c4_202_23_alg».proof.Proof.Base
import proofs.«203047_g89000312307883_cont_sun_c4_202_23_alg».proof.Proof.Vals
import proofs.«203047_g89000312307883_cont_sun_c4_202_23_alg».proof.Proof.Pay
import proofs.«203047_g89000312307883_cont_sun_c4_202_23_alg».proof.Proof.TileLemmas
import proofs.«203047_g89000312307883_cont_sun_c4_202_23_alg».proof.Proof.TileVals
import proofs.«203047_g89000312307883_cont_sun_c4_202_23_alg».proof.Proof.TileStmt
import proofs.«203047_g89000312307883_cont_sun_c4_202_23_alg».proof.Proof.TileCore
import Idealize.ShloMosaic.Lib.ValueLayout
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.KernelIdeal.main_v10_scv : Memref Cert.KernelIdeal.sig Kind.scVector Space.hbm Cert.KernelIdeal.S200x16384 EltTy.i32)
local notation "tW" => (Memref.whole Cert.KernelIdeal.main_v9_scv : Memref Cert.KernelIdeal.sig Kind.scVector Space.hbm Cert.KernelIdeal.S16384 EltTy.f32)
local notation "oW" => (Memref.whole Cert.KernelIdeal.main_v11_scv : Memref Cert.KernelIdeal.sig Kind.scVector Space.hbm Cert.KernelIdeal.S16384 EltTy.f32)
local notation "s0W" => (Memref.whole Cert.KernelIdeal.cc0_scratch0 : Memref Cert.KernelIdeal.sig Kind.scVector Space.vmem Cert.KernelIdeal.S16384 EltTy.f32)
local notation "s1W" => (Memref.whole Cert.KernelIdeal.cc0_scratch1 : Memref Cert.KernelIdeal.sig Kind.scVector Space.vmem Cert.KernelIdeal.S200x128 EltTy.i32)
local notation "s2W" => (Memref.whole Cert.KernelIdeal.cc0_scratch2 : Memref Cert.KernelIdeal.sig Kind.scVector Space.vmem Cert.KernelIdeal.S200x128 EltTy.i32)
local notation "s3W" => (Memref.whole Cert.KernelIdeal.cc0_scratch3 : Memref Cert.KernelIdeal.sig Kind.scVector Space.vmem Cert.KernelIdeal.S512 EltTy.f32)

variable [FloatOps F] (m : (ℓ : Loc nD τ sig) → Buf (Elt F) ℓ)

section Tile

variable (d : Dev nD) (L : grid0.Coords)

open Idealize.ShloMosaic.ValueIdx Cert.Proof.Spec
set_option maxHeartbeats 1000000

/-! ## The task's own scratch and semaphores -/

/-- The subcore's other scoped cells, and its other buffers. -/
abbrev restCells : Finset (GSem nD τ sig) :=
  ((((ownCells (thrV d L)).erase (sem0cell d L)).erase (sem1cell d L)).erase (sem2cell d L)).erase (sem3cell d L)
abbrev restRefs : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

omit [FloatOps F] in
theorem ownSems0_V :
    (ownSems0 (thrV d L) : sProp 𝕄)
      = iprop(semVal (sem0cell d L) 0 ∗ semVal (sem1cell d L) 0 ∗ semVal (sem2cell d L) 0 ∗ semVal (sem3cell d L) 0
          ∗ bigSep (restCells d L) fun g => semVal g 0) := by
  unfold SparseCore.Cfg.ownSems0
  rw [SparseCore.bigSep_erase' ((mem_ownCells (g := sem0cell d L)).mpr ⟨rfl, by
      show (SemLoc.dma cc0_scratch4.sem : SemLoc sig).isScoped .scVector = true; decide⟩),
    SparseCore.bigSep_erase' (Finset.mem_erase.mpr ⟨by simp [sem0cell, sem1cell]; decide, (mem_ownCells (g := sem1cell d L)).mpr ⟨rfl, by
      show (SemLoc.dma cc0_scratch5.sem : SemLoc sig).isScoped .scVector = true; decide⟩⟩),
    SparseCore.bigSep_erase' (Finset.mem_erase.mpr ⟨by simp [sem1cell, sem2cell]; decide, Finset.mem_erase.mpr ⟨by simp [sem0cell, sem2cell]; decide,
      (mem_ownCells (g := sem2cell d L)).mpr ⟨rfl, by show (SemLoc.dma cc0_scoped0.sem : SemLoc sig).isScoped .scVector = true; decide⟩⟩⟩),
    SparseCore.bigSep_erase' (Finset.mem_erase.mpr ⟨by simp [sem2cell, sem3cell]; decide, Finset.mem_erase.mpr ⟨by simp [sem1cell, sem3cell]; decide,
      Finset.mem_erase.mpr ⟨by simp [sem0cell, sem3cell]; decide,
      (mem_ownCells (g := sem3cell d L)).mpr ⟨rfl, by show (SemLoc.dma cc0_scoped1.sem : SemLoc sig).isScoped .scVector = true; decide⟩⟩⟩⟩)]

omit [FloatOps F] in
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_t (q : PosShare TreeShare) (f : Buf (Elt F) (tLoc d)) :
    ((tW).view.loc (thrV d L) ↦{q} f : sProp 𝕄) = tLoc d ↦{q} f := by
  simp only [Memref.view_whole, View.set_whole]
omit [FloatOps F] in
theorem pts_x (q : PosShare TreeShare) (f : Buf (Elt F) (xLoc d)) :
    ((xW).view.loc (thrV d L) ↦{q} f : sProp 𝕄) = xLoc d ↦{q} f := by
  simp only [Memref.view_whole, View.set_whole]
omit [FloatOps F] in
theorem pts_o (f : Buf (Elt F) (oLoc d)) :
    ((oSlice L).view.loc (thrV d L) ↦[(oSlice L).view.set]{fullShare} f : sProp 𝕄) = oLoc d ↦[outSet L]{fullShare} f := rfl

/-- What the run leaves is what the launch asks back. -/
theorem post_conv (hF : (K (F := F)).Facts) (O : CellTallies nD τ sig (HIx 1)) (W : Waits sig (HIx 1)) :
    (iprop(((tW).view.loc (thrV d L) ↦{tokT L} TabOf m d)
        ∗ ((xW).view.loc (thrV d L) ↦{tokT L} XOf m d)
        ∗ ((oSlice L).view.loc (thrV d L) ↦[(oSlice L).view.set]{fullShare} (Spec.kerOut (TabOf m d) (XOf m d) : Buf (Elt F) (oLoc d)))
        ∗ (∃ f, (s0W).view.loc (thrV d L) ↦{fullShare} f)
        ∗ (∃ f, (s1W).view.loc (thrV d L) ↦{fullShare} f)
        ∗ (∃ f, (s2W).view.loc (thrV d L) ↦{fullShare} f)
        ∗ (∃ f, (s3W).view.loc (thrV d L) ↦{fullShare} f)
        ∗ semVal (sem0cell d L) 0 ∗ semVal (sem1cell d L) 0 ∗ semVal (sem2cell d L) 0 ∗ semVal (sem3cell d L) 0
        ∗ iprop((bigSep (restRefs L) fun b => iprop(∃ f, ((d, b) : Loc nD τ sig) ↦{fullShare} f)) ∗ bigSep (restCells d L) fun g => semVal g 0)
        ∗ ∃ W', ⌜∀ p ∈ W', p ∈ W ∨ p.2 = none⌝ ∗ owes (thrV d L) O W') : sProp 𝕄)
      ⊢ iprop(tileTd m d L ∗ scopedBufs (thrV d L) ∗ scopedSems0 (thrV d L) ∗ ∃ W', ⌜∀ p ∈ W', p ∈ W ∨ p.2 = none⌝ ∗ owes (thrV d L) O W') := by
  unfold tileTd OutOf
  rw [(K (F := F)).scopedBufs_V hF d (cV L) (jV L), SparseCore.Cfg.scopedSems0_V (Val := Elt F) d (cV L) (jV L), ownSems0_V, ownBufs_V]
  iintro ⟨Ht, Hx, Ho, ⟨%g0, H0⟩, ⟨%g1, H1⟩, ⟨%g2, H2⟩, ⟨%g3, H3⟩, Hs0, Hs1, Hs2, Hs3, ⟨Hbufs, Hsems⟩, HW⟩
  isplitl [Ht Hx Ho]
  · isplitl [Ht]; · iapply (Entails.of_eq (pts_t d L _ _)); iexact Ht
    isplitl [Hx]; · iapply (Entails.of_eq (pts_x d L _ _)); iexact Hx
    iapply (Entails.of_eq (pts_o d L _)); iexact Ho
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HW

/-- One task: the kernel function at its coordinates, from what the launch hands it to what the launch asks back. -/
theorem tile_body : TileBody m := by
  unfold TileBody
  intro d L hF hX O W hO
  generalize hQ : (fun (_ : PUnit) => (iprop(tileTd m d L ∗ scopedBufs (thrV d L) ∗ scopedSems0 (thrV d L)
    ∗ ∃ W', ⌜∀ p ∈ W', p ∈ W ∨ p.2 = none⌝ ∗ owes (thrV d L) O W') : sProp 𝕄)) = Q
  unfold tileGo
  rw [(K (F := F)).scopedBufs_V hF d (cV L) (jV L), SparseCore.Cfg.scopedSems0_V (Val := Elt F) d (cV L) (jV L), ownSems0_V, ownBufs_V]
  iintro ⟨#Hlv, -, ⟨Ht, Hx, Ho⟩, ⟨⟨%f0, H0⟩, ⟨%f1, H1⟩, ⟨%f2, H2⟩, ⟨%f3, H3⟩, Hbufs⟩, ⟨Hs0, Hs1, Hs2, Hs3, Hsems⟩, HO⟩
  subst hQ
  iapply ((tile_core d L O W hO (TabOf m d) (XOf m d) hX (m (oLoc d)) (tokT L) (tokT L) f0 f1 f2 f3 iprop((bigSep (restRefs L) fun b => iprop(∃ f, ((d, b) : Loc nD τ sig) ↦{fullShare} f)) ∗ bigSep (restCells d L) fun g => semVal g 0)).trans
    (wp_mono frame _ _ fun _ => post_conv m d L hF O W)) $$ [Ht Hx Ho H0 H1 H2 H3 Hs0 Hs1 Hs2 Hs3 Hbufs Hsems HO]
  isplitr; · iexact Hlv
  isplitl [Ht]; · iapply (Entails.of_eq (pts_t d L _ _).symm); iexact Ht
  isplitl [Hx]; · iapply (Entails.of_eq (pts_x d L _ _).symm); iexact Hx
  isplitl [Ho]; · iapply (Entails.of_eq (pts_o d L _).symm); iexact Ho
  isplitl [H0]; · iexact H0
  isplitl [H1]; · iexact H1
  isplitl [H2]; · iexact H2
  isplitl [H3]; · iexact H3
  isplitl [Hs0]; · iexact Hs0
  isplitl [Hs1]; · iexact Hs1
  isplitl [Hs2]; · iexact Hs2
  isplitl [Hs3]; · iexact Hs3
  isplitl [Hbufs Hsems]
  · isplitl [Hbufs]; · iexact Hbufs
    iexact Hsems
  iexact HO

end Tile

end Cert.Proof.KI

end
-- ==== Proof.KB.Glue.lean ====
/-
  The two arrays the kernel's host operations hand to the SparseCore call, as pure functions of the
  arguments, for any float instance: the pair table  T[128·i + j] = w128[j] + w128[i]  with w128 the hundred
  weights followed by twenty-eight zeros, and the atoms' array transposed.
-/
import proofs.«203047_g89000312307883_cont_sun_c4_202_23_alg».proof.Kernel
import proofs.«203047_g89000312307883_cont_sun_c4_202_23_alg».proof.Proof.Gen.Kernel

noncomputable section

namespace Cert.Proof.KB

open Idealize.ShloMosaic Cert.Kernel

variable {F : FTy → Type} [FloatOps F]

/-- The weights as a vector of 100. -/
def w100 (w : FVec F S100x1 .f32) : FVec F S100 .f32 := shapeCast S100 w Facts₀.shapeCasts_S100x1_S100

/-- The weights written over the head of 128 zeros. -/
def w128 (w : FVec F S100x1 .f32) : FVec F S128 .f32 :=
  Host.scatter scatter_S128_S1_S100_0_n_0_0 (fun _ b => b)
    (broadcastInDim S128 ![] Facts₀.bcast_S_S128 (constant S_ .f32 0x00000000#32))
    (broadcastInDim S1 ![] Facts₀.bcast_S_S1 (constantI S_ 32 0#32)) (w100 w)

/-- The table of pair sums, flattened row-major. -/
def tabOf (w : FVec F S100x1 .f32) : FVec F S16384 .f32 :=
  shapeCast S16384
    (addf (broadcastInDim S128x128 ![0, 1] Facts₀.bcast_S1x128_S128x128_0_1 (broadcastInDim S1x128 ![1] Facts₀.bcast_S128_S1x128_1 (w128 w)))
      (broadcastInDim S128x128 ![0, 1] Facts₀.bcast_S128x1_S128x128_0_1 (broadcastInDim S128x1 ![0] Facts₀.bcast_S128_S128x1_0 (w128 w))))
    Facts₀.shapeCasts_S128x128_S16384

/-- The atoms' array transposed. -/
def xtOf (a : IVec S16384x200 32) : IVec S200x16384 32 :=
  transpose S200x16384 [1, 0] a Facts₀.transposes_S16384x200_S200x16384_1_0

end Cert.Proof.KB

end
-- ==== Proof.KB.Base.lean ====
/-
  The program as the launch of its one SparseCore call reads it: the call's configuration, the body table, and the ghost
  state. Every transfer of this kernel is local to the task that starts it and is waited for by that same task, so the
  tasks signal nobody: beside the launch's own handshakes the ghost state is only the transfers' counters.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

end Cert.Proof.KB

end
-- ==== Proof.KB.Vals.lean ====
/-
  What a task computes, lane by lane. A block is 200 rows (atoms) by 128 columns (molecules) of atom indices. Trip k of the
  inner loop reads rows 2k and 2k+1 of sixteen columns, forms the word  even + (odd << 7)  and adds the table's entry at
  that word to the running sum of each of the sixteen columns. Atom indices below 100 make every such word less than
  128 · 128, the table's length.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import Idealize.ShloMosaic.Lib.ValueLayout
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx

variable {F : FTy → Type} [FloatOps F]

/-! ## What one trip of the inner loop adds -/

/-- Sixteen lanes of a block: row r, columns c0 … c0 + 15. -/
def laneRow (fb : IVec S200x128 32) (r c0 : ℕ) : IVec S16 32 :=
  fun x => fb (ix2 (⟨r % 200, Nat.mod_lt _ (by norm_num)⟩ : Fin 200) (⟨(c0 + (x 0).val) % 128, Nat.mod_lt _ (by norm_num)⟩ : Fin 128))

/-- The pair words of trip k for those lanes: the even row plus 128 times the odd row. -/
def combV (fb : IVec S200x128 32) (k c0 : ℕ) : IVec S16 32 :=
  addi (laneRow fb (2 * k) c0) (shli (laneRow fb (2 * k + 1) c0) (broadcast S16 7#32))

/-- The table read at the pair words. -/
def gatV (T0 : FVec F S16384 .f32) (fb : IVec S200x128 32) (k c0 : ℕ) : FVec F S16 .f32 :=
  fun x => T0 (ix1 (⟨(combV fb k c0 x).toNat % 16384, Nat.mod_lt _ (by norm_num)⟩ : Fin 16384))

/-- The sixteen running sums after k trips. -/
def accV (T0 : FVec F S16384 .f32) (fb : IVec S200x128 32) (c0 : ℕ) : ℕ → FVec F S16 .f32
  | 0 => k0_pay57
  | k + 1 => addf (accV T0 fb c0 k) (gatV T0 fb k c0)

/-- A pair word built from two atoms below 100 is below 128 · 128. -/
theorem word_lt (x y : BitVec 32) (hx : x.toNat < 100) (hy : y.toNat < 100) :
    (IntOp.addi x (IntOp.shli .vector y 7#32)).toNat < 16384 := by
  have e : IntOp.shli .vector y 7#32 = y <<< (7 : ℕ) := by
    unfold IntOp.shli; rw [if_pos (by decide)]; rfl
  rw [e]
  simp only [IntOp.addi, BitVec.toNat_add, BitVec.toNat_shiftLeft, Nat.shiftLeft_eq]
  norm_num
  omega

theorem chk_small (lo hi : IVec S16 32) (hlo : ∀ x, (lo x).toNat < 100) (hhi : ∀ x, (hi x).toNat < 100) :
    ∀ a x, ((![addi lo (shli hi (broadcast S16 7#32))] : Fin 1 → IVec S16 32) a x).toNat < S16384.size a := by
  intro a x
  obtain rfl : a = 0 := Subsingleton.elim _ _
  exact word_lt _ _ (hlo x) (hhi x)

end Cert.Proof.KB

end
-- ==== Proof.KB.Pay.lean ====
/-
  What the launch hands each SparseCore and each task, and takes back. The pair table and the transposed atoms are only
  read: each SparseCore gets a read share of both, each of its sixteen tasks a share of that. The result is written:
  task (core c, subcore s) owns the 512 entries from 1024·s + 512·c, the sixteen tasks of a core own that core's half,
  and the two halves are the whole result. A task returns its 512 entries holding the sums.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

/-- The transposed atoms, the pair table and the result, as locations of device d. -/
abbrev xLoc (d : Dev nD) : Loc nD τ sig := (SparseCore.T d).loc main_v10
abbrev tLoc (d : Dev nD) : Loc nD τ sig := (SparseCore.T d).loc main_v9
abbrev oLoc (d : Dev nD) : Loc nD τ sig := (SparseCore.T d).loc main_v11
abbrev aLoc (d : Dev nD) : Loc nD τ sig := (SparseCore.T d).loc main_arg0
abbrev wLoc (d : Dev nD) : Loc nD τ sig := (SparseCore.T d).loc main_arg1

/-- A task's grid coordinates from its SparseCore and vector subcore. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The task's slice of the result: 512 entries from 1024·(subcore) + 512·(core). -/
abbrev oSlice (L : grid0.Coords) : Memref sig .scVector .hbm S512 .f32 :=
  (oW).slice (Rect.unit (s := S16384) (k0_off67 L) S512.size (k0_off67_inb L)) (fun _ => rfl)

/-- The entries of the result the task at L writes. -/
abbrev outSet (L : grid0.Coords) : Finset S16384.Idx := (oSlice L).view.set

/-- The entries the sixteen tasks of SparseCore c write. -/
def coreSet (c : Fin 2) : Finset S16384.Idx := (Finset.univ : Finset (Fin 16)).biUnion fun i => outSet (coordsV c i)

/-- The read share of the table and of the atoms that the task at L is lent: the SparseCore's share of the whole, then the task's share of that. -/
def tokT (L : grid0.Coords) : PosShare TreeShare := Transfers.shareTokN (Transfers.shareTokN fullShare (L 0).val) (L 1).val

abbrev sem0cell (d : Dev nD) (L : grid0.Coords) : GSem nD τ sig := (thrV d L, .dma cc0_scratch4.sem)
abbrev sem1cell (d : Dev nD) (L : grid0.Coords) : GSem nD τ sig := (thrV d L, .dma cc0_scratch5.sem)
abbrev sem2cell (d : Dev nD) (L : grid0.Coords) : GSem nD τ sig := (thrV d L, .dma cc0_scoped0.sem)
abbrev sem3cell (d : Dev nD) (L : grid0.Coords) : GSem nD τ sig := (thrV d L, .dma cc0_scoped1.sem)

variable [FloatOps F] (m : (ℓ : Loc nD τ sig) → Buf (Elt F) ℓ)

/-- What the host operations leave in the pair table and the transposed atoms, and what the call leaves in the result. -/
def TabOf (d : Dev nD) : Buf (Elt F) (tLoc d) := tabOf (m (wLoc d))
def XOf (d : Dev nD) : Buf (Elt F) (xLoc d) := xtOf (m (aLoc d))
def OutOf (d : Dev nD) : Buf (Elt F) (oLoc d) := Spec.kerOut (TabOf m d) (XOf m d)

/-- What a task is handed: read shares of the table and of the atoms, and its 512 entries of the result; and what it hands back: the same, its entries holding the sums. -/
def tileGo (d : Dev nD) (L : grid0.Coords) : sProp 𝕄 :=
  iprop((tLoc d ↦{tokT L} TabOf m d) ∗ (xLoc d ↦{tokT L} XOf m d) ∗ (oLoc d ↦[outSet L]{fullShare} m (oLoc d)))
def tileTd (d : Dev nD) (L : grid0.Coords) : sProp 𝕄 :=
  iprop((tLoc d ↦{tokT L} TabOf m d) ∗ (xLoc d ↦{tokT L} XOf m d) ∗ (oLoc d ↦[outSet L]{fullShare} OutOf m d))

/-- What a SparseCore is handed and hands back: its read shares, and its half of the result. -/
def coreSt (d : Dev nD) (c : Fin 2) : sProp 𝕄 :=
  iprop((tLoc d ↦{Transfers.shareTokN fullShare c.val} TabOf m d) ∗ (xLoc d ↦{Transfers.shareTokN fullShare c.val} XOf m d) ∗ (oLoc d ↦[coreSet c]{fullShare} m (oLoc d)))
def coreDn (d : Dev nD) (c : Fin 2) : sProp 𝕄 :=
  iprop((tLoc d ↦{Transfers.shareTokN fullShare c.val} TabOf m d) ∗ (xLoc d ↦{Transfers.shareTokN fullShare c.val} XOf m d) ∗ (oLoc d ↦[coreSet c]{fullShare} OutOf m d))

/-- The one call's payloads. -/
def P : (K (F := F)).Pay (nD := nD) (Val := Elt F) (Name := ℕ) (U := UU) where
  st := fun q d c => match q with | 0 => coreSt m d (Fin.cast nCore_zero c)
  dn := fun q d c => match q with | 0 => coreDn m d (Fin.cast nCore_zero c)
  go := fun q d c i => match q with | 0 => tileGo m d (coordsV (Fin.cast nCore_zero c) (Fin.cast nSub_zero i))
  td := fun q d c i => match q with | 0 => tileTd m d (coordsV (Fin.cast nCore_zero c) (Fin.cast nSub_zero i))
  x := fun _ _ => iprop(emp)

instance P_storable : (P (F := F) m).IsStorable where
  st q d c := match q with | 0 => by unfold P coreSt; infer_instance
  dn q d c := match q with | 0 => by unfold P coreDn; infer_instance
  go q d c i := match q with | 0 => by unfold P tileGo; infer_instance
  td q d c i := match q with | 0 => by unfold P tileTd; infer_instance

end Cert.Proof.KB

end
-- ==== Proof.KB.TileStmt.lean ====
/-
  The statement of one task's run, by itself, so that the launch and the task's proof can be read separately.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals
import proofs.«203047_g89000312307883_cont_sun_c4_202_23_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

variable [FloatOps F] (m : (ℓ : Loc nD τ sig) → Buf (Elt F) ℓ)

/-- What one task's run is required to do: from its read shares, its entries of the result, its own scratch and semaphores
    (and what it owes the launch), the kernel function at the task's coordinates ends with the shares back, its entries of
    the result holding the sums, the scratch and semaphores back, and nothing more owed. Stated for atoms below 100. -/
def TileBody : Prop :=
  ∀ (d : Dev nD) (L : grid0.Coords), (K (F := F)).Facts → (∀ i, (XOf m d i).toNat < 100) →
    ∀ (O : CellTallies nD τ sig (HIx 1)) (W : Waits sig (HIx 1)), (∀ g, O g none = 0) →
    iprop(levAts (K (F := F)).L (K (F := F)).lev ∗ emp ∗ tileGo m d L ∗ scopedBufs (thrV d L) ∗ scopedSems0 (thrV d L) ∗ owes (thrV d L) O W)
      ⊢ wp frame (wpE (defs₀ (F := F)) 𝒱₀ (thrV d L) none) Set.univ
          (cc0_k L xW (Memref.isWhole_whole _) tW (Memref.isWhole_whole _) oW (Memref.isWhole_whole _)
            s0W (Memref.isWhole_whole _) s1W (Memref.isWhole_whole _) s2W (Memref.isWhole_whole _) s3W (Memref.isWhole_whole _)
            cc0_scratch4 cc0_scratch5 cc0_scoped0 cc0_scoped1)
          fun _ => iprop(tileTd m d L ∗ scopedBufs (thrV d L) ∗ scopedSems0 (thrV d L) ∗ ∃ W', ⌜∀ p ∈ W', p ∈ W ∨ p.2 = none⌝ ∗ owes (thrV d L) O W')

end Cert.Proof.KB

end
-- ==== Proof.KB.LaunchSplit.lean ====
/-
  The launch of the SparseCore call, second part: how a SparseCore's operands split among its sixteen
  tasks and its results gather from theirs. The pair table and the transposed atoms are read-only: a
  SparseCore's read share of each is cut into a remainder, kept until the tasks return, and one share
  per task. The result is written: task (c, i) owns the 512 consecutive entries from 1024·i + 512·c,
  these are pairwise apart, a SparseCore's half is the union of its tasks' and the whole array the
  union of the two halves.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals
import proofs.«203047_g89000312307883_cont_sun_c4_202_23_alg».proof.Proof.KB.Pay
import proofs.«203047_g89000312307883_cont_sun_c4_202_23_alg».proof.Proof.KB.TileStmt

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

variable [FloatOps F] (m : (ℓ : Loc nD τ sig) → Buf (Elt F) ℓ)

/-! ## The tasks' entries of the result: 512 consecutive entries each, pairwise apart, covering all -/

omit [FloatOps F] in
theorem coordsV_zero (c : Fin 2) (i : Fin 16) : (coordsV c i) 0 = c := rfl
omit [FloatOps F] in
theorem coordsV_one (c : Fin 2) (i : Fin 16) : (coordsV c i) 1 = i := rfl

omit [FloatOps F] in
theorem outSet_eq (L : grid0.Coords) : outSet L = (Rect.unit (s := S16384) (k0_off67 L) S512.size (k0_off67_inb L)).set :=
  View.set_slice_whole _ _

omit [FloatOps F] in
/-- An entry is the task's iff it lies in the 512 from the task's offset. -/
theorem mem_outSet (c : Fin 2) (i : Fin 16) (o : S16384.Idx) :
    o ∈ outSet (coordsV c i) ↔ 1024 * i.val + 512 * c.val ≤ (o 0).val ∧ (o 0).val < 1024 * i.val + 512 * c.val + 512 := by
  rw [outSet_eq, Rect.mem_set_unit, k0_off67_eq, Fin.forall_fin_one]
  rfl

omit [FloatOps F] in
theorem outSet_disjoint (c c' : Fin 2) (i j : Fin 16) (h : c ≠ c' ∨ i ≠ j) : Disjoint (outSet (coordsV c i)) (outSet (coordsV c' j)) := by
  rw [Finset.disjoint_left]
  intro o h1 h2
  rw [mem_outSet] at h1 h2
  have hc : c.val ≠ c'.val ∨ i.val ≠ j.val := h.imp (fun h e => h (Fin.ext e)) (fun h e => h (Fin.ext e))
  have := c.isLt; have := c'.isLt
  omega

omit [FloatOps F] in
theorem tasks_disjoint (c : Fin 2) : ∀ i ∈ (Finset.univ : Finset (Fin 16)), ∀ j ∈ (Finset.univ : Finset (Fin 16)), i ≠ j →
    Disjoint (outSet (coordsV c i)) (outSet (coordsV c j)) :=
  fun i _ j _ h => outSet_disjoint c c i j (.inr h)

omit [FloatOps F] in
theorem cores_disjoint : ∀ c ∈ (Finset.univ : Finset (Fin 2)), ∀ c' ∈ (Finset.univ : Finset (Fin 2)), c ≠ c' → Disjoint (coreSet c) (coreSet c') := by
  intro c _ c' _ h
  unfold coreSet
  rw [Finset.disjoint_biUnion_left]
  intro i _
  rw [Finset.disjoint_biUnion_right]
  intro j _
  exact outSet_disjoint c c' i j (.inl h)

omit [FloatOps F] in
theorem cores_cover : (Finset.univ : Finset (Fin 2)).biUnion coreSet = (Finset.univ : Finset S16384.Idx) := by
  refine Finset.eq_univ_of_forall fun o => ?_
  have ho : (o 0).val < 16384 := (o 0).isLt
  have hi : (o 0).val / 1024 < 16 := by omega
  have hc : (o 0).val % 1024 / 512 < 2 := by omega
  refine Finset.mem_biUnion.mpr ⟨⟨(o 0).val % 1024 / 512, hc⟩, Finset.mem_univ _, Finset.mem_biUnion.mpr ⟨⟨(o 0).val / 1024, hi⟩, Finset.mem_univ _, ?_⟩⟩
  rw [mem_outSet]
  show 1024 * ((o 0).val / 1024) + 512 * ((o 0).val % 1024 / 512) ≤ _ ∧ _ < 1024 * ((o 0).val / 1024) + 512 * ((o 0).val % 1024 / 512) + 512
  omega

/-! ## The split of a SparseCore's operands among its sixteen tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A SparseCore's read share of an array is a remainder and one share per task. -/
theorem toks_tasks {ℓ : Loc nD τ sig} (c : Fin 2) (f : Buf (Elt F) ℓ) :
    (ℓ ↦{Transfers.shareTokN fullShare c.val} f : sProp 𝕄)
      ⊣⊢ iprop((ℓ ↦{Transfers.shareDrop (Transfers.shareTokN fullShare c.val) 16} f) ∗ bigSep Finset.univ fun i : Fin 16 => ℓ ↦{tokT (coordsV c i)} f) :=
  Transfers.pointsTo_toks (Transfers.shareTokN fullShare c.val) 16

omit [FloatOps F] in
/-- A SparseCore's half of the result is its sixteen tasks' entries. -/
theorem oPts_tasks (d : Dev nD) (c : Fin 2) (f : Buf (Elt F) (oLoc d)) :
    (oLoc d ↦[coreSet c]{fullShare} f : sProp 𝕄) = bigSep Finset.univ fun i : Fin 16 => oLoc d ↦[outSet (coordsV c i)]{fullShare} f := by
  unfold coreSet; exact pointsTo_biUnion Finset.univ _ (tasks_disjoint c)

theorem vecSplit : (K (F := F)).VecSplit' (P m) 0 := by
  intro d c
  show coreSt m d (Fin.cast nCore_zero c : Fin 2) ⊢ |={Set.univ}=> iprop(
      (bigSep Finset.univ fun i : Fin ((K (F := F)).nSub 0) => tileGo m d (coordsV (Fin.cast nCore_zero c : Fin 2) (Fin.cast nSub_zero i : Fin 16)))
      ∗ ((bigSep Finset.univ fun i : Fin ((K (F := F)).nSub 0) => tileTd m d (coordsV (Fin.cast nCore_zero c : Fin 2) (Fin.cast nSub_zero i : Fin 16)))
          -∗ coreDn m d (Fin.cast nCore_zero c : Fin 2)))
  generalize Fin.cast nCore_zero c = c'
  rw [bigSep_tasks (F := F) (fun i => tileGo m d (coordsV c' i)), bigSep_tasks (F := F) (fun i => tileTd m d (coordsV c' i))]
  unfold coreSt coreDn tileGo tileTd
  rw [bigSep_sep', bigSep_sep', bigSep_sep', bigSep_sep', oPts_tasks, oPts_tasks]
  iintro ⟨Ht, Hx, Ho⟩
  ihave Ht' := (toks_tasks c' (TabOf m d)).1 $$ Ht
  ihave Hx' := (toks_tasks c' (XOf m d)).1 $$ Hx
  icases Ht' with ⟨Htr, Hts⟩
  icases Hx' with ⟨Hxr, Hxs⟩
  imodintro
  isplitl [Hts Hxs Ho]
  · isplitl [Hts]; · iexact Hts
    isplitl [Hxs]; · iexact Hxs
    iexact Ho
  iintro ⟨Hts, Hxs, Ho⟩
  isplitl [Htr Hts]
  · iapply (toks_tasks c' (TabOf m d)).2
    isplitl [Htr]; · iexact Htr
    iexact Hts
  isplitl [Hxr Hxs]
  · iapply (toks_tasks c' (XOf m d)).2
    isplitl [Hxr]; · iexact Hxr
    iexact Hxs
  iexact Ho

omit [FloatOps F] in
/-- The whole result is the two SparseCores' halves. -/
theorem oPts_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]; try rfl

end Cert.Proof.KB

end
-- ==== Proof.KB.LaunchTile.lean ====
/-
  The launch of the SparseCore call, first part: the launch theorem's obligation for one task from the
  task's run; the launch element of the ghost state (the handshakes' rounds, the transfers' counters
  dropped); what @main leaves the claim (the arguments unchanged, the result at the sums) and how the
  final memory reads it.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals
import proofs.«203047_g89000312307883_cont_sun_c4_202_23_alg».proof.Proof.KB.Pay
import proofs.«203047_g89000312307883_cont_sun_c4_202_23_alg».proof.Proof.KB.TileStmt

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

variable [FloatOps F] (m : (ℓ : Loc nD τ sig) → Buf (Elt F) ℓ) (ρ : Dev nD → PrngReg)

/-! ## The task's obligation -/

theorem defs₀_vector (c : Fin τ.nSC) (s : Fin τ.nSub) :
    defs₀ (F := F) (.scVector c s) 0 ()
      = SparseCore.onTile hcore0 hsub0 (fun c s => cc0_k (coordsV c s)
          xW (Memref.isWhole_whole _) tW (Memref.isWhole_whole _) oW (Memref.isWhole_whole _)
          s0W (Memref.isWhole_whole _) s1W (Memref.isWhole_whole _) s2W (Memref.isWhole_whole _) s3W (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for a task, from the task's run. -/
theorem tileObl (h : TileBody m) (hX : ∀ d i, (XOf m d i).toNat < 100) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (h d (coordsV ⟨_, hc.1⟩ ⟨_, hc.2⟩) facts (hX d) O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim, and how the final memory reads it -/

/-- The arguments at their launch contents and the result at the sums. -/
abbrev FIN (d : Dev nD) : sProp 𝕄 :=
  iprop((aLoc d ↦{fullShare} m (aLoc d)) ∗ (wLoc d ↦{fullShare} m (wLoc d)) ∗ (oLoc d ↦{fullShare} OutOf m d))

def fq (d : Dev nD) (s' : Phys nD τ sig (Elt F)) : Prop :=
  s'.mem.mem (oLoc d) = OutOf m d ∧ s'.mem.mem (aLoc d) = m (aLoc d) ∧ s'.mem.mem (wLoc d) = m (wLoc d)

theorem hfin (d : Dev nD) (s' : Phys nD τ sig (Elt F)) : iprop(FIN m d ∗ SI s') ⊢ (⌜fq m d s'⌝ : sProp 𝕄) := by
  iintro ⟨⟨Ha, Hw, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := OutOf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop :=
  fun r => ∀ c : Dev nD, r.2.mem (oLoc c) = OutOf m c ∧ r.2.mem (aLoc c) = m (aLoc c) ∧ r.2.mem (wLoc c) = m (wLoc c)

end Cert.Proof.KB

end
-- ==== Proof.KB.Launch.lean ====
/-
  The launch of the SparseCore call, last part: @main on the TensorCore and the program's run. The thirteen
  host operations run as one line over all sixteen of the TensorCore's arrays; what they leave in the pair
  table and in the transposed atoms is read off as the pure functions of the arguments the tasks are stated
  over. The call lends the two SparseCores read shares of those two arrays and the two halves of the result,
  and takes them back with the result at the sums. The launch theorem then gives the run of all threads from
  each task's run.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals
import proofs.«203047_g89000312307883_cont_sun_c4_202_23_alg».proof.Proof.KB.Pay
import proofs.«203047_g89000312307883_cont_sun_c4_202_23_alg».proof.Proof.KB.TileStmt
import proofs.«203047_g89000312307883_cont_sun_c4_202_23_alg».proof.Proof.KB.LaunchSplit
import proofs.«203047_g89000312307883_cont_sun_c4_202_23_alg».proof.Proof.KB.LaunchTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

open Idealize.ShloMosaic.StableHlo

variable [FloatOps F] (m : (ℓ : Loc nD τ sig) → Buf (Elt F) ℓ) (ρ : Dev nD → PrngReg)

/-! ## @main's host operations as one line -/

/-- @main's thirteen host operations, in order. -/
abbrev ops : List (HloOp τ sig (Elt F)) :=
  [ StableHlo.reshape main_arg1 main_v0 rfl shapeCasts_S100x1_S100,
    StableHlo.nullary main_cst (constant S_ .f32 0x00000000#32),
    StableHlo.unary main_cst main_v1 (broadcastInDim S128 ![] bcast_S_S128 : (⟨S_, .f32⟩ : BufTy).Contents (Elt F) → (⟨S128, .f32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.ternary main_v1 main_v2 main_v0 main_v3 ((fun x i u => Host.scatter scatter_S128_S1_S100_0_n_0_0 (fun _ b => b) x i u) : (⟨S128, .f32⟩ : BufTy).Contents (Elt F) → (⟨S1, .i32⟩ : BufTy).Contents (Elt F) → (⟨S100, .f32⟩ : BufTy).Contents (Elt F) → (⟨S128, .f32⟩ : BufTy).Contents (Elt F)),
    StableHlo.unary main_v3 main_v4 (broadcastInDim S1x128 ![1] bcast_S128_S1x128_1 : (⟨S128, .f32⟩ : BufTy).Contents (Elt F) → (⟨S1x128, .f32⟩ : BufTy).Contents (Elt F)),
    StableHlo.unary main_v3 main_v5 (broadcastInDim S128x1 ![0] bcast_S128_S128x1_0 : (⟨S128, .f32⟩ : BufTy).Contents (Elt F) → (⟨S128x1, .f32⟩ : BufTy).Contents (Elt F)),
    StableHlo.unary main_v4 main_v6 (broadcastInDim S128x128 ![0, 1] bcast_S1x128_S128x128_0_1 : (⟨S1x128, .f32⟩ : BufTy).Contents (Elt F) → (⟨S128x128, .f32⟩ : BufTy).Contents (Elt F)),
    StableHlo.unary main_v5 main_v7 (broadcastInDim S128x128 ![0, 1] bcast_S128x1_S128x128_0_1 : (⟨S128x1, .f32⟩ : BufTy).Contents (Elt F) → (⟨S128x128, .f32⟩ : BufTy).Contents (Elt F)),
    StableHlo.binary main_v6 main_v7 main_v8 (addf : (⟨S128x128, .f32⟩ : BufTy).Contents (Elt F) → (⟨S128x128, .f32⟩ : BufTy).Contents (Elt F) → (⟨S128x128, .f32⟩ : BufTy).Contents (Elt F)),
    StableHlo.reshape main_v8 main_v9 rfl shapeCasts_S128x128_S16384,
    StableHlo.unary main_arg0 main_v10 ((transpose S200x16384 [1, 0] · transposes_S16384x200_S200x16384_1_0) : (⟨S16384x200, .i32⟩ : BufTy).Contents (Elt F) → (⟨S200x16384, .i32⟩ : BufTy).Contents (Elt F)) ]

theorem main_eq (d : Dev nD) :
    main (F := F) d = (StableHlo.seq ops >>= fun _ => ((K (F := F)).run d 0 >>= fun _ => pure ⟨⟩)) := rfl

theorem ops_sub : ∀ op ∈ (ops : List (HloOp τ sig (Elt F))), op.bufs ⊆ tcRefs τ sig :=
  List.forall_iff_forall_mem.1
    ⟨reshape_bufs_sub .., nullary_bufs_sub .., unary_bufs_sub .., nullary_bufs_sub .., unary_bufs_sub .., ternary_bufs_sub .., unary_bufs_sub ..,
      unary_bufs_sub .., unary_bufs_sub .., unary_bufs_sub .., binary_bufs_sub .., reshape_bufs_sub .., unary_bufs_sub ..⟩

theorem ops_fresh : ∀ op ∈ (ops : List (HloOp τ sig (Elt F))), op.fresh = ∅ := by
  intro _ h; (repeat (cases h with | head => rfl | tail _ h => ?_)); exact nomatch h

/-- The TensorCore's arrays at the launch, regrouped as one held set. -/
theorem unscoped_held (d : Dev nD) :
    (unscopedBufs d (fun b => m ((SparseCore.T d).loc b)) : sProp 𝕄) = held (T d) (tcRefs τ sig) (launchContents m d) := by
  unfold unscopedBufs held tcRefs
  rw [show (Finset.univ.filter fun b : Ref sig .tc => ¬ b.isScoped) = Finset.univ by decide, bigSep_map]; rfl

/-! ## What the host operations leave in the five arrays the proof goes on with -/

abbrev t' : DevRef τ sig := Proc.devRef .tc (main_v9 : Ref sig .tc)
abbrev x' : DevRef τ sig := Proc.devRef .tc (main_v10 : Ref sig .tc)
abbrev o' : DevRef τ sig := Proc.devRef .tc (main_v11 : Ref sig .tc)
abbrev a' : DevRef τ sig := Proc.devRef .tc (main_arg0 : Ref sig .tc)
abbrev w' : DevRef τ sig := Proc.devRef .tc (main_arg1 : Ref sig .tc)

theorem after_t (d : Dev nD) : after (ops (F := F)) (launchContents m d) t' = TabOf m d := by
  after_results; rfl
theorem after_x (d : Dev nD) : after (ops (F := F)) (launchContents m d) x' = XOf m d := by
  after_results; rfl
theorem after_o (d : Dev nD) : after (ops (F := F)) (launchContents m d) o' = m (oLoc d) := by
  after_results
theorem after_a (d : Dev nD) : after (ops (F := F)) (launchContents m d) a' = m (aLoc d) := by
  after_results
theorem after_w (d : Dev nD) : after (ops (F := F)) (launchContents m d) w' = m (wLoc d) := by
  after_results

/-- The five arrays the proof goes on with. -/
abbrev S5 : Finset (DevRef τ sig) := {t', x', o', a', w'}

omit [FloatOps F] in
theorem S5_sub : S5 ⊆ tcRefs τ sig := by
  intro b hb
  simp only [S5, Finset.mem_insert, Finset.mem_singleton] at hb
  rcases hb with rfl | rfl | rfl | rfl | rfl <;> exact devRef_mem_tcRefs _

omit [FloatOps F] in
theorem held_S5 (d : Dev nD) (W : Valuation τ sig (Elt F)) :
    (held (T d) S5 W : sProp 𝕄) = iprop((tLoc d ↦{fullShare} W t') ∗ (xLoc d ↦{fullShare} W x') ∗ (oLoc d ↦{fullShare} W o')
      ∗ (aLoc d ↦{fullShare} W a') ∗ (wLoc d ↦{fullShare} W w')) := by
  unfold held S5
  rw [SparseCore.bigSep_insert' (by decide), SparseCore.bigSep_insert' (by decide), SparseCore.bigSep_insert' (by decide),
    SparseCore.bigSep_insert' (by decide), bigSep_singleton]

/-- After the host operations: the pair table, the transposed atoms, and the result and the arguments as launched. -/
theorem held_after (d : Dev nD) :
    (held (T d) (tcRefs τ sig) (after (ops (F := F)) (launchContents m d)) : sProp 𝕄)
      ⊢ iprop((tLoc d ↦{fullShare} TabOf m d) ∗ (xLoc d ↦{fullShare} XOf m d) ∗ (oLoc d ↦{fullShare} m (oLoc d))
        ∗ (aLoc d ↦{fullShare} m (aLoc d)) ∗ (wLoc d ↦{fullShare} m (wLoc d))) := by
  rw [held_sub_split (T d) S5_sub, held_S5, after_t, after_x, after_o, after_a, after_w]
  exact sep_elim_left

/-! ## What the call takes for the two SparseCores, and what it hands back -/

theorem st0_eq (d : Dev nD) :
    (bigSep Finset.univ fun c : Fin ((K (F := F)).nCore 0) => (P m).st 0 d c)
      = iprop((bigSep Finset.univ fun c : Fin 2 => tLoc d ↦{Transfers.shareTok fullShare 2 c} TabOf m d)
          ∗ (bigSep Finset.univ fun c : Fin 2 => xLoc d ↦{Transfers.shareTok fullShare 2 c} XOf m d)
          ∗ (oLoc d ↦{fullShare} m (oLoc d))) := by
  show (bigSep (Finset.univ : Finset (Fin 2)) fun c => coreSt m d c) = _
  unfold coreSt
  rw [bigSep_sep', bigSep_sep', ← oPts_cores]

theorem dn0_eq (d : Dev nD) :
    (bigSep Finset.univ fun c : Fin ((K (F := F)).nCore 0) => (P m).dn 0 d c)
      = iprop((bigSep Finset.univ fun c : Fin 2 => tLoc d ↦{Transfers.shareTok fullShare 2 c} TabOf m d)
          ∗ (bigSep Finset.univ fun c : Fin 2 => xLoc d ↦{Transfers.shareTok fullShare 2 c} XOf m d)
          ∗ (oLoc d ↦{fullShare} OutOf m d)) := by
  show (bigSep (Finset.univ : Finset (Fin 2)) fun c => coreDn m d c) = _
  unfold coreDn
  rw [bigSep_sep', bigSep_sep', ← oPts_cores]

/-! ## @main on the TensorCore -/

set_option backward.isDefEq.respectTransparency.types false in
/-- @main on device d's TensorCore: the thirteen host operations as one line, then the call — the pair table and the
    transposed atoms lent to the two SparseCores as read shares, the result as its two halves —; the arguments kept,
    the result at the sums. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (wp_seq 𝒱 none Set.univ d (tcRefs τ sig) (fun _ => ((K (F := F)).run d 0 >>= fun _ => pure ⟨⟩)) ops ops_sub ops_fresh (launchContents m d)) $$ [Hb Hheld]
  · isplitl [Hb]; · iexact Hb
    iexact Hheld
  iintro ⟨Hb, Hheld⟩
  ihave Hh := (held_after m d) $$ Hheld
  icases Hh with ⟨Ht, Hx, Ho, Ha, Hw⟩
  ihave Ht' := (Transfers.pointsTo_toks_split fullShare 2) $$ Ht
  ihave Hx' := (Transfers.pointsTo_toks_split fullShare 2) $$ Hx
  icases Ht' with ⟨Htr, Hts⟩
  icases Hx' with ⟨Hxr, Hxs⟩
  simp only [wp_bind, wp_pure]
  iapply ((K (F := F)).wp_run (D (F := F)) 𝒱 (EH := EH) (P := P m) κ d 0) $$ [Hst Hts Hxs Ho Ha Hw]
  isplitr; · iexact Hctx
  isplitl [Hst]; · iexact Hst
  isplitl [Hts Hxs Ho]
  · rw [st0_eq]
    isplitl [Hts]; · iexact Hts
    isplitl [Hxs]; · iexact Hxs
    iexact Ho
  iintro ⟨Hst, Hdn⟩
  ihave Hdn' := (Entails.of_eq (dn0_eq m d)) $$ Hdn
  icases Hdn' with ⟨-, -, Ho⟩
  imodintro
  isplitl [Hst]; · iexact Hst
  isplitl [Ha]; · iexact Ha
  isplitl [Hw]; · iexact Hw
  iexact Ho

/-! ## The program's run -/

/-- Every weakly fair execution of the device's threads ends, the result holding the sums and the arguments unchanged;
    from each task's run and the atoms' range. -/
theorem run_main [∀ e, Nonempty (Elt F e)] (h : TileBody m) (hX : ∀ d i, (XOf m d i).toNat < 100) :
    θ_run (Cert.Kernel.defs (F := F)) (Cert.Kernel.threads (F := F)) ⟨m, fun _ => 0, ρ⟩
      (fun r => ∀ c : Dev nD, r.2.mem (oLoc c) = OutOf m c ∧ r.2.mem (aLoc c) = m (aLoc c) ∧ r.2.mem (wLoc c) = m (wLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m h hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KB.XRange.lean ====
/-
  The transposed atoms stay in the atoms' range: the transpose of the atoms' array holds at (l, b) the atom at
  (b, l), so a bound on every atom is a bound on every entry of the transpose.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals
import proofs.«203047_g89000312307883_cont_sun_c4_202_23_alg».proof.Proof.KB.Pay
import proofs.«203047_g89000312307883_cont_sun_c4_202_23_alg».proof.Proof.KB.TileStmt

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

variable [FloatOps F] (m : (ℓ : Loc nD τ sig) → Buf (Elt F) ℓ)

/-! ## The range of the transposed atoms -/

/-- The transposed atoms read at (l, b): the atoms at (b, l). -/
theorem xt_at (a : IVec S16384x200 32) (i : S200x16384.Idx) : xtOf a i = a (ValueIdx.ix2 (i 1) (i 0)) := by
  unfold xtOf
  exact transpose_apply _ a _ i _ fun c => match c with | ⟨0, _⟩ => rfl | ⟨1, _⟩ => rfl

/-- Every entry of the transpose is an entry of the atoms' array: a bound on all the atoms bounds all of the transpose. -/
theorem XOf_lt (h : ∀ d i, (m (aLoc d) i).toNat < 100) : ∀ d i, (XOf m d i).toNat < 100 := by
  intro d i
  show (xtOf (m (aLoc d)) i).toNat < 100
  rw [xt_at]
  exact h d _

end Cert.Proof.KB

end
-- ==== Proof.KB.TileLemmas.lean ====
/-
  One table read of one trip. The sixteen lanes loaded from row r of a block at column c0 are that row's entries; when
  every entry of the block is below 100 the pair word is in range of the table; and the table read at the pair words,
  added to a running sum, is the next running sum.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals
import proofs.«203047_g89000312307883_cont_sun_c4_202_23_alg».proof.Proof.KB.Pay
import Idealize.ShloMosaic.Lib.ValueLayout
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

variable [FloatOps F]

section Tile

variable (d : Dev nD) (L : grid0.Coords)

open Idealize.ShloMosaic.ValueIdx

omit [FloatOps F] in
/-- Sixteen lanes loaded from row r of the block at column c0 are that row's lanes. -/
theorem lane_rd1 (fb : Buf (Elt F) ((thrV d L).loc cc0_scratch1)) (r c0 : ℕ) (h : ∀ a, (![r, c0] : Fin 2 → ℕ) a + S1x16.size a ≤ S200x128.size a)
    (hc : S1x16.ShapeCasts S16) (hr : r < 200) (hc0 : c0 + 16 ≤ 128) :
    shapeCast S16 ((s1W).view.readAt (Elt F) (Rect.unit (s := S200x128) ![r, c0] S1x16.size h).toLoadRect fb) hc = laneRow fb r c0 := by
  funext x
  obtain ⟨i, rfl⟩ : ∃ i : Fin 16, x = ix1 i := ⟨x 0, eq_ix1 x⟩
  refine (shapeCast_1a_a_apply (a := 16) _ hc i).trans ?_
  unfold laneRow
  simp only [View.readAt_apply, Memref.view_whole, View.read_whole]
  congr 1
  funext a; apply Fin.ext
  match a with
  | ⟨0, _⟩ =>
    show r + 1 * 0 = r % 200
    rw [Nat.mod_eq_of_lt hr]; omega
  | ⟨1, _⟩ =>
    show c0 + 1 * i.val = (c0 + i.val) % 128
    have := i.isLt
    rw [Nat.mod_eq_of_lt (by omega)]; omega

omit [FloatOps F] in
/-- The check before a table read passes when every atom of the block is below 100. -/
theorem chk_rd1 (fb : Buf (Elt F) ((thrV d L).loc cc0_scratch1)) (hfb : ∀ y, (fb y).toNat < 100) (o1 o2 : Fin 2 → ℕ)
    (h1 : ∀ a, o1 a + S1x16.size a ≤ S200x128.size a) (h2 : ∀ a, o2 a + S1x16.size a ≤ S200x128.size a) (hc1 hc2 : S1x16.ShapeCasts S16) :
    ∀ a x, ((![addi (shapeCast S16 ((s1W).view.readAt (Elt F) (Rect.unit (s := S200x128) o1 S1x16.size h1).toLoadRect fb) hc1)
      (shli (shapeCast S16 ((s1W).view.readAt (Elt F) (Rect.unit (s := S200x128) o2 S1x16.size h2).toLoadRect fb) hc2) (broadcast S16 7#32))] : Fin 1 → IVec S16 32) a x).toNat < S16384.size a := by
  refine chk_small _ _ (fun x => ?_) (fun x => ?_)
  · unfold shapeCast; simp only [View.readAt_apply, Memref.view_whole, View.read_whole]; exact hfb _
  · unfold shapeCast; simp only [View.readAt_apply, Memref.view_whole, View.read_whole]; exact hfb _

/-- One table read of a trip adds that trip's looked-up pair sums. -/
theorem step_rd1 (T0 : Buf (Elt F) ((thrV d L).loc cc0_scratch0)) (fb : Buf (Elt F) ((thrV d L).loc cc0_scratch1)) (k c0 : ℕ) (o1 o2 : Fin 2 → ℕ)
    (h1 : ∀ a, o1 a + S1x16.size a ≤ S200x128.size a) (h2 : ∀ a, o2 a + S1x16.size a ≤ S200x128.size a) (hc1 hc2 : S1x16.ShapeCasts S16)
    (e1 : o1 = ![2 * k, c0]) (e2 : o2 = ![2 * k + 1, c0]) (hk : k < 100) (hc0 : c0 + 16 ≤ 128)
    (hh : ∀ a x, ((![addi (shapeCast S16 ((s1W).view.readAt (Elt F) (Rect.unit (s := S200x128) o1 S1x16.size h1).toLoadRect fb) hc1)
      (shli (shapeCast S16 ((s1W).view.readAt (Elt F) (Rect.unit (s := S200x128) o2 S1x16.size h2).toLoadRect fb) hc2) (broadcast S16 7#32))] : Fin 1 → IVec S16 32) a x).toNat < S16384.size a)
    (acc : FVec F S16 .f32) :
    addf acc (loadIdx ((s0W).view.readAt (Elt F) (LoadRect.whole S16384) T0)
        ![addi (shapeCast S16 ((s1W).view.readAt (Elt F) (Rect.unit (s := S200x128) o1 S1x16.size h1).toLoadRect fb) hc1)
          (shli (shapeCast S16 ((s1W).view.readAt (Elt F) (Rect.unit (s := S200x128) o2 S1x16.size h2).toLoadRect fb) hc2) (broadcast S16 7#32))] hh)
      = addf acc (gatV T0 fb k c0) := by
  subst e1 e2
  congr 1
  funext x
  have hx := hh 0 x
  revert hx hh
  rw [lane_rd1 d L fb (2 * k) c0 h1 hc1 (by omega) hc0, lane_rd1 d L fb (2 * k + 1) c0 h2 hc2 (by omega) hc0]
  intro hh hx
  unfold loadIdx idxAt gatV
  simp only [View.readAt_apply, Memref.view_whole, View.read_whole]
  congr 1
  funext a
  apply Fin.ext
  match a with
  | ⟨0, _⟩ =>
    show 0 + 1 * (combV fb k c0 x).toNat = (combV fb k c0 x).toNat % 16384
    have : (combV fb k c0 x).toNat < 16384 := hx
    omega

omit [FloatOps F] in
/-- Sixteen lanes loaded from row r of the block at column c0 are that row's lanes. -/
theorem lane_rd2 (fb : Buf (Elt F) ((thrV d L).loc cc0_scratch2)) (r c0 : ℕ) (h : ∀ a, (![r, c0] : Fin 2 → ℕ) a + S1x16.size a ≤ S200x128.size a)
    (hc : S1x16.ShapeCasts S16) (hr : r < 200) (hc0 : c0 + 16 ≤ 128) :
    shapeCast S16 ((s2W).view.readAt (Elt F) (Rect.unit (s := S200x128) ![r, c0] S1x16.size h).toLoadRect fb) hc = laneRow fb r c0 := by
  funext x
  obtain ⟨i, rfl⟩ : ∃ i : Fin 16, x = ix1 i := ⟨x 0, eq_ix1 x⟩
  refine (shapeCast_1a_a_apply (a := 16) _ hc i).trans ?_
  unfold laneRow
  simp only [View.readAt_apply, Memref.view_whole, View.read_whole]
  congr 1
  funext a; apply Fin.ext
  match a with
  | ⟨0, _⟩ =>
    show r + 1 * 0 = r % 200
    rw [Nat.mod_eq_of_lt hr]; omega
  | ⟨1, _⟩ =>
    show c0 + 1 * i.val = (c0 + i.val) % 128
    have := i.isLt
    rw [Nat.mod_eq_of_lt (by omega)]; omega

omit [FloatOps F] in
/-- The check before a table read passes when every atom of the block is below 100. -/
theorem chk_rd2 (fb : Buf (Elt F) ((thrV d L).loc cc0_scratch2)) (hfb : ∀ y, (fb y).toNat < 100) (o1 o2 : Fin 2 → ℕ)
    (h1 : ∀ a, o1 a + S1x16.size a ≤ S200x128.size a) (h2 : ∀ a, o2 a + S1x16.size a ≤ S200x128.size a) (hc1 hc2 : S1x16.ShapeCasts S16) :
    ∀ a x, ((![addi (shapeCast S16 ((s2W).view.readAt (Elt F) (Rect.unit (s := S200x128) o1 S1x16.size h1).toLoadRect fb) hc1)
      (shli (shapeCast S16 ((s2W).view.readAt (Elt F) (Rect.unit (s := S200x128) o2 S1x16.size h2).toLoadRect fb) hc2) (broadcast S16 7#32))] : Fin 1 → IVec S16 32) a x).toNat < S16384.size a := by
  refine chk_small _ _ (fun x => ?_) (fun x => ?_)
  · unfold shapeCast; simp only [View.readAt_apply, Memref.view_whole, View.read_whole]; exact hfb _
  · unfold shapeCast; simp only [View.readAt_apply, Memref.view_whole, View.read_whole]; exact hfb _

/-- One table read of a trip adds that trip's looked-up pair sums. -/
theorem step_rd2 (T0 : Buf (Elt F) ((thrV d L).loc cc0_scratch0)) (fb : Buf (Elt F) ((thrV d L).loc cc0_scratch2)) (k c0 : ℕ) (o1 o2 : Fin 2 → ℕ)
    (h1 : ∀ a, o1 a + S1x16.size a ≤ S200x128.size a) (h2 : ∀ a, o2 a + S1x16.size a ≤ S200x128.size a) (hc1 hc2 : S1x16.ShapeCasts S16)
    (e1 : o1 = ![2 * k, c0]) (e2 : o2 = ![2 * k + 1, c0]) (hk : k < 100) (hc0 : c0 + 16 ≤ 128)
    (hh : ∀ a x, ((![addi (shapeCast S16 ((s2W).view.readAt (Elt F) (Rect.unit (s := S200x128) o1 S1x16.size h1).toLoadRect fb) hc1)
      (shli (shapeCast S16 ((s2W).view.readAt (Elt F) (Rect.unit (s := S200x128) o2 S1x16.size h2).toLoadRect fb) hc2) (broadcast S16 7#32))] : Fin 1 → IVec S16 32) a x).toNat < S16384.size a)
    (acc : FVec F S16 .f32) :
    addf acc (loadIdx ((s0W).view.readAt (Elt F) (LoadRect.whole S16384) T0)
        ![addi (shapeCast S16 ((s2W).view.readAt (Elt F) (Rect.unit (s := S200x128) o1 S1x16.size h1).toLoadRect fb) hc1)
          (shli (shapeCast S16 ((s2W).view.readAt (Elt F) (Rect.unit (s := S200x128) o2 S1x16.size h2).toLoadRect fb) hc2) (broadcast S16 7#32))] hh)
      = addf acc (gatV T0 fb k c0) := by
  subst e1 e2
  congr 1
  funext x
  have hx := hh 0 x
  revert hx hh
  rw [lane_rd2 d L fb (2 * k) c0 h1 hc1 (by omega) hc0, lane_rd2 d L fb (2 * k + 1) c0 h2 hc2 (by omega) hc0]
  intro hh hx
  unfold loadIdx idxAt gatV
  simp only [View.readAt_apply, Memref.view_whole, View.read_whole]
  congr 1
  funext a
  apply Fin.ext
  match a with
  | ⟨0, _⟩ =>
    show 0 + 1 * (combV fb k c0 x).toNat = (combV fb k c0 x).toNat % 16384
    have : (combV fb k c0 x).toNat < 16384 := hx
    omega

end Tile

end Cert.Proof.KB

end
-- ==== Proof.KB.ValEq.lean ====
/-
  The kernel's sixteen running sums against the specification's. A block of the transposed index array holds
  128 consecutive columns of it, starting at column cb. Lane x of the sixteen lanes starting at the block's column c0 is then
  molecule cb + c0 + x: its pair word at trip k is the specification's pair word of that molecule, and its
  running sum after k trips is the specification's sum of the first k pairs.
-/
import proofs.«203047_g89000312307883_cont_sun_c4_202_23_alg».proof.Proof.Spec
import proofs.«203047_g89000312307883_cont_sun_c4_202_23_alg».proof.Proof.KB.Vals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ValueIdx Cert.Proof.Spec

variable {F : FTy → Type} [FloatOps F]

/-- A lane's entry of a block's row is the transposed index array's entry at the lane's molecule. -/
theorem laneRow_eq (X : IVec S200x16384 32) (fb : IVec S200x128 32) (cb : ℕ) (hcb : cb + 128 ≤ 16384)
    (hfb : ∀ (r : Fin 200) (q : Fin 128), fb (ix2 r q) = X (ix2 r (⟨cb + q.val, by omega⟩ : Fin 16384)))
    (c0 : ℕ) (hc0 : c0 + 16 ≤ 128) (x : S16.Idx) (r : ℕ) :
    laneRow fb r c0 x
      = X (ix2 (⟨r % 200, Nat.mod_lt _ (by norm_num)⟩ : Fin 200)
          (⟨cb + c0 + (x 0).val, by have := (x 0).isLt; simp at this; omega⟩ : Fin 16384)) := by
  have hx : (x 0).val < 16 := (x 0).isLt
  unfold laneRow
  rw [hfb]
  refine congrArg (fun z : Fin 16384 => X (ix2 (⟨r % 200, Nat.mod_lt _ (by norm_num)⟩ : Fin 200) z)) (Fin.ext ?_)
  show cb + (c0 + (x 0).val) % 128 = cb + c0 + (x 0).val
  rw [Nat.mod_eq_of_lt (by omega)]
  omega

/-- A lane's pair word at trip k is the specification's pair word of the lane's molecule. -/
theorem combV_eq (X : IVec S200x16384 32) (fb : IVec S200x128 32) (cb : ℕ) (hcb : cb + 128 ≤ 16384)
    (hfb : ∀ (r : Fin 200) (q : Fin 128), fb (ix2 r q) = X (ix2 r (⟨cb + q.val, by omega⟩ : Fin 16384)))
    (c0 : ℕ) (hc0 : c0 + 16 ≤ 128) (x : S16.Idx) (k : ℕ) :
    combV fb k c0 x
      = pairWord X (⟨cb + c0 + (x 0).val, by have := (x 0).isLt; simp at this; omega⟩ : Fin 16384) k := by
  show IntOp.addi (laneRow fb (2 * k) c0 x) (IntOp.shli .vector (laneRow fb (2 * k + 1) c0 x) 7#32) = _
  rw [laneRow_eq X fb cb hcb hfb c0 hc0 x, laneRow_eq X fb cb hcb hfb c0 hc0 x]
  rfl

/-- A lane's running sum after k trips is the specification's sum of the first k pairs of the lane's molecule. -/
theorem accV_eq {F : FTy → Type} [FloatOps F] (Tab : FVec F S16384 .f32) (X : IVec S200x16384 32) (fb : IVec S200x128 32) (cb : ℕ) (hcb : cb + 128 ≤ 16384)
    (hfb : ∀ (r : Fin 200) (q : Fin 128), fb (ix2 r q) = X (ix2 r (⟨cb + q.val, by omega⟩ : Fin 16384)))
    (c0 : ℕ) (hc0 : c0 + 16 ≤ 128) (x : S16.Idx) (k : ℕ) :
    accV Tab fb c0 k x = pairSum Tab X (⟨cb + c0 + (x 0).val, by have := (x 0).isLt; simp at this; omega⟩ : Fin 16384) k := by
  induction k with
  | zero => rfl
  | succ k ih =>
    show FloatOps.addf (accV Tab fb c0 k x) (gatV Tab fb k c0 x) = _
    rw [ih]
    show FloatOps.addf _ (gatV Tab fb k c0 x) = FloatOps.addf _ (Tab (ix1 (⟨(pairWord X _ k).toNat % 16384, _⟩ : Fin 16384)))
    refine congrArg (FloatOps.addf _) ?_
    unfold gatV
    refine congrArg (fun z : Fin 16384 => Tab (ix1 z)) (Fin.ext ?_)
    show (combV fb k c0 x).toNat % 16384 = (pairWord X _ k).toNat % 16384
    rw [combV_eq X fb cb hcb hfb c0 hc0 x k]

end Cert.Proof.KB

end
-- ==== Proof.KB.TileVals.lean ====
/-
  From blocks to the result. A block scratch filled from 128 columns of the transposed atoms holds exactly those
  columns; sixteen running sums after the hundredth trip are sixteen entries of the kernel's function (the fold of
  Spec.lean), placed where the task stores them; and the task's 512 entries, written from the out scratch, are the
  kernel's function on the task's slice of the result.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals
import proofs.«203047_g89000312307883_cont_sun_c4_202_23_alg».proof.Proof.KB.Pay
import proofs.«203047_g89000312307883_cont_sun_c4_202_23_alg».proof.Proof.KB.TileLemmas
import proofs.«203047_g89000312307883_cont_sun_c4_202_23_alg».proof.Proof.KB.ValEq
import Idealize.ShloMosaic.Lib.ValueLayout
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

variable [FloatOps F] (m : (ℓ : Loc nD τ sig) → Buf (Elt F) ℓ)

section Tile

variable (d : Dev nD) (L : grid0.Coords)

open Idealize.ShloMosaic.ValueIdx Cert.Proof.Spec

omit [FloatOps F] in
/-- A block scratch filled from the 128 columns of the atoms starting at cb holds those columns. -/
theorem blk_val1 (X : Buf (Elt F) (xLoc d)) (off : Fin 2 → ℕ) (h : ∀ a, off a + S200x128.size a ≤ S200x16384.size a)
    (f1 : Buf (Elt F) ((thrV d L).loc cc0_scratch1)) (cb : ℕ) (hcb : cb + 128 ≤ 16384) (e : off = ![0, cb]) (r : Fin 200) (q : Fin 128) :
    View.write (Elt F) (s1W).view f1
        (ReadAs.same.apply (View.read (Elt F) ((xW).slice (Rect.unit (s := S200x16384) off S200x128.size h) (fun _ => rfl)).view X)) Finset.univ (ix2 r q)
      = X (ix2 r (⟨cb + q.val, by omega⟩ : Fin 16384)) := by
  subst e
  refine (congrFun (View.write_whole_univ (Val := Elt F) (cc0_scratch1 : Ref sig .scVector) f1 _) _).trans ?_
  show View.read (Elt F) ((xW).slice (Rect.unit (s := S200x16384) ![0, cb] S200x128.size h) (fun _ => rfl)).view X (ix2 r q) = _
  refine ((View.read_apply _ _).trans (cast_eq _ _)).trans ?_
  congr 1
  funext a; apply Fin.ext
  match a with
  | ⟨0, _⟩ => show 0 + 1 * r.val = r.val; omega
  | ⟨1, _⟩ => show cb + 1 * q.val = cb + q.val; omega

omit [FloatOps F] in
/-- A block scratch filled from the 128 columns of the atoms starting at cb holds those columns. -/
theorem blk_val2 (X : Buf (Elt F) (xLoc d)) (off : Fin 2 → ℕ) (h : ∀ a, off a + S200x128.size a ≤ S200x16384.size a)
    (f1 : Buf (Elt F) ((thrV d L).loc cc0_scratch2)) (cb : ℕ) (hcb : cb + 128 ≤ 16384) (e : off = ![0, cb]) (r : Fin 200) (q : Fin 128) :
    View.write (Elt F) (s2W).view f1
        (ReadAs.same.apply (View.read (Elt F) ((xW).slice (Rect.unit (s := S200x16384) off S200x128.size h) (fun _ => rfl)).view X)) Finset.univ (ix2 r q)
      = X (ix2 r (⟨cb + q.val, by omega⟩ : Fin 16384)) := by
  subst e
  refine (congrFun (View.write_whole_univ (Val := Elt F) (cc0_scratch2 : Ref sig .scVector) f1 _) _).trans ?_
  show View.read (Elt F) ((xW).slice (Rect.unit (s := S200x16384) ![0, cb] S200x128.size h) (fun _ => rfl)).view X (ix2 r q) = _
  refine ((View.read_apply _ _).trans (cast_eq _ _)).trans ?_
  congr 1
  funext a; apply Fin.ext
  match a with
  | ⟨0, _⟩ => show 0 + 1 * r.val = r.val; omega
  | ⟨1, _⟩ => show cb + 1 * q.val = cb + q.val; omega

/-- The target of a task's 512 entries, as a function of the entry's position in the slice starting at col0. -/
def G3 (Tab : FVec F S16384 .f32) (X : IVec S200x16384 32) (col0 : ℕ) : S512.Idx → F .f32 :=
  fun y => pairSum Tab X (⟨(col0 + (y 0).val) % 16384, Nat.mod_lt _ (by norm_num)⟩ : Fin 16384) 100

/-- Sixteen running sums stored at offset off of the out scratch are the target's entries there. -/
theorem piece_eq (Tab : FVec F S16384 .f32) (X : IVec S200x16384 32) (fb : IVec S200x128 32) (cb : ℕ) (hcb : cb + 128 ≤ 16384)
    (hfb : ∀ (r : Fin 200) (q : Fin 128), fb (ix2 r q) = X (ix2 r (⟨cb + q.val, by omega⟩ : Fin 16384)))
    (c0 : ℕ) (hc0 : c0 + 16 ≤ 128) (off : ℕ) (h : ∀ a, (![off] : Fin 1 → ℕ) a + S16.size a ≤ S512.size a) (col0 : ℕ)
    (e : col0 + off = cb + c0) (k : ℕ) (hk : k = 100) (x : S16.Idx) :
    accV Tab fb c0 k x = G3 Tab X col0 ((Rect.unit (s := S512) ![off] S16.size h).emb x) := by
  subst hk
  rw [accV_eq Tab X fb cb hcb hfb c0 hc0 x 100]
  unfold G3
  congr 1
  apply Fin.ext
  show cb + c0 + (x 0).val = (col0 + (off + 1 * (x 0).val)) % 16384
  have := (x 0).isLt
  simp at this
  rw [Nat.mod_eq_of_lt (by omega)]; omega

/-- The task's entries of the result, written whole from a vector that is the target, hold the kernel's function. -/
theorem out_congr (Tab : Buf (Elt F) (tLoc d)) (X : Buf (Elt F) (xLoc d)) (O₀ : Buf (Elt F) (oLoc d)) (w : S512.Idx → F .f32)
    (hw : ∀ y, w y = G3 Tab X (1024 * (L 1).val + 512 * (L 0).val) y) :
    ((oSlice L).view.loc (thrV d L) ↦[(oSlice L).view.set]{fullShare} (oSlice L).view.writes (Elt F) O₀ [⟨Rect.whole S512, w⟩] : sProp 𝕄)
      = ((oSlice L).view.loc (thrV d L) ↦[(oSlice L).view.set]{fullShare} (Spec.kerOut Tab X : Buf (Elt F) (oLoc d))) := by
  have h1 : (L 1).val < 16 := (L 1).isLt
  have h0 : (L 0).val < 2 := (L 0).isLt
  refine pointsTo_congr fun i hi => ?_
  obtain ⟨y, -, rfl⟩ := Finset.mem_map.mp hi
  rw [View.writes_singleton]
  have ey : (oSlice L).view.emb y = ((oSlice L).view.slice (Rect.whole S512)).emb y := by
    rw [View.emb_slice]; show _ = (oSlice L).view.emb ((Rect.whole S512).emb y); rw [Rect.emb_whole_apply]
  rw [ey, View.write_emb_of_mem _ _ (Finset.mem_univ _)]
  refine (cast_eq _ _).trans ?_
  rw [hw y]
  unfold G3 Spec.kerOut
  congr 1
  apply Fin.ext
  rw [← ey]
  show (1024 * (L 1).val + 512 * (L 0).val + (y 0).val) % 16384 = (k0_off67 L) 0 + 1 * (y 0).val
  rw [k0_off67_eq L]
  have := (y 0).isLt
  simp at this
  show _ = 1024 * (L 1).val + 512 * (L 0).val + 1 * (y 0).val
  rw [Nat.mod_eq_of_lt (by omega)]; omega

end Tile

end Cert.Proof.KB

end
-- ==== Proof.KB.TileCore.lean ====
/-
  One task's run. The pair table is copied whole into the task's scratch and the copy waited for. The task's 512
  molecules are four blocks of 128; two block scratches alternate, each with its own semaphore: block n+1's copy is
  started before block n's is waited for, a block scratch is read only after the wait on its semaphore, and it is
  overwritten (by block n+2's copy) only after the loop that read it has ended, so no copy and no load meet. Each block
  is summed by a loop of a hundred trips carrying eight vectors of sixteen running sums (the invariant: after k trips
  they are the k-pair partial sums); the eight vectors are stored into the out scratch at the block's offset; after the
  fourth block the out scratch is copied to the task's slice of the result and the copy waited for. Every check before
  a table read passes because the atoms are below 100.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals
import proofs.«203047_g89000312307883_cont_sun_c4_202_23_alg».proof.Proof.KB.Pay
import proofs.«203047_g89000312307883_cont_sun_c4_202_23_alg».proof.Proof.KB.TileLemmas
import proofs.«203047_g89000312307883_cont_sun_c4_202_23_alg».proof.Proof.KB.TileVals
import proofs.«203047_g89000312307883_cont_sun_c4_202_23_alg».proof.Proof.KB.TileStmt
import Idealize.ShloMosaic.Lib.ValueLayout
import Idealize.ShloMosaic.Lib.Ring
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

variable [FloatOps F] (m : (ℓ : Loc nD τ sig) → Buf (Elt F) ℓ)

section Tile

variable (d : Dev nD) (L : grid0.Coords)

open Idealize.ShloMosaic.ValueIdx Cert.Proof.Spec
set_option maxHeartbeats 4000000

/-- Between trips of a loop over the first block scratch: the table copy and the block in place, the eight running sums at trip k. -/
def inv1 (T0 : Buf (Elt F) ((thrV d L).loc cc0_scratch0)) (fb : Buf (Elt F) ((thrV d L).loc cc0_scratch1)) (k : Nat) (st : FVec F S16 .f32 × FVec F S16 .f32 × FVec F S16 .f32 × FVec F S16 .f32 × FVec F S16 .f32 × FVec F S16 .f32 × FVec F S16 .f32 × FVec F S16 .f32) : sProp 𝕄 :=
  iprop(((s0W).view.loc (thrV d L) ↦{fullShare} T0) ∗ ((s1W).view.loc (thrV d L) ↦{fullShare} fb)
    ∗ ⌜st = (accV T0 fb 0 k, accV T0 fb 16 k, accV T0 fb 32 k, accV T0 fb 48 k, accV T0 fb 64 k, accV T0 fb 80 k, accV T0 fb 96 k, accV T0 fb 112 k)⌝)

/-- The same over the second block scratch. -/
def inv2 (T0 : Buf (Elt F) ((thrV d L).loc cc0_scratch0)) (fb : Buf (Elt F) ((thrV d L).loc cc0_scratch2)) (k : Nat) (st : FVec F S16 .f32 × FVec F S16 .f32 × FVec F S16 .f32 × FVec F S16 .f32 × FVec F S16 .f32 × FVec F S16 .f32 × FVec F S16 .f32 × FVec F S16 .f32) : sProp 𝕄 :=
  iprop(((s0W).view.loc (thrV d L) ↦{fullShare} T0) ∗ ((s2W).view.loc (thrV d L) ↦{fullShare} fb)
    ∗ ⌜st = (accV T0 fb 0 k, accV T0 fb 16 k, accV T0 fb 32 k, accV T0 fb 48 k, accV T0 fb 64 k, accV T0 fb 80 k, accV T0 fb 96 k, accV T0 fb 112 k)⌝)

omit [FloatOps F] in
theorem trips1 : k0_t1_loop.trips = 100 := by decide
omit [FloatOps F] in
theorem trips2 : k0_t2_loop.trips = 100 := by decide
omit [FloatOps F] in
theorem trips3 : k0_t3_loop.trips = 100 := by decide
omit [FloatOps F] in
theorem trips4 : k0_t4_loop.trips = 100 := by decide

/-- The task's run from its read shares, its slice of the result, its four scratches and four semaphores at zero (and a
    frame R it does not touch): it ends with the shares back, its slice holding the kernel's function, the scratches and
    semaphores back, and only waits of its own recorded. -/
theorem tile_core (O : CellTallies nD τ sig (HIx 1)) (W : Waits sig (HIx 1)) (hO : ∀ g, O g none = 0)
    (Tab : Buf (Elt F) (tLoc d)) (X : Buf (Elt F) (xLoc d)) (hX : ∀ i, (X i).toNat < 100) (O₀ : Buf (Elt F) (oLoc d)) (qt qx : PosShare TreeShare)
    (f0 : Buf (Elt F) ((thrV d L).loc cc0_scratch0)) (f1 : Buf (Elt F) ((thrV d L).loc cc0_scratch1))
    (f2 : Buf (Elt F) ((thrV d L).loc cc0_scratch2)) (f3 : Buf (Elt F) ((thrV d L).loc cc0_scratch3)) (R : sProp 𝕄) :
    iprop(levAts (K (F := F)).L (K (F := F)).lev
        ∗ ((tW).view.loc (thrV d L) ↦{qt} Tab)
        ∗ ((xW).view.loc (thrV d L) ↦{qx} X)
        ∗ ((oSlice L).view.loc (thrV d L) ↦[(oSlice L).view.set]{fullShare} O₀)
        ∗ ((s0W).view.loc (thrV d L) ↦{fullShare} f0)
        ∗ ((s1W).view.loc (thrV d L) ↦{fullShare} f1)
        ∗ ((s2W).view.loc (thrV d L) ↦{fullShare} f2)
        ∗ ((s3W).view.loc (thrV d L) ↦{fullShare} f3)
        ∗ semVal (sem0cell d L) 0 ∗ semVal (sem1cell d L) 0 ∗ semVal (sem2cell d L) 0 ∗ semVal (sem3cell d L) 0
        ∗ R ∗ owes (thrV d L) O W)
      ⊢ wp frame (wpE (defs₀ (F := F)) 𝒱₀ (thrV d L) none) Set.univ
          (cc0_k L xW (Memref.isWhole_whole _) tW (Memref.isWhole_whole _) oW (Memref.isWhole_whole _)
            s0W (Memref.isWhole_whole _) s1W (Memref.isWhole_whole _) s2W (Memref.isWhole_whole _) s3W (Memref.isWhole_whole _)
            cc0_scratch4 cc0_scratch5 cc0_scoped0 cc0_scoped1)
          fun _ => (iprop(((tW).view.loc (thrV d L) ↦{qt} Tab)
            ∗ ((xW).view.loc (thrV d L) ↦{qx} X)
            ∗ ((oSlice L).view.loc (thrV d L) ↦[(oSlice L).view.set]{fullShare} (Spec.kerOut Tab X : Buf (Elt F) (oLoc d)))
            ∗ (∃ f, (s0W).view.loc (thrV d L) ↦{fullShare} f)
            ∗ (∃ f, (s1W).view.loc (thrV d L) ↦{fullShare} f)
            ∗ (∃ f, (s2W).view.loc (thrV d L) ↦{fullShare} f)
            ∗ (∃ f, (s3W).view.loc (thrV d L) ↦{fullShare} f)
            ∗ semVal (sem0cell d L) 0 ∗ semVal (sem1cell d L) 0 ∗ semVal (sem2cell d L) 0 ∗ semVal (sem3cell d L) 0
            ∗ R ∗ ∃ W', ⌜∀ p ∈ W', p ∈ W ∨ p.2 = none⌝ ∗ owes (thrV d L) O W') : sProp 𝕄) := by
  have h1 : (L 1).val < 16 := (L 1).isLt
  have h0 : (L 0).val < 2 := (L 0).isLt
  sl_unfold [cc0_k]
  iintro ⟨#Hlv, Ht, Hx, Ho, H0, H1, H2, H3, Hs0, Hs1, Hs2, Hs3, HR, HO⟩
  ihave Hmw := ((K (F := F)).mayWaits_none (thr := thrV d L) hO) $$ Hlv
  sl_exec
  generalize hT0 : View.write (Elt F) (s0W).view f0 _ Finset.univ = T0
  generalize hb1 : View.write (Elt F) (s1W).view f1 _ Finset.univ = fb1
  generalize hb2 : View.write (Elt F) (s2W).view f2 _ Finset.univ = fb2
  have hv1 : ∀ (r : Fin 200) (q : Fin 128), fb1 (ix2 r q) = X (ix2 r (⟨(1024 * (L 1).val + 512 * (L 0).val) + q.val, by omega⟩ : Fin 16384)) := by
    intro r q; rw [← hb1]; exact blk_val1 d L X _ _ f1 (1024 * (L 1).val + 512 * (L 0).val) (by omega) (k0_off1_eq L) r q
  have hfb1 : ∀ y, (fb1 y).toNat < 100 := by
    intro y
    have e : y = ix2 (⟨(y 0).val, (y 0).isLt⟩ : Fin 200) (⟨(y 1).val, (y 1).isLt⟩ : Fin 128) := by
      funext a; match a with | ⟨0, _⟩ => rfl | ⟨1, _⟩ => rfl
    have hy := hv1 ⟨(y 0).val, (y 0).isLt⟩ ⟨(y 1).val, (y 1).isLt⟩
    rw [← e] at hy
    rw [hy]; exact hX _
  have hv2 : ∀ (r : Fin 200) (q : Fin 128), fb2 (ix2 r q) = X (ix2 r (⟨(1024 * (L 1).val + 512 * (L 0).val + 128 * 0 + 128) + q.val, by omega⟩ : Fin 16384)) := by
    intro r q; rw [← hb2]; exact blk_val2 d L X _ _ f2 (1024 * (L 1).val + 512 * (L 0).val + 128 * 0 + 128) (by omega) (k0_off2_eq L ⟨0, by decide⟩) r q
  have hfb2 : ∀ y, (fb2 y).toNat < 100 := by
    intro y
    have e : y = ix2 (⟨(y 0).val, (y 0).isLt⟩ : Fin 200) (⟨(y 1).val, (y 1).isLt⟩ : Fin 128) := by
      funext a; match a with | ⟨0, _⟩ => rfl | ⟨1, _⟩ => rfl
    have hy := hv2 ⟨(y 0).val, (y 0).isLt⟩ ⟨(y 1).val, (y 1).isLt⟩
    rw [← e] at hy
    rw [hy]; exact hX _
  sl_for (inv1 d L T0 fb1) $$ [H0 H1]
  case region =>
    intro k st
    have hk : k.val < 100 := lt_of_lt_of_le k.isLt k0_t1_abs.2.1
    unfold inv1
    iintro ⟨H0, H1, %hst⟩
    subst hst
    sl_exec (disch := exact chk_rd1 d L _ hfb1 _ _ _ _ _ _)
    repeat (rw [SparseCore.vectorLoadIdx_bind (thrV d L)]; sl_exec (disch := exact chk_rd1 d L _ hfb1 _ _ _ _ _ _))
    sl_step
    isplitl [H0]; · iexact H0
    isplitl [H1]; · iexact H1
    ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_))))))
    · exact step_rd1 d L _ _ k.val 0 _ _ _ _ _ _ ClosedOff.eq ClosedOff.eq hk (by norm_num) _ _
    · exact step_rd1 d L _ _ k.val 16 _ _ _ _ _ _ ClosedOff.eq ClosedOff.eq hk (by norm_num) _ _
    · exact step_rd1 d L _ _ k.val 32 _ _ _ _ _ _ ClosedOff.eq ClosedOff.eq hk (by norm_num) _ _
    · exact step_rd1 d L _ _ k.val 48 _ _ _ _ _ _ ClosedOff.eq ClosedOff.eq hk (by norm_num) _ _
    · exact step_rd1 d L _ _ k.val 64 _ _ _ _ _ _ ClosedOff.eq ClosedOff.eq hk (by norm_num) _ _
    · exact step_rd1 d L _ _ k.val 80 _ _ _ _ _ _ ClosedOff.eq ClosedOff.eq hk (by norm_num) _ _
    · exact step_rd1 d L _ _ k.val 96 _ _ _ _ _ _ ClosedOff.eq ClosedOff.eq hk (by norm_num) _ _
    · exact step_rd1 d L _ _ k.val 112 _ _ _ _ _ _ ClosedOff.eq ClosedOff.eq hk (by norm_num) _ _
  · unfold inv1
    isplitl [H0]; · iexact H0
    isplitl [H1]; · iexact H1
    ipureintro; rfl
  iintro %st HI
  unfold inv1
  icases HI with ⟨H0, H1, %hst⟩
  subst hst
  sl_exec
  generalize hb3 : View.write (Elt F) (s1W).view fb1 _ Finset.univ = fb3
  have hv3 : ∀ (r : Fin 200) (q : Fin 128), fb3 (ix2 r q) = X (ix2 r (⟨(1024 * (L 1).val + 512 * (L 0).val + 128 * 1 + 128) + q.val, by omega⟩ : Fin 16384)) := by
    intro r q; rw [← hb3]; exact blk_val1 d L X _ _ fb1 (1024 * (L 1).val + 512 * (L 0).val + 128 * 1 + 128) (by omega) (k0_off2_eq L ⟨1, by decide⟩) r q
  have hfb3 : ∀ y, (fb3 y).toNat < 100 := by
    intro y
    have e : y = ix2 (⟨(y 0).val, (y 0).isLt⟩ : Fin 200) (⟨(y 1).val, (y 1).isLt⟩ : Fin 128) := by
      funext a; match a with | ⟨0, _⟩ => rfl | ⟨1, _⟩ => rfl
    have hy := hv3 ⟨(y 0).val, (y 0).isLt⟩ ⟨(y 1).val, (y 1).isLt⟩
    rw [← e] at hy
    rw [hy]; exact hX _
  sl_for (inv2 d L T0 fb2) $$ [H0 H2]
  case region =>
    intro k st
    have hk : k.val < 100 := lt_of_lt_of_le k.isLt k0_t2_abs.2.1
    unfold inv2
    iintro ⟨H0, H2, %hst⟩
    subst hst
    sl_exec (disch := exact chk_rd2 d L _ hfb2 _ _ _ _ _ _)
    repeat (rw [SparseCore.vectorLoadIdx_bind (thrV d L)]; sl_exec (disch := exact chk_rd2 d L _ hfb2 _ _ _ _ _ _))
    sl_step
    isplitl [H0]; · iexact H0
    isplitl [H2]; · iexact H2
    ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_))))))
    · exact step_rd2 d L _ _ k.val 0 _ _ _ _ _ _ ClosedOff.eq ClosedOff.eq hk (by norm_num) _ _
    · exact step_rd2 d L _ _ k.val 16 _ _ _ _ _ _ ClosedOff.eq ClosedOff.eq hk (by norm_num) _ _
    · exact step_rd2 d L _ _ k.val 32 _ _ _ _ _ _ ClosedOff.eq ClosedOff.eq hk (by norm_num) _ _
    · exact step_rd2 d L _ _ k.val 48 _ _ _ _ _ _ ClosedOff.eq ClosedOff.eq hk (by norm_num) _ _
    · exact step_rd2 d L _ _ k.val 64 _ _ _ _ _ _ ClosedOff.eq ClosedOff.eq hk (by norm_num) _ _
    · exact step_rd2 d L _ _ k.val 80 _ _ _ _ _ _ ClosedOff.eq ClosedOff.eq hk (by norm_num) _ _
    · exact step_rd2 d L _ _ k.val 96 _ _ _ _ _ _ ClosedOff.eq ClosedOff.eq hk (by norm_num) _ _
    · exact step_rd2 d L _ _ k.val 112 _ _ _ _ _ _ ClosedOff.eq ClosedOff.eq hk (by norm_num) _ _
  · unfold inv2
    isplitl [H0]; · iexact H0
    isplitl [H2]; · iexact H2
    ipureintro; rfl
  iintro %st HI
  unfold inv2
  icases HI with ⟨H0, H2, %hst⟩
  subst hst
  sl_exec
  generalize hb4 : View.write (Elt F) (s2W).view fb2 _ Finset.univ = fb4
  have hv4 : ∀ (r : Fin 200) (q : Fin 128), fb4 (ix2 r q) = X (ix2 r (⟨(1024 * (L 1).val + 512 * (L 0).val + 128 * 2 + 128) + q.val, by omega⟩ : Fin 16384)) := by
    intro r q; rw [← hb4]; exact blk_val2 d L X _ _ fb2 (1024 * (L 1).val + 512 * (L 0).val + 128 * 2 + 128) (by omega) (k0_off2_eq L ⟨2, by decide⟩) r q
  have hfb4 : ∀ y, (fb4 y).toNat < 100 := by
    intro y
    have e : y = ix2 (⟨(y 0).val, (y 0).isLt⟩ : Fin 200) (⟨(y 1).val, (y 1).isLt⟩ : Fin 128) := by
      funext a; match a with | ⟨0, _⟩ => rfl | ⟨1, _⟩ => rfl
    have hy := hv4 ⟨(y 0).val, (y 0).isLt⟩ ⟨(y 1).val, (y 1).isLt⟩
    rw [← e] at hy
    rw [hy]; exact hX _
  sl_for (inv1 d L T0 fb3) $$ [H0 H1]
  case region =>
    intro k st
    have hk : k.val < 100 := lt_of_lt_of_le k.isLt k0_t3_abs.2.1
    unfold inv1
    iintro ⟨H0, H1, %hst⟩
    subst hst
    sl_exec (disch := exact chk_rd1 d L _ hfb3 _ _ _ _ _ _)
    repeat (rw [SparseCore.vectorLoadIdx_bind (thrV d L)]; sl_exec (disch := exact chk_rd1 d L _ hfb3 _ _ _ _ _ _))
    sl_step
    isplitl [H0]; · iexact H0
    isplitl [H1]; · iexact H1
    ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_))))))
    · exact step_rd1 d L _ _ k.val 0 _ _ _ _ _ _ ClosedOff.eq ClosedOff.eq hk (by norm_num) _ _
    · exact step_rd1 d L _ _ k.val 16 _ _ _ _ _ _ ClosedOff.eq ClosedOff.eq hk (by norm_num) _ _
    · exact step_rd1 d L _ _ k.val 32 _ _ _ _ _ _ ClosedOff.eq ClosedOff.eq hk (by norm_num) _ _
    · exact step_rd1 d L _ _ k.val 48 _ _ _ _ _ _ ClosedOff.eq ClosedOff.eq hk (by norm_num) _ _
    · exact step_rd1 d L _ _ k.val 64 _ _ _ _ _ _ ClosedOff.eq ClosedOff.eq hk (by norm_num) _ _
    · exact step_rd1 d L _ _ k.val 80 _ _ _ _ _ _ ClosedOff.eq ClosedOff.eq hk (by norm_num) _ _
    · exact step_rd1 d L _ _ k.val 96 _ _ _ _ _ _ ClosedOff.eq ClosedOff.eq hk (by norm_num) _ _
    · exact step_rd1 d L _ _ k.val 112 _ _ _ _ _ _ ClosedOff.eq ClosedOff.eq hk (by norm_num) _ _
  · unfold inv1
    isplitl [H0]; · iexact H0
    isplitl [H1]; · iexact H1
    ipureintro; rfl
  iintro %st HI
  unfold inv1
  icases HI with ⟨H0, H1, %hst⟩
  subst hst
  sl_exec
  sl_for (inv2 d L T0 fb4) $$ [H0 H2]
  case region =>
    intro k st
    have hk : k.val < 100 := lt_of_lt_of_le k.isLt k0_t4_abs.2.1
    unfold inv2
    iintro ⟨H0, H2, %hst⟩
    subst hst
    sl_exec (disch := exact chk_rd2 d L _ hfb4 _ _ _ _ _ _)
    repeat (rw [SparseCore.vectorLoadIdx_bind (thrV d L)]; sl_exec (disch := exact chk_rd2 d L _ hfb4 _ _ _ _ _ _))
    sl_step
    isplitl [H0]; · iexact H0
    isplitl [H2]; · iexact H2
    ipureintro
    refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ ?_))))))
    · exact step_rd2 d L _ _ k.val 0 _ _ _ _ _ _ ClosedOff.eq ClosedOff.eq hk (by norm_num) _ _
    · exact step_rd2 d L _ _ k.val 16 _ _ _ _ _ _ ClosedOff.eq ClosedOff.eq hk (by norm_num) _ _
    · exact step_rd2 d L _ _ k.val 32 _ _ _ _ _ _ ClosedOff.eq ClosedOff.eq hk (by norm_num) _ _
    · exact step_rd2 d L _ _ k.val 48 _ _ _ _ _ _ ClosedOff.eq ClosedOff.eq hk (by norm_num) _ _
    · exact step_rd2 d L _ _ k.val 64 _ _ _ _ _ _ ClosedOff.eq ClosedOff.eq hk (by norm_num) _ _
    · exact step_rd2 d L _ _ k.val 80 _ _ _ _ _ _ ClosedOff.eq ClosedOff.eq hk (by norm_num) _ _
    · exact step_rd2 d L _ _ k.val 96 _ _ _ _ _ _ ClosedOff.eq ClosedOff.eq hk (by norm_num) _ _
    · exact step_rd2 d L _ _ k.val 112 _ _ _ _ _ _ ClosedOff.eq ClosedOff.eq hk (by norm_num) _ _
  · unfold inv2
    isplitl [H0]; · iexact H0
    isplitl [H2]; · iexact H2
    ipureintro; rfl
  iintro %st HI
  unfold inv2
  icases HI with ⟨H0, H2, %hst⟩
  subst hst
  sl_exec
  have hw : ∀ y, tile_core.sl.dma16_2 d L f3 T0 fb1 fb2 fb3 fb4 y = G3 Tab X (1024 * (L 1).val + 512 * (L 0).val) y := by
    intro y
    have hT : T0 = Tab := by
      rw [← hT0]
      exact (View.write_whole_univ (Val := Elt F) (cc0_scratch0 : Ref sig .scVector) f0 _)
    subst hT
    refine View.read_writes_apply_of_pieces (v := (s3W).view) (f := f3) (G3 T0 X (1024 * (L 1).val + 512 * (L 0).val)) _ ?_ y ?_
    · unfold tile_core.sl.H3_32
      simp only [List.forall_mem_cons, List.forall_mem_nil, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
      · exact piece_eq T0 X fb4 (1024 * (L 1).val + 512 * (L 0).val + 128 * 2 + 128) (by omega) hv4 112 (by norm_num) 496 _ (1024 * (L 1).val + 512 * (L 0).val) (by omega) _ trips4
      · exact piece_eq T0 X fb4 (1024 * (L 1).val + 512 * (L 0).val + 128 * 2 + 128) (by omega) hv4 96 (by norm_num) 480 _ (1024 * (L 1).val + 512 * (L 0).val) (by omega) _ trips4
      · exact piece_eq T0 X fb4 (1024 * (L 1).val + 512 * (L 0).val + 128 * 2 + 128) (by omega) hv4 80 (by norm_num) 464 _ (1024 * (L 1).val + 512 * (L 0).val) (by omega) _ trips4
      · exact piece_eq T0 X fb4 (1024 * (L 1).val + 512 * (L 0).val + 128 * 2 + 128) (by omega) hv4 64 (by norm_num) 448 _ (1024 * (L 1).val + 512 * (L 0).val) (by omega) _ trips4
      · exact piece_eq T0 X fb4 (1024 * (L 1).val + 512 * (L 0).val + 128 * 2 + 128) (by omega) hv4 48 (by norm_num) 432 _ (1024 * (L 1).val + 512 * (L 0).val) (by omega) _ trips4
      · exact piece_eq T0 X fb4 (1024 * (L 1).val + 512 * (L 0).val + 128 * 2 + 128) (by omega) hv4 32 (by norm_num) 416 _ (1024 * (L 1).val + 512 * (L 0).val) (by omega) _ trips4
      · exact piece_eq T0 X fb4 (1024 * (L 1).val + 512 * (L 0).val + 128 * 2 + 128) (by omega) hv4 16 (by norm_num) 400 _ (1024 * (L 1).val + 512 * (L 0).val) (by omega) _ trips4
      · exact piece_eq T0 X fb4 (1024 * (L 1).val + 512 * (L 0).val + 128 * 2 + 128) (by omega) hv4 0 (by norm_num) 384 _ (1024 * (L 1).val + 512 * (L 0).val) (by omega) _ trips4
      · exact piece_eq T0 X fb3 (1024 * (L 1).val + 512 * (L 0).val + 128 * 1 + 128) (by omega) hv3 112 (by norm_num) 368 _ (1024 * (L 1).val + 512 * (L 0).val) (by omega) _ trips3
      · exact piece_eq T0 X fb3 (1024 * (L 1).val + 512 * (L 0).val + 128 * 1 + 128) (by omega) hv3 96 (by norm_num) 352 _ (1024 * (L 1).val + 512 * (L 0).val) (by omega) _ trips3
      · exact piece_eq T0 X fb3 (1024 * (L 1).val + 512 * (L 0).val + 128 * 1 + 128) (by omega) hv3 80 (by norm_num) 336 _ (1024 * (L 1).val + 512 * (L 0).val) (by omega) _ trips3
      · exact piece_eq T0 X fb3 (1024 * (L 1).val + 512 * (L 0).val + 128 * 1 + 128) (by omega) hv3 64 (by norm_num) 320 _ (1024 * (L 1).val + 512 * (L 0).val) (by omega) _ trips3
      · exact piece_eq T0 X fb3 (1024 * (L 1).val + 512 * (L 0).val + 128 * 1 + 128) (by omega) hv3 48 (by norm_num) 304 _ (1024 * (L 1).val + 512 * (L 0).val) (by omega) _ trips3
      · exact piece_eq T0 X fb3 (1024 * (L 1).val + 512 * (L 0).val + 128 * 1 + 128) (by omega) hv3 32 (by norm_num) 288 _ (1024 * (L 1).val + 512 * (L 0).val) (by omega) _ trips3
      · exact piece_eq T0 X fb3 (1024 * (L 1).val + 512 * (L 0).val + 128 * 1 + 128) (by omega) hv3 16 (by norm_num) 272 _ (1024 * (L 1).val + 512 * (L 0).val) (by omega) _ trips3
      · exact piece_eq T0 X fb3 (1024 * (L 1).val + 512 * (L 0).val + 128 * 1 + 128) (by omega) hv3 0 (by norm_num) 256 _ (1024 * (L 1).val + 512 * (L 0).val) (by omega) _ trips3
      · exact piece_eq T0 X fb2 (1024 * (L 1).val + 512 * (L 0).val + 128 * 0 + 128) (by omega) hv2 112 (by norm_num) 240 _ (1024 * (L 1).val + 512 * (L 0).val) (by omega) _ trips2
      · exact piece_eq T0 X fb2 (1024 * (L 1).val + 512 * (L 0).val + 128 * 0 + 128) (by omega) hv2 96 (by norm_num) 224 _ (1024 * (L 1).val + 512 * (L 0).val) (by omega) _ trips2
      · exact piece_eq T0 X fb2 (1024 * (L 1).val + 512 * (L 0).val + 128 * 0 + 128) (by omega) hv2 80 (by norm_num) 208 _ (1024 * (L 1).val + 512 * (L 0).val) (by omega) _ trips2
      · exact piece_eq T0 X fb2 (1024 * (L 1).val + 512 * (L 0).val + 128 * 0 + 128) (by omega) hv2 64 (by norm_num) 192 _ (1024 * (L 1).val + 512 * (L 0).val) (by omega) _ trips2
      · exact piece_eq T0 X fb2 (1024 * (L 1).val + 512 * (L 0).val + 128 * 0 + 128) (by omega) hv2 48 (by norm_num) 176 _ (1024 * (L 1).val + 512 * (L 0).val) (by omega) _ trips2
      · exact piece_eq T0 X fb2 (1024 * (L 1).val + 512 * (L 0).val + 128 * 0 + 128) (by omega) hv2 32 (by norm_num) 160 _ (1024 * (L 1).val + 512 * (L 0).val) (by omega) _ trips2
      · exact piece_eq T0 X fb2 (1024 * (L 1).val + 512 * (L 0).val + 128 * 0 + 128) (by omega) hv2 16 (by norm_num) 144 _ (1024 * (L 1).val + 512 * (L 0).val) (by omega) _ trips2
      · exact piece_eq T0 X fb2 (1024 * (L 1).val + 512 * (L 0).val + 128 * 0 + 128) (by omega) hv2 0 (by norm_num) 128 _ (1024 * (L 1).val + 512 * (L 0).val) (by omega) _ trips2
      · exact piece_eq T0 X fb1 (1024 * (L 1).val + 512 * (L 0).val) (by omega) hv1 112 (by norm_num) 112 _ (1024 * (L 1).val + 512 * (L 0).val) (by omega) _ trips1
      · exact piece_eq T0 X fb1 (1024 * (L 1).val + 512 * (L 0).val) (by omega) hv1 96 (by norm_num) 96 _ (1024 * (L 1).val + 512 * (L 0).val) (by omega) _ trips1
      · exact piece_eq T0 X fb1 (1024 * (L 1).val + 512 * (L 0).val) (by omega) hv1 80 (by norm_num) 80 _ (1024 * (L 1).val + 512 * (L 0).val) (by omega) _ trips1
      · exact piece_eq T0 X fb1 (1024 * (L 1).val + 512 * (L 0).val) (by omega) hv1 64 (by norm_num) 64 _ (1024 * (L 1).val + 512 * (L 0).val) (by omega) _ trips1
      · exact piece_eq T0 X fb1 (1024 * (L 1).val + 512 * (L 0).val) (by omega) hv1 48 (by norm_num) 48 _ (1024 * (L 1).val + 512 * (L 0).val) (by omega) _ trips1
      · exact piece_eq T0 X fb1 (1024 * (L 1).val + 512 * (L 0).val) (by omega) hv1 32 (by norm_num) 32 _ (1024 * (L 1).val + 512 * (L 0).val) (by omega) _ trips1
      · exact piece_eq T0 X fb1 (1024 * (L 1).val + 512 * (L 0).val) (by omega) hv1 16 (by norm_num) 16 _ (1024 * (L 1).val + 512 * (L 0).val) (by omega) _ trips1
      · exact piece_eq T0 X fb1 (1024 * (L 1).val + 512 * (L 0).val) (by omega) hv1 0 (by norm_num) 0 _ (1024 * (L 1).val + 512 * (L 0).val) (by omega) _ trips1
      · intro x hx; cases hx
    · exact View.cover_of_tiledL _ ![16] (by sl_kernel_rfl) y
  sl_step
  isplitl [Ht]; · iexact Ht
  isplitl [Hx]; · iexact Hx
  isplitl [Ho]
  · iapply (Entails.of_eq (out_congr d L Tab X O₀ _ hw)); iexact Ho
  isplitl [H0]; · iexists _; iexact H0
  isplitl [H1]; · iexists _; iexact H1
  isplitl [H2]; · iexists _; iexact H2
  isplitl [H3]; · iexists _; iexact H3
  isplitl [Hs0]; · iexact Hs0
  isplitl [Hs1]; · iexact Hs1
  isplitl [Hs2]; · iexact Hs2
  isplitl [Hs3]; · iexact Hs3
  isplitl [HR]; · iexact HR
  iexists _; isplitr
  rotate_left
  · iexact HO
  · ipureintro; intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact .inl hp

end Tile

end Cert.Proof.KB

end
-- ==== Proof.KB.Tile.lean ====
/-
  The task's run stated as the launch asks it: the task's own four scratches and four semaphores are taken out of the
  subcore's scoped storage, the run of TileCore.lean is applied, and everything is handed back.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203047_g89000312307883_cont_sun_c4_202_23_alg».proof.Proof.Gen.Kernel
import proofs.«203047_g89000312307883_cont_sun_c4_202_23_alg».proof.Proof.Gen.Kernel.Skeleton
import proofs.«203047_g89000312307883_cont_sun_c4_202_23_alg».proof.Proof.Spec
import proofs.«203047_g89000312307883_cont_sun_c4_202_23_alg».proof.Proof.KB.Glue
import proofs.«203047_g89000312307883_cont_sun_c4_202_23_alg».proof.Proof.KB.Base
import proofs.«203047_g89000312307883_cont_sun_c4_202_23_alg».proof.Proof.KB.Vals
import proofs.«203047_g89000312307883_cont_sun_c4_202_23_alg».proof.Proof.KB.Pay
import proofs.«203047_g89000312307883_cont_sun_c4_202_23_alg».proof.Proof.KB.TileLemmas
import proofs.«203047_g89000312307883_cont_sun_c4_202_23_alg».proof.Proof.KB.TileVals
import proofs.«203047_g89000312307883_cont_sun_c4_202_23_alg».proof.Proof.KB.TileStmt
import proofs.«203047_g89000312307883_cont_sun_c4_202_23_alg».proof.Proof.KB.TileCore
import Idealize.ShloMosaic.Lib.ValueLayout
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

-- the kernel's memrefs, spelt as the body table passes them
local notation "xW" => (Memref.whole Cert.Kernel.main_v10_scv : Memref Cert.Kernel.sig Kind.scVector Space.hbm Cert.Kernel.S200x16384 EltTy.i32)
local notation "tW" => (Memref.whole Cert.Kernel.main_v9_scv : Memref Cert.Kernel.sig Kind.scVector Space.hbm Cert.Kernel.S16384 EltTy.f32)
local notation "oW" => (Memref.whole Cert.Kernel.main_v11_scv : Memref Cert.Kernel.sig Kind.scVector Space.hbm Cert.Kernel.S16384 EltTy.f32)
local notation "s0W" => (Memref.whole Cert.Kernel.cc0_scratch0 : Memref Cert.Kernel.sig Kind.scVector Space.vmem Cert.Kernel.S16384 EltTy.f32)
local notation "s1W" => (Memref.whole Cert.Kernel.cc0_scratch1 : Memref Cert.Kernel.sig Kind.scVector Space.vmem Cert.Kernel.S200x128 EltTy.i32)
local notation "s2W" => (Memref.whole Cert.Kernel.cc0_scratch2 : Memref Cert.Kernel.sig Kind.scVector Space.vmem Cert.Kernel.S200x128 EltTy.i32)
local notation "s3W" => (Memref.whole Cert.Kernel.cc0_scratch3 : Memref Cert.Kernel.sig Kind.scVector Space.vmem Cert.Kernel.S512 EltTy.f32)

variable [FloatOps F] (m : (ℓ : Loc nD τ sig) → Buf (Elt F) ℓ)

section Tile

variable (d : Dev nD) (L : grid0.Coords)

open Idealize.ShloMosaic.ValueIdx Cert.Proof.Spec
set_option maxHeartbeats 1000000

/-! ## The task's own scratch and semaphores -/

/-- The subcore's other scoped cells, and its other buffers. -/
abbrev restCells : Finset (GSem nD τ sig) :=
  ((((ownCells (thrV d L)).erase (sem0cell d L)).erase (sem1cell d L)).erase (sem2cell d L)).erase (sem3cell d L)
abbrev restRefs : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

omit [FloatOps F] in
theorem ownSems0_V :
    (ownSems0 (thrV d L) : sProp 𝕄)
      = iprop(semVal (sem0cell d L) 0 ∗ semVal (sem1cell d L) 0 ∗ semVal (sem2cell d L) 0 ∗ semVal (sem3cell d L) 0
          ∗ bigSep (restCells d L) fun g => semVal g 0) := by
  unfold SparseCore.Cfg.ownSems0
  rw [SparseCore.bigSep_erase' ((mem_ownCells (g := sem0cell d L)).mpr ⟨rfl, by
      show (SemLoc.dma cc0_scratch4.sem : SemLoc sig).isScoped .scVector = true; decide⟩),
    SparseCore.bigSep_erase' (Finset.mem_erase.mpr ⟨by simp [sem0cell, sem1cell]; decide, (mem_ownCells (g := sem1cell d L)).mpr ⟨rfl, by
      show (SemLoc.dma cc0_scratch5.sem : SemLoc sig).isScoped .scVector = true; decide⟩⟩),
    SparseCore.bigSep_erase' (Finset.mem_erase.mpr ⟨by simp [sem1cell, sem2cell]; decide, Finset.mem_erase.mpr ⟨by simp [sem0cell, sem2cell]; decide,
      (mem_ownCells (g := sem2cell d L)).mpr ⟨rfl, by show (SemLoc.dma cc0_scoped0.sem : SemLoc sig).isScoped .scVector = true; decide⟩⟩⟩),
    SparseCore.bigSep_erase' (Finset.mem_erase.mpr ⟨by simp [sem2cell, sem3cell]; decide, Finset.mem_erase.mpr ⟨by simp [sem1cell, sem3cell]; decide,
      Finset.mem_erase.mpr ⟨by simp [sem0cell, sem3cell]; decide,
      (mem_ownCells (g := sem3cell d L)).mpr ⟨rfl, by show (SemLoc.dma cc0_scoped1.sem : SemLoc sig).isScoped .scVector = true; decide⟩⟩⟩⟩)]

omit [FloatOps F] in
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_t (q : PosShare TreeShare) (f : Buf (Elt F) (tLoc d)) :
    ((tW).view.loc (thrV d L) ↦{q} f : sProp 𝕄) = tLoc d ↦{q} f := by
  simp only [Memref.view_whole, View.set_whole]
omit [FloatOps F] in
theorem pts_x (q : PosShare TreeShare) (f : Buf (Elt F) (xLoc d)) :
    ((xW).view.loc (thrV d L) ↦{q} f : sProp 𝕄) = xLoc d ↦{q} f := by
  simp only [Memref.view_whole, View.set_whole]
omit [FloatOps F] in
theorem pts_o (f : Buf (Elt F) (oLoc d)) :
    ((oSlice L).view.loc (thrV d L) ↦[(oSlice L).view.set]{fullShare} f : sProp 𝕄) = oLoc d ↦[outSet L]{fullShare} f := rfl

/-- What the run leaves is what the launch asks back. -/
theorem post_conv (hF : (K (F := F)).Facts) (O : CellTallies nD τ sig (HIx 1)) (W : Waits sig (HIx 1)) :
    (iprop(((tW).view.loc (thrV d L) ↦{tokT L} TabOf m d)
        ∗ ((xW).view.loc (thrV d L) ↦{tokT L} XOf m d)
        ∗ ((oSlice L).view.loc (thrV d L) ↦[(oSlice L).view.set]{fullShare} (Spec.kerOut (TabOf m d) (XOf m d) : Buf (Elt F) (oLoc d)))
        ∗ (∃ f, (s0W).view.loc (thrV d L) ↦{fullShare} f)
        ∗ (∃ f, (s1W).view.loc (thrV d L) ↦{fullShare} f)
        ∗ (∃ f, (s2W).view.loc (thrV d L) ↦{fullShare} f)
        ∗ (∃ f, (s3W).view.loc (thrV d L) ↦{fullShare} f)
        ∗ semVal (sem0cell d L) 0 ∗ semVal (sem1cell d L) 0 ∗ semVal (sem2cell d L) 0 ∗ semVal (sem3cell d L) 0
        ∗ iprop((bigSep (restRefs L) fun b => iprop(∃ f, ((d, b) : Loc nD τ sig) ↦{fullShare} f)) ∗ bigSep (restCells d L) fun g => semVal g 0)
        ∗ ∃ W', ⌜∀ p ∈ W', p ∈ W ∨ p.2 = none⌝ ∗ owes (thrV d L) O W') : sProp 𝕄)
      ⊢ iprop(tileTd m d L ∗ scopedBufs (thrV d L) ∗ scopedSems0 (thrV d L) ∗ ∃ W', ⌜∀ p ∈ W', p ∈ W ∨ p.2 = none⌝ ∗ owes (thrV d L) O W') := by
  unfold tileTd OutOf
  rw [(K (F := F)).scopedBufs_V hF d (cV L) (jV L), SparseCore.Cfg.scopedSems0_V (Val := Elt F) d (cV L) (jV L), ownSems0_V, ownBufs_V]
  iintro ⟨Ht, Hx, Ho, ⟨%g0, H0⟩, ⟨%g1, H1⟩, ⟨%g2, H2⟩, ⟨%g3, H3⟩, Hs0, Hs1, Hs2, Hs3, ⟨Hbufs, Hsems⟩, HW⟩
  isplitl [Ht Hx Ho]
  · isplitl [Ht]; · iapply (Entails.of_eq (pts_t d L _ _)); iexact Ht
    isplitl [Hx]; · iapply (Entails.of_eq (pts_x d L _ _)); iexact Hx
    iapply (Entails.of_eq (pts_o d L _)); iexact Ho
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HW

/-- One task: the kernel function at its coordinates, from what the launch hands it to what the launch asks back. -/
theorem tile_body : TileBody m := by
  unfold TileBody
  intro d L hF hX O W hO
  generalize hQ : (fun (_ : PUnit) => (iprop(tileTd m d L ∗ scopedBufs (thrV d L) ∗ scopedSems0 (thrV d L)
    ∗ ∃ W', ⌜∀ p ∈ W', p ∈ W ∨ p.2 = none⌝ ∗ owes (thrV d L) O W') : sProp 𝕄)) = Q
  unfold tileGo
  rw [(K (F := F)).scopedBufs_V hF d (cV L) (jV L), SparseCore.Cfg.scopedSems0_V (Val := Elt F) d (cV L) (jV L), ownSems0_V, ownBufs_V]
  iintro ⟨#Hlv, -, ⟨Ht, Hx, Ho⟩, ⟨⟨%f0, H0⟩, ⟨%f1, H1⟩, ⟨%f2, H2⟩, ⟨%f3, H3⟩, Hbufs⟩, ⟨Hs0, Hs1, Hs2, Hs3, Hsems⟩, HO⟩
  subst hQ
  iapply ((tile_core d L O W hO (TabOf m d) (XOf m d) hX (m (oLoc d)) (tokT L) (tokT L) f0 f1 f2 f3 iprop((bigSep (restRefs L) fun b => iprop(∃ f, ((d, b) : Loc nD τ sig) ↦{fullShare} f)) ∗ bigSep (restCells d L) fun g => semVal g 0)).trans
    (wp_mono frame _ _ fun _ => post_conv m d L hF O W)) $$ [Ht Hx Ho H0 H1 H2 H3 Hs0 Hs1 Hs2 Hs3 Hbufs Hsems HO]
  isplitr; · iexact Hlv
  isplitl [Ht]; · iapply (Entails.of_eq (pts_t d L _ _).symm); iexact Ht
  isplitl [Hx]; · iapply (Entails.of_eq (pts_x d L _ _).symm); iexact Hx
  isplitl [Ho]; · iapply (Entails.of_eq (pts_o d L _).symm); iexact Ho
  isplitl [H0]; · iexact H0
  isplitl [H1]; · iexact H1
  isplitl [H2]; · iexact H2
  isplitl [H3]; · iexact H3
  isplitl [Hs0]; · iexact Hs0
  isplitl [Hs1]; · iexact Hs1
  isplitl [Hs2]; · iexact Hs2
  isplitl [Hs3]; · iexact Hs3
  isplitl [Hbufs Hsems]
  · isplitl [Hbufs]; · iexact Hbufs
    iexact Hsems
  iexact HO

end Tile

end Cert.Proof.KB

end
-- ==== Proof.lean ====
/-
  Both programs compute, for each of the 16384 molecules, the sum over its 200 atoms of the weight looked up at the
  atom's index (an index at least 0 and at most 99, by the precondition). The kernel does it through a 128 by 128
  table of pair sums of the weights padded with zeros, two atoms at a time, as 32 tasks of 512 molecules each, one
  per vector subcore of the two SparseCores; the reference by a gather of the weights at the atoms' indices and a
  sum along the atoms' axis. Each program runs from any memory the precondition holds of and leaves its two
  arguments unchanged; at the ideal instance the two results are equal, entry by entry: the kernel's hundred-term
  fold of pair sums and the reference's two-hundred-term sum are the same sum of extended reals.
-/
import proofs.«203047_g89000312307883_cont_sun_c4_202_23_alg».proof.Defs
import proofs.«203047_g89000312307883_cont_sun_c4_202_23_alg».proof.Proof.Gen.Kernel
import proofs.«203047_g89000312307883_cont_sun_c4_202_23_alg».proof.Proof.Gen.KernelIdeal
import proofs.«203047_g89000312307883_cont_sun_c4_202_23_alg».proof.Proof.Gen.ReferenceIdeal
import proofs.«203047_g89000312307883_cont_sun_c4_202_23_alg».proof.Proof.Gen.Pre_input_domain
import proofs.«203047_g89000312307883_cont_sun_c4_202_23_alg».proof.Proof.PreRange
import proofs.«203047_g89000312307883_cont_sun_c4_202_23_alg».proof.Proof.RefValue
import proofs.«203047_g89000312307883_cont_sun_c4_202_23_alg».proof.Proof.Bridge
import proofs.«203047_g89000312307883_cont_sun_c4_202_23_alg».proof.Proof.Launch
import proofs.«203047_g89000312307883_cont_sun_c4_202_23_alg».proof.Proof.XRange
import proofs.«203047_g89000312307883_cont_sun_c4_202_23_alg».proof.Proof.Tile
import proofs.«203047_g89000312307883_cont_sun_c4_202_23_alg».proof.Proof.KB.Launch
import proofs.«203047_g89000312307883_cont_sun_c4_202_23_alg».proof.Proof.KB.XRange
import proofs.«203047_g89000312307883_cont_sun_c4_202_23_alg».proof.Proof.KB.Tile

noncomputable section

namespace Cert.Proof

open Idealize.ShloMosaic Idealize.SL.Sem

/-- The reference runs and leaves its arguments unchanged. -/
theorem frame_r : Cert.frame_ReferenceIdeal (hReferenceIdeal := Cert.ReferenceIdeal.Gen.facts) (hPre_input_domain := Cert.Pre_input_domain.Gen.facts) :=
  Cert.Proof.RefSide.ref_frame

/-- The kernel at the ideal instance runs and leaves its arguments unchanged: its run with the result's value dropped. -/
theorem frame_ki : Cert.frame_KernelIdeal (hKernelIdeal := Cert.KernelIdeal.Gen.facts) (hPre_input_domain := Cert.Pre_input_domain.Gen.facts) :=
  fun m ρ hpre => (θ_run Cert.KernelIdeal.defs _ _).mono (fun _ h c => ⟨(h c).2.1, (h c).2.2⟩)
    (Cert.Proof.KI.run_main (F := Ideal) m ρ (Cert.Proof.KI.tile_body m)
      (Cert.Proof.KI.XOf_lt m fun d => Cert.Proof.PreRange.atoms_lt _ _ (hpre d)))

/-- The kernel as printed, on words, runs and leaves its arguments unchanged: the same run at the word-level instance. -/
theorem frame_k : Cert.frame_Kernel (hKernel := Cert.Kernel.Gen.facts) (hPre_input_domain := Cert.Pre_input_domain.Gen.facts) :=
  fun m ρ hpre => (θ_run Cert.Kernel.defs _ _).mono (fun _ h c => ⟨(h c).2.1, (h c).2.2⟩)
    (Cert.Proof.KB.run_main (F := Bits) m ρ (Cert.Proof.KB.tile_body m)
      (Cert.Proof.KB.XOf_lt m fun d => Cert.Proof.PreRange.atoms_lt _ _ (hpre d)))

/-- At the ideal instance, from memories agreeing on the arguments, both programs run, leave the arguments unchanged, and
    end with the same result: entry b of either is the sum over molecule b's 200 atoms of the looked-up weight. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hrng : ∀ c i, (m (Cert.Proof.KI.aLoc c) i).toNat < 100 := fun c => Cert.Proof.PreRange.atoms_lt _ _ (hpre c)
  refine ⟨fun c => Cert.Proof.KI.OutOf m c,
    Cert.Proof.KI.run_main (F := Ideal) m g (Cert.Proof.KI.tile_body m) (Cert.Proof.KI.XOf_lt m hrng), ?_⟩
  refine (θ_run Cert.ReferenceIdeal.defs _ _).mono (fun r h c => ⟨?_, (h c).2⟩) (Cert.Proof.RefSide.ref_run m' g')
  rw [(h c).1, (hagree c).1, (hagree c).2]
  funext o
  obtain ⟨b, rfl⟩ : ∃ b : Fin 16384, o = ValueIdx.ix1 b := ⟨o 0, ValueIdx.eq_ix1 (n := 16384) o⟩
  exact (Cert.Proof.RefSide.refOut_apply _ _ (hrng c) b).trans (Cert.Proof.KI.Bridge.kerOut_apply _ _ (hrng c) b).symm

theorem claim : Cert.Claim :=
  ⟨Cert.Kernel.Gen.facts, Cert.KernelIdeal.Gen.facts, Cert.ReferenceIdeal.Gen.facts, Cert.Pre_input_domain.Gen.facts,
    frame_k, frame_ki, frame_r, trivial, algebraic⟩

end Cert.Proof

end
